-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x2 : Shape := ⟨2, ![20000, 2]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S414626 : Shape := ⟨1, ![414626]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x2 : S_.BroadcastsInDim S20000x2 (![] : Fin 0 → Fin S20000x2.rank)
  reducesTo_S20000x2_S_d0_1 : S20000x2.ReducesTo [0, 1] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S414626 : S_.BroadcastsInDim S414626 (![] : Fin 0 → Fin S414626.rank)
  reducesTo_S414626_S_d0 : S414626.ReducesTo [0] S_

variable [Facts]

def fn_part6 {F : FTy → Type} [FloatOps F] (main_arg21 : FVec F S128 .f32) (main_arg22 : IVec S414626 32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S414626 32 := broadcastInDim S414626 ![] bcast_S_S414626 main_c_42
  let main_v110 : IVec S414626 1 := cmpi .sge main_arg22 main_v109
  let main_c_43 : IVec S_ 1 := constantI S_ 1 1#1
  let main_v111 : IVec S_ 1 := (fun x v => Host.reduce IntOp.andi x v reducesTo_S414626_S_d0 h_S_) main_v110 main_c_43
  let main_v112 : IVec S_ 1 := andi main_v108 main_v111
  main_v112

def fn_part5 {F : FTy → Type} [FloatOps F] (main_arg18 : FVec F S128 .f32) (main_arg19 : FVec F S128x128 .f32) (main_arg20 : FVec F S128 .f32) (main_arg21 : FVec F S128 .f32) (main_arg22 : IVec S414626 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S414626 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128 .f32) (main_arg12 : FVec F S128x384 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S414626 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x384 .f32 := Host.absf main_arg12
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128 .f32) (main_arg8 : FVec F S128 .f32) (main_arg9 : FVec F S128x128 .f32) (main_arg10 : FVec F S128 .f32) (main_arg11 : FVec F S128 .f32) (main_arg12 : FVec F S128x384 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S414626 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128x2 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S128x384 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S414626 32) (main_v13 : IVec S_ 1) (main_v16 : IVec S20000x2 1) : IVec S_ 1 :=
  let main_c_5 : IVec S_ 1 := constantI S_ 1 1#1
  let main_v17 : IVec S_ 1 := (fun x v => Host.reduce IntOp.andi x v reducesTo_S20000x2_S_d0_1 h_S_) main_v16 main_c_5
  let main_v18 : IVec S_ 1 := andi main_v13 main_v17
  let main_v19 : FVec F S128x2 .f32 := Host.absf main_arg4
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S20000x128 .f32) (main_arg1 : FVec F S20000x128 .f32) (main_arg2 : FVec F S20000x2 .f32) (main_arg3 : FVec F S20000x2 .f32) (main_arg4 : FVec F S128x2 .f32) (main_arg5 : FVec F S128 .f32) (main_arg6 : FVec F S128x128 .f32) (main_arg7 : FVec F S128 .f32) (main_arg8 : FVec F S128 .f32) (main_arg9 : FVec F S128x128 .f32) (main_arg10 : FVec F S128 .f32) (main_arg11 : FVec F S128 .f32) (main_arg12 : FVec F S128x384 .f32) (main_arg13 : FVec F S128 .f32) (main_arg14 : FVec F S128 .f32) (main_arg15 : FVec F S128x128 .f32) (main_arg16 : FVec F S128x128 .f32) (main_arg17 : FVec F S128 .f32) (main_arg18 : FVec F S128 .f32) (main_arg19 : FVec F S128x128 .f32) (main_arg20 : FVec F S128 .f32) (main_arg21 : FVec F S128 .f32) (main_arg22 : IVec S414626 32) (main_arg23 : IVec S414626 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S20000x2 .f32 := Host.absf main_arg2
  let main_cst_2 : FVec F S_ .f32 := constant S_ .f32 0x7F800000#32
  let main_v10 : FVec F S20000x2 .f32 := broadcastInDim S20000x2 ![] bcast_S_S20000x2 main_cst_2
  let main_v11 : IVec S20000x2 1 := cmpf .olt main_v9 main_v10
  let main_c_3 : IVec S_ 1 := constantI S_ 1 1#1
  let main_v12 : IVec S_ 1 := (fun x v => Host.reduce IntOp.andi x v reducesTo_S20000x2_S_d0_1 h_S_) main_v11 main_c_3
  let main_v13 : IVec S_ 1 := andi main_v8 main_v12
  let main_v14 : FVec F S20000x2 .f32 := Host.absf main_arg3
  let main_cst_4 : FVec F S_ .f32 := constant S_ .f32 0x7F800000#32
  let main_v15 : FVec F S20000x2 .f32 := broadcastInDim S20000x2 ![] bcast_S_S20000x2 main_cst_4
  let main_v16 : IVec S20000x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S20000x128 : Shape := ⟨2, ![20000, 128]⟩
abbrev S20000x2 : Shape := ⟨2, ![20000, 2]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S414626 : Shape := ⟨1, ![414626]⟩
abbrev S_ : Shape := ⟨0, ![]⟩
abbrev S414626x1 : Shape := ⟨2, ![414626, 1]⟩
abbrev S414626x2 : Shape := ⟨2, ![414626, 2]⟩
abbrev S414626x128 : Shape := ⟨2, ![414626, 128]⟩
abbrev S2x128 : Shape := ⟨2, ![2, 128]⟩
abbrev S384x128 : Shape := ⟨2, ![384, 128]⟩
abbrev S416000x2 : Shape := ⟨2, ![416000, 2]⟩
abbrev S416000x128 : Shape := ⟨2, ![416000, 128]⟩
abbrev S1x128 : Shape := ⟨2, ![1, 128]⟩
abbrev S2000x2 : Shape := ⟨2, ![2000, 2]⟩
abbrev S2000x128 : Shape := ⟨2, ![2000, 128]⟩
abbrev S2000 : Shape := ⟨1, ![2000]⟩
abbrev S2000x1 : Shape := ⟨2, ![2000, 1]⟩
abbrev S2000x384 : Shape := ⟨2, ![2000, 384]⟩
abbrev S4000x128 : Shape := ⟨2, ![4000, 128]⟩
abbrev S4000 : Shape := ⟨1, ![4000]⟩
abbrev S4000x1 : Shape := ⟨2, ![4000, 1]⟩

abbrev nBuf : Space → Nat
  | .hbm => 103
  | .vmem => 32
  | .smem => 0
  | _ => 0

abbrev bufTy : (tb : Table) → Fin (tcTables nBuf tb) → BufTy
  | .hbm, ⟨0, _⟩ => ⟨S20000x128, .f32⟩
  | .hbm, ⟨1, _⟩ => ⟨S20000x128, .f32⟩
  | .hbm, ⟨2, _⟩ => ⟨S20000x2, .f32⟩
  | .hbm, ⟨3, _⟩ => ⟨S20000x2, .f32⟩
  | .hbm, ⟨4, _⟩ => ⟨S128x2, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x384, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S414626, .i32⟩
  | .hbm, ⟨23, _⟩ => ⟨S414626, .i32⟩
  | .hbm, ⟨24, _⟩ => ⟨S_, .i32⟩
  | .hbm, ⟨25, _⟩ => ⟨S414626, .i32⟩
  | .hbm, ⟨26, _⟩ => ⟨S414626, .i1⟩
  | .hbm, ⟨27, _⟩ => ⟨S_, .i32⟩
  | .hbm, ⟨28, _⟩ => ⟨S414626, .i32⟩
  | .hbm, ⟨29, _⟩ => ⟨S414626, .i32⟩
  | .hbm, ⟨30, _⟩ => ⟨S414626, .i32⟩
  | .hbm, ⟨31, _⟩ => ⟨S414626x1, .i32⟩
  | .hbm, ⟨32, _⟩ => ⟨S414626x2, .f32⟩
  | .hbm, ⟨33, _⟩ => ⟨S_, .i32⟩
  | .hbm, ⟨34, _⟩ => ⟨S414626, .i32⟩
  | .hbm, ⟨35, _⟩ => ⟨S414626, .i1⟩
  | .hbm, ⟨36, _⟩ => ⟨S_, .i32⟩
  | .hbm, ⟨37, _⟩ => ⟨S414626, .i32⟩
  | .hbm, ⟨38, _⟩ => ⟨S414626, .i32⟩
  | .hbm, ⟨39, _⟩ => ⟨S414626, .i32⟩
  | .hbm, ⟨40, _⟩ => ⟨S414626x1, .i32⟩
  | .hbm, ⟨41, _⟩ => ⟨S414626x2, .f32⟩
  | .hbm, ⟨42, _⟩ => ⟨S414626x2, .f32⟩
  | .hbm, ⟨43, _⟩ => ⟨S20000x128, .bf16⟩
  | .hbm, ⟨44, _⟩ => ⟨S20000x128, .bf16⟩
  | .hbm, ⟨45, _⟩ => ⟨S_, .i32⟩
  | .hbm, ⟨46, _⟩ => ⟨S414626, .i32⟩
  | .hbm, ⟨47, _⟩ => ⟨S414626, .i1⟩
  | .hbm, ⟨48, _⟩ => ⟨S_, .i32⟩
  | .hbm, ⟨49, _⟩ => ⟨S414626, .i32⟩
  | .hbm, ⟨50, _⟩ => ⟨S414626, .i32⟩
  | .hbm, ⟨51, _⟩ => ⟨S414626, .i32⟩
  | .hbm, ⟨52, _⟩ => ⟨S414626x1, .i32⟩
  | .hbm, ⟨53, _⟩ => ⟨S414626x128, .bf16⟩
  | .hbm, ⟨54, _⟩ => ⟨S_, .i32⟩
  | .hbm, ⟨55, _⟩ => ⟨S414626, .i32⟩
  | .hbm, ⟨56, _⟩ => ⟨S414626, .i1⟩
  | .hbm, ⟨57, _⟩ => ⟨S_, .i32⟩
  | .hbm, ⟨58, _⟩ => ⟨S414626, .i32⟩
  | .hbm, ⟨59, _⟩ => ⟨S414626, .i32⟩
  | .hbm, ⟨60, _⟩ => ⟨S414626, .i32⟩
  | .hbm, ⟨61, _⟩ => ⟨S414626x1, .i32⟩
  | .hbm, ⟨62, _⟩ => ⟨S414626x128, .bf16⟩
  | .hbm, ⟨63, _⟩ => ⟨S2x128, .f32⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S384x128, .f32⟩
  | .hbm, ⟨69, _⟩ => ⟨S384x128, .bf16⟩
  | .hbm, ⟨70, _⟩ => ⟨S128x128, .f32⟩
  | .hbm, ⟨71, _⟩ => ⟨S128x128, .bf16⟩
  | .hbm, ⟨72, _⟩ => ⟨S_, .i32⟩
  | .hbm, ⟨73, _⟩ => ⟨S_, .f32⟩
  | .hbm, ⟨74, _⟩ => ⟨S416000x2, .f32⟩
  | .hbm, ⟨75, _⟩ => ⟨S_, .i32⟩
  | .hbm, ⟨76, _⟩ => ⟨S_, .bf16⟩
  | .hbm, ⟨77, _⟩ => ⟨S416000x128, .bf16⟩
  | .hbm, ⟨78, _⟩ => ⟨S_, .i32⟩
  | .hbm, ⟨79, _⟩ => ⟨S_, .bf16⟩
  | .hbm, ⟨80, _⟩ => ⟨S416000x128, .bf16⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S416000x128, .f32⟩
  | .hbm, ⟨89, _⟩ => ⟨S414626x128, .f32⟩
  | .hbm, ⟨90, _⟩ => ⟨S_, .f32⟩
  | .hbm, ⟨91, _⟩ => ⟨S20000x128, .f32⟩
  | .hbm, ⟨92, _⟩ => ⟨S414626x1, .i32⟩
  | .hbm, ⟨93, _⟩ => ⟨S20000x128, .f32⟩
  | .hbm, ⟨94, _⟩ => ⟨S128x128, .f32⟩
  | .hbm, ⟨95, _⟩ => ⟨S128x128, .bf16⟩
  | .hbm, ⟨96, _⟩ => ⟨S128x128, .f32⟩
  | .hbm, ⟨97, _⟩ => ⟨S128x128, .bf16⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S20000x128, .f32⟩
  | .local _ .vmem, ⟨0, _⟩ => ⟨S2000x2, .f32⟩
  | .local _ .vmem, ⟨1, _⟩ => ⟨S2000x2, .f32⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2x128, .f32⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S384x128, .bf16⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S2000x128, .f32⟩
  | .local _ .vmem, ⟨19, _⟩ => ⟨S2000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .bf16⟩
  | .local _ .vmem, ⟨25, _⟩ => ⟨S1x128, .f32⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_call0_v0 : Ref sig .tc := ⟨.hbm, 73, rfl⟩
abbrev main_v40 : Ref sig .tc := ⟨.hbm, 74, rfl⟩
abbrev main_c_8 : Ref sig .tc := ⟨.hbm, 75, rfl⟩
abbrev main_call1_v0 : Ref sig .tc := ⟨.hbm, 76, rfl⟩
abbrev main_v41 : Ref sig .tc := ⟨.hbm, 77, rfl⟩
abbrev main_c_9 : Ref sig .tc := ⟨.hbm, 78, rfl⟩
abbrev main_call2_v0 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![208], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S414626 : S_.BroadcastsInDim S414626 (![] : Fin 0 → Fin S414626.rank)
  bcast_S414626_S414626x1_0 : S414626.BroadcastsInDim S414626x1 (![0] : Fin 1 → Fin S414626x1.rank)
  bitsLt_bf16_f32 : FTy.bits .bf16 < FTy.bits .f32
  transposes_S128x2_S2x128_1_0 : S128x2.Transposes [1, 0] S2x128
  transposes_S128x128_S128x128_1_0 : S128x128.Transposes [1, 0] S128x128
  transposes_S128x384_S384x128_1_0 : S128x384.Transposes [1, 0] S384x128
  pads_S414626x2_S416000x2_013740_000 : S414626x2.Pads (![0, 0] : Fin 2 → Nat) ![1374, 0] ![0, 0] S416000x2
  h_S_ : 0 < S_.numel
  pads_S414626x128_S416000x128_013740_000 : S414626x128.Pads (![0, 0] : Fin 2 → Nat) ![1374, 0] ![0, 0] S416000x128
  shapeCasts_S128_S1x128 : S128.ShapeCasts S1x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S416000x128_S414626x128_0_0 : S416000x128.Slices ![0, 0] S414626x128
  bcast_S_S20000x128 : S_.BroadcastsInDim S20000x128 (![] : Fin 0 → Fin S20000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  broadcasts_S1x128_S4000x128 : S1x128.Broadcasts S4000x128
  gather_S20000x2_S414626x1_S414626x2_1_0_n_n_0_1_12_wf : GatherDims.WF S20000x2 S414626x1 S414626x2 [1] [0] [] [0] [] 1 ![1, 2]
  gather_S20000x128_S414626x1_S414626x128_1_0_n_n_0_1_1128_wf : GatherDims.WF S20000x128 S414626x1 S414626x128 [1] [0] [] [0] [] 1 ![1, 128]
  dot_S2000x2_S2x128_S2000x128_1_0_0_1_n_n_wf : DotDims.WF S2000x2 S2x128 S2000x128 [1] [0] [0] [1] [] []
  dot_S2000x128_S128x128_S2000x128_1_0_0_1_n_n_wf : DotDims.WF S2000x128 S128x128 S2000x128 [1] [0] [0] [1] [] []
  dot_S2000x384_S384x128_S2000x128_1_0_0_1_n_n_wf : DotDims.WF S2000x384 S384x128 S2000x128 [1] [0] [0] [1] [] []
  scatter_S20000x128_S414626x1_S414626x128_1_0_0_1_wf : ScatterDims.WF S20000x128 S414626x1 S414626x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S416000x2.size a
  hwx0_0 : ∀ i : grid0.Coords, EltTy.bits .f32 = 32 ∨ (Rect.block (s := S416000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S416000x128.size a
  hwx0_1 : ∀ i : grid0.Coords, EltTy.bits .bf16 = 32 ∨ (Rect.block (s := S416000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S416000x128.size a
  hwx0_2 : ∀ i : grid0.Coords, EltTy.bits .bf16 = 32 ∨ (Rect.block (s := S416000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x128.size a ≤ S384x128.size a
  hwx0_11 : ∀ i : grid0.Coords, EltTy.bits .bf16 = 32 ∨ (Rect.block (s := S384x128) S384x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S416000x128.size a
  hwx0_15 : ∀ i : grid0.Coords, EltTy.bits .f32 = 32 ∨ (Rect.block (s := S416000x128) S2000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S20000x128.size a
  hwx1_8 : ∀ i : grid1.Coords, EltTy.bits .f32 = 32 ∨ (Rect.block (s := S20000x128) S4000x128.size (cc1_transform_8 i) (hinb1_8 i)).WholeWords (EltTy.packing .f32)

variable [Facts₀]

def gather_S20000x2_S414626x1_S414626x2_1_0_n_n_0_1_12 : GatherDims S20000x2 S414626x1 S414626x2 where
  offsetDims := [1]
  collapsedSliceDims := [0]
  operandBatchingDims := []
  startIndicesBatchingDims := []
  startIndexMap := [0]
  indexVectorDim := 1
  sliceSizes := ![1, 2]
  wf := gather_S20000x2_S414626x1_S414626x2_1_0_n_n_0_1_12_wf
def gather_S20000x128_S414626x1_S414626x128_1_0_n_n_0_1_1128 : GatherDims S20000x128 S414626x1 S414626x128 where
  offsetDims := [1]
  collapsedSliceDims := [0]
  operandBatchingDims := []
  startIndicesBatchingDims := []
  startIndexMap := [0]
  indexVectorDim := 1
  sliceSizes := ![1, 128]
  wf := gather_S20000x128_S414626x1_S414626x128_1_0_n_n_0_1_1128_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def scatter_S20000x128_S414626x1_S414626x128_1_0_0_1 : ScatterDims S20000x128 S414626x1 S414626x128 where
  updateWindowDims := [1]
  insertedWindowDims := [0]
  scatterDimsToOperandDims := [0]
  indexVectorDim := 1
  wf := scatter_S20000x128_S414626x1_S414626x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v40) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S384x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v49) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v39) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v50) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x2 : Shape := ⟨2, ![20000, 2]⟩
abbrev S128x2 : Shape := ⟨2, ![128, 2]⟩
abbrev S128 : Shape := ⟨1, ![128]⟩
abbrev S128x128 : Shape := ⟨2, ![128, 128]⟩
abbrev S128x384 : Shape := ⟨2, ![128, 384]⟩
abbrev S414626 : Shape := ⟨1, ![414626]⟩
abbrev S_ : Shape := ⟨0, ![]⟩
abbrev S414626x1 : Shape := ⟨2, ![414626, 1]⟩
abbrev S414626x2 : Shape := ⟨2, ![414626, 2]⟩
abbrev S2x128 : Shape := ⟨2, ![2, 128]⟩
abbrev S414626x128 : Shape := ⟨2, ![414626, 128]⟩
abbrev S1x128 : Shape := ⟨2, ![1, 128]⟩
abbrev S414626x384 : Shape := ⟨2, ![414626, 384]⟩
abbrev S384x128 : Shape := ⟨2, ![384, 128]⟩
abbrev S20000 : Shape := ⟨1, ![20000]⟩
abbrev S20000x1 : Shape := ⟨2, ![20000, 1]⟩

abbrev nBuf : Space → Nat
  | .hbm => 252
  | .vmem => 0
  | .smem => 0
  | _ => 0

abbrev hbmTy0_0 (i : Nat) : BufTy := match i % 128 with
  | 0 => ⟨S20000x128, .f32⟩
  | 1 => ⟨S20000x128, .f32⟩
  | 2 => ⟨S20000x2, .f32⟩
  | 3 => ⟨S20000x2, .f32⟩
  | 4 => ⟨S128x2, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x384, .f32⟩
  | 13 => ⟨S128, .f32⟩
  | 14 => ⟨S128, .f32⟩
  | 15 => ⟨S128x128, .f32⟩
  | 16 => ⟨S128x128, .f32⟩
  | 17 => ⟨S128, .f32⟩
  | 18 => ⟨S128, .f32⟩
  | 19 => ⟨S128x128, .f32⟩
  | 20 => ⟨S128, .f32⟩
  | 21 => ⟨S128, .f32⟩
  | 22 => ⟨S414626, .i32⟩
  | 23 => ⟨S414626, .i32⟩
  | 24 => ⟨S_, .i32⟩
  | 25 => ⟨S414626, .i32⟩
  | 26 => ⟨S414626, .i1⟩
  | 27 => ⟨S_, .i32⟩
  | 28 => ⟨S414626, .i32⟩
  | 29 => ⟨S414626, .i32⟩
  | 30 => ⟨S414626, .i32⟩
  | 31 => ⟨S414626x1, .i32⟩
  | 32 => ⟨S414626x2, .f32⟩
  | 33 => ⟨S_, .i32⟩
  | 34 => ⟨S414626, .i32⟩
  | 35 => ⟨S414626, .i1⟩
  | 36 => ⟨S_, .i32⟩
  | 37 => ⟨S414626, .i32⟩
  | 38 => ⟨S414626, .i32⟩
  | 39 => ⟨S414626, .i32⟩
  | 40 => ⟨S414626x1, .i32⟩
  | 41 => ⟨S414626x2, .f32⟩
  | 42 => ⟨S414626x2, .f32⟩
  | 43 => ⟨S2x128, .f32⟩
  | 44 => ⟨S414626x128, .f32⟩
  | 45 => ⟨S1x128, .f32⟩
  | 46 => ⟨S414626x128, .f32⟩
  | 47 => ⟨S414626x128, .f32⟩
  | 48 => ⟨S_, .f32⟩
  | 49 => ⟨S414626x128, .f32⟩
  | 50 => ⟨S414626x128, .f32⟩
  | 51 => ⟨S128x128, .f32⟩
  | 52 => ⟨S414626x128, .f32⟩
  | 53 => ⟨S_, .f32⟩
  | 54 => ⟨S414626, .f32⟩
  | 55 => ⟨S414626x1, .f32⟩
  | 56 => ⟨S_, .f32⟩
  | 57 => ⟨S414626x1, .f32⟩
  | 58 => ⟨S414626x1, .f32⟩
  | 59 => ⟨S414626x128, .f32⟩
  | 60 => ⟨S414626x128, .f32⟩
  | 61 => ⟨S414626x128, .f32⟩
  | 62 => ⟨S_, .f32⟩
  | 63 => ⟨S414626, .f32⟩
  | 64 => ⟨S414626x1, .f32⟩
  | 65 => ⟨S_, .f32⟩
  | 66 => ⟨S414626x1, .f32⟩
  | 67 => ⟨S414626x1, .f32⟩
  | 68 => ⟨S414626x128, .f32⟩
  | 69 => ⟨S414626x128, .f32⟩
  | 70 => ⟨S_, .f32⟩
  | 71 => ⟨S414626x1, .f32⟩
  | 72 => ⟨S414626x1, .f32⟩
  | 73 => ⟨S414626x1, .f32⟩
  | 74 => ⟨S414626x128, .f32⟩
  | 75 => ⟨S414626x128, .f32⟩
  | 76 => ⟨S1x128, .f32⟩
  | 77 => ⟨S414626x128, .f32⟩
  | 78 => ⟨S414626x128, .f32⟩
  | 79 => ⟨S1x128, .f32⟩
  | 80 => ⟨S414626x128, .f32⟩
  | 81 => ⟨S414626x128, .f32⟩
  | 82 => ⟨S_, .f32⟩
  | 83 => ⟨S414626x128, .f32⟩
  | 84 => ⟨S414626x128, .f32⟩
  | 85 => ⟨S_, .i32⟩
  | 86 => ⟨S414626, .i32⟩
  | 87 => ⟨S414626, .i1⟩
  | 88 => ⟨S_, .i32⟩
  | 89 => ⟨S414626, .i32⟩
  | 90 => ⟨S414626, .i32⟩
  | 91 => ⟨S414626, .i32⟩
  | 92 => ⟨S414626x1, .i32⟩
  | 93 => ⟨S414626x128, .f32⟩
  | 94 => ⟨S128x128, .f32⟩
  | 95 => ⟨S414626x128, .f32⟩
  | 96 => ⟨S_, .f32⟩
  | 97 => ⟨S414626, .f32⟩
  | 98 => ⟨S414626x1, .f32⟩
  | 99 => ⟨S_, .f32⟩
  | 100 => ⟨S414626x1, .f32⟩
  | 101 => ⟨S414626x1, .f32⟩
  | 102 => ⟨S414626x128, .f32⟩
  | 103 => ⟨S414626x128, .f32⟩
  | 104 => ⟨S414626x128, .f32⟩
  | 105 => ⟨S_, .f32⟩
  | 106 => ⟨S414626, .f32⟩
  | 107 => ⟨S414626x1, .f32⟩
  | 108 => ⟨S_, .f32⟩
  | 109 => ⟨S414626x1, .f32⟩
  | 110 => ⟨S414626x1, .f32⟩
  | 111 => ⟨S414626x128, .f32⟩
  | 112 => ⟨S414626x128, .f32⟩
  | 113 => ⟨S_, .f32⟩
  | 114 => ⟨S414626x1, .f32⟩
  | 115 => ⟨S414626x1, .f32⟩
  | 116 => ⟨S414626x1, .f32⟩
  | 117 => ⟨S414626x128, .f32⟩
  | 118 => ⟨S414626x128, .f32⟩
  | 119 => ⟨S1x128, .f32⟩
  | 120 => ⟨S414626x128, .f32⟩
  | 121 => ⟨S414626x128, .f32⟩
  | 122 => ⟨S1x128, .f32⟩
  | 123 => ⟨S414626x128, .f32⟩
  | 124 => ⟨S414626x128, .f32⟩
  | 125 => ⟨S_, .f32⟩
  | 126 => ⟨S414626x128, .f32⟩
  | 127 => ⟨S414626x128, .f32⟩
  | _ => ⟨S20000x128, .f32⟩

abbrev hbmTy0_1 (i : Nat) : BufTy := match i % 128 with
  | 0 => ⟨S_, .i32⟩
  | 1 => ⟨S414626, .i32⟩
  | 2 => ⟨S414626, .i1⟩
  | 3 => ⟨S_, .i32⟩
  | 4 => ⟨S414626, .i32⟩
  | 5 => ⟨S414626, .i32⟩
  | 6 => ⟨S414626, .i32⟩
  | 7 => ⟨S414626x1, .i32⟩
  | 8 => ⟨S414626x128, .f32⟩
  | 9 => ⟨S414626x384, .f32⟩
  | 10 => ⟨S384x128, .f32⟩
  | 11 => ⟨S414626x128, .f32⟩
  | 12 => ⟨S_, .f32⟩
  | 13 => ⟨S414626, .f32⟩
  | 14 => ⟨S414626x1, .f32⟩
  | 15 => ⟨S_, .f32⟩
  | 16 => ⟨S414626x1, .f32⟩
  | 17 => ⟨S414626x1, .f32⟩
  | 18 => ⟨S414626x128, .f32⟩
  | 19 => ⟨S414626x128, .f32⟩
  | 20 => ⟨S414626x128, .f32⟩
  | 21 => ⟨S_, .f32⟩
  | 22 => ⟨S414626, .f32⟩
  | 23 => ⟨S414626x1, .f32⟩
  | 24 => ⟨S_, .f32⟩
  | 25 => ⟨S414626x1, .f32⟩
  | 26 => ⟨S414626x1, .f32⟩
  | 27 => ⟨S414626x128, .f32⟩
  | 28 => ⟨S414626x128, .f32⟩
  | 29 => ⟨S_, .f32⟩
  | 30 => ⟨S414626x1, .f32⟩
  | 31 => ⟨S414626x1, .f32⟩
  | 32 => ⟨S414626x1, .f32⟩
  | 33 => ⟨S414626x128, .f32⟩
  | 34 => ⟨S414626x128, .f32⟩
  | 35 => ⟨S1x128, .f32⟩
  | 36 => ⟨S414626x128, .f32⟩
  | 37 => ⟨S414626x128, .f32⟩
  | 38 => ⟨S1x128, .f32⟩
  | 39 => ⟨S414626x128, .f32⟩
  | 40 => ⟨S414626x128, .f32⟩
  | 41 => ⟨S_, .f32⟩
  | 42 => ⟨S414626x128, .f32⟩
  | 43 => ⟨S414626x128, .f32⟩
  | 44 => ⟨S128x128, .f32⟩
  | 45 => ⟨S414626x128, .f32⟩
  | 46 => ⟨S128x128, .f32⟩
  | 47 => ⟨S20000x128, .f32⟩
  | 48 => ⟨S_, .i32⟩
  | 49 => ⟨S414626, .i32⟩
  | 50 => ⟨S414626, .i1⟩
  | 51 => ⟨S_, .i32⟩
  | 52 => ⟨S414626, .i32⟩
  | 53 => ⟨S414626, .i32⟩
  | 54 => ⟨S414626, .i32⟩
  | 55 => ⟨S414626x1, .i32⟩
  | 56 => ⟨S20000x128, .f32⟩
  | 57 => ⟨S_, .f32⟩
  | 58 => ⟨S20000, .f32⟩
  | 59 => ⟨S20000x1, .f32⟩
  | 60 => ⟨S_, .f32⟩
  | 61 => ⟨S20000x1, .f32⟩
  | 62 => ⟨S20000x1, .f32⟩
  | 63 => ⟨S20000x128, .f32⟩
  | 64 => ⟨S20000x128, .f32⟩
  | 65 => ⟨S20000x128, .f32⟩
  | 66 => ⟨S_, .f32⟩
  | 67 => ⟨S20000, .f32⟩
  | 68 => ⟨S20000x1, .f32⟩
  | 69 => ⟨S_, .f32⟩
  | 70 => ⟨S20000x1, .f32⟩
  | 71 => ⟨S20000x1, .f32⟩
  | 72 => ⟨S20000x128, .f32⟩
  | 73 => ⟨S20000x128, .f32⟩
  | 74 => ⟨S_, .f32⟩
  | 75 => ⟨S20000x1, .f32⟩
  | 76 => ⟨S20000x1, .f32⟩
  | 77 => ⟨S20000x1, .f32⟩
  | 78 => ⟨S20000x128, .f32⟩
  | 79 => ⟨S20000x128, .f32⟩
  | 80 => ⟨S1x128, .f32⟩
  | 81 => ⟨S20000x128, .f32⟩
  | 82 => ⟨S20000x128, .f32⟩
  | 83 => ⟨S1x128, .f32⟩
  | 84 => ⟨S20000x128, .f32⟩
  | 85 => ⟨S20000x128, .f32⟩
  | 86 => ⟨S_, .f32⟩
  | 87 => ⟨S20000x128, .f32⟩
  | 88 => ⟨S20000x128, .f32⟩
  | 89 => ⟨S128x128, .f32⟩
  | 90 => ⟨S20000x128, .f32⟩
  | 91 => ⟨S_, .f32⟩
  | 92 => ⟨S20000, .f32⟩
  | 93 => ⟨S20000x1, .f32⟩
  | 94 => ⟨S_, .f32⟩
  | 95 => ⟨S20000x1, .f32⟩
  | 96 => ⟨S20000x1, .f32⟩
  | 97 => ⟨S20000x128, .f32⟩
  | 98 => ⟨S20000x128, .f32⟩
  | 99 => ⟨S20000x128, .f32⟩
  | 100 => ⟨S_, .f32⟩
  | 101 => ⟨S20000, .f32⟩
  | 102 => ⟨S20000x1, .f32⟩
  | 103 => ⟨S_, .f32⟩
  | 104 => ⟨S20000x1, .f32⟩
  | 105 => ⟨S20000x1, .f32⟩
  | 106 => ⟨S20000x128, .f32⟩
  | 107 => ⟨S20000x128, .f32⟩
  | 108 => ⟨S_, .f32⟩
  | 109 => ⟨S20000x1, .f32⟩
  | 110 => ⟨S20000x1, .f32⟩
  | 111 => ⟨S20000x1, .f32⟩
  | 112 => ⟨S20000x128, .f32⟩
  | 113 => ⟨S20000x128, .f32⟩
  | 114 => ⟨S1x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S20000x128, .f32⟩
  | 121 => ⟨S_, .f32⟩
  | 122 => ⟨S20000x128, .f32⟩
  | 123 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call0_cst : Ref sig .tc := ⟨.hbm, 48, rfl⟩
abbrev main_call0_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call1_cst : Ref sig .tc := ⟨.hbm, 82, rfl⟩
abbrev main_call1_v0 : Ref sig .tc := ⟨.hbm, 83, rfl⟩
abbrev main_v47 : Ref sig .tc := ⟨.hbm, 84, rfl⟩
abbrev main_c_7 : Ref sig .tc := ⟨.hbm, 85, rfl⟩
abbrev main_v48 : Ref sig .tc := ⟨.hbm, 86, rfl⟩
abbrev main_v49 : Ref sig .tc := ⟨.hbm, 87, rfl⟩
abbrev main_c_8 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_cst_10 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call2_cst : Ref sig .tc := ⟨.hbm, 125, rfl⟩
abbrev main_call2_v0 : Ref sig .tc := ⟨.hbm, 126, rfl⟩
abbrev main_v81 : Ref sig .tc := ⟨.hbm, 127, rfl⟩
abbrev main_c_14 : Ref sig .tc := ⟨.hbm, 128, rfl⟩
abbrev main_v82 : Ref sig .tc := ⟨.hbm, 129, rfl⟩
abbrev main_v83 : Ref sig .tc := ⟨.hbm, 130, rfl⟩
abbrev main_c_15 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_16 : Ref sig .tc := ⟨.hbm, 140, rfl⟩
abbrev main_v92 : Ref sig .tc := ⟨.hbm, 141, rfl⟩
abbrev main_v93 : Ref sig .tc := ⟨.hbm, 142, rfl⟩
abbrev main_cst_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_18 : Ref sig .tc := ⟨.hbm, 149, rfl⟩
abbrev main_v99 : Ref sig .tc := ⟨.hbm, 150, rfl⟩
abbrev main_v100 : Ref sig .tc := ⟨.hbm, 151, rfl⟩
abbrev main_cst_19 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_20 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_call3_cst : Ref sig .tc := ⟨.hbm, 169, rfl⟩
abbrev main_call3_v0 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_21 : Ref sig .tc := ⟨.hbm, 176, rfl⟩
abbrev main_v121 : Ref sig .tc := ⟨.hbm, 177, rfl⟩
abbrev main_v122 : Ref sig .tc := ⟨.hbm, 178, rfl⟩
abbrev main_c_22 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_23 : Ref sig .tc := ⟨.hbm, 185, rfl⟩
abbrev main_v128 : Ref sig .tc := ⟨.hbm, 186, rfl⟩
abbrev main_v129 : Ref sig .tc := ⟨.hbm, 187, rfl⟩
abbrev main_cst_24 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_25 : Ref sig .tc := ⟨.hbm, 194, rfl⟩
abbrev main_v135 : Ref sig .tc := ⟨.hbm, 195, rfl⟩
abbrev main_v136 : Ref sig .tc := ⟨.hbm, 196, rfl⟩
abbrev main_cst_26 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_27 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call4_cst : Ref sig .tc := ⟨.hbm, 214, rfl⟩
abbrev main_call4_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_28 : Ref sig .tc := ⟨.hbm, 219, rfl⟩
abbrev main_v155 : Ref sig .tc := ⟨.hbm, 220, rfl⟩
abbrev main_v156 : Ref sig .tc := ⟨.hbm, 221, rfl⟩
abbrev main_cst_29 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_30 : Ref sig .tc := ⟨.hbm, 228, rfl⟩
abbrev main_v162 : Ref sig .tc := ⟨.hbm, 229, rfl⟩
abbrev main_v163 : Ref sig .tc := ⟨.hbm, 230, rfl⟩
abbrev main_cst_31 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_32 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_call5_cst : Ref sig .tc := ⟨.hbm, 249, rfl⟩
abbrev main_call5_v0 : Ref sig .tc := ⟨.hbm, 250, rfl⟩
abbrev main_v180 : Ref sig .tc := ⟨.hbm, 251, rfl⟩

abbrev nD : Nat := 1
abbrev τ : Topo := Topo.v7x

variable {F : FTy → Type} [FloatOps F]

class Facts₀ : Prop where
  bcast_S_S414626 : S_.BroadcastsInDim S414626 (![] : Fin 0 → Fin S414626.rank)
  bcast_S414626_S414626x1_0 : S414626.BroadcastsInDim S414626x1 (![0] : Fin 1 → Fin S414626x1.rank)
  transposes_S128x2_S2x128_1_0 : S128x2.Transposes [1, 0] S2x128
  bcast_S128_S1x128_1 : S128.BroadcastsInDim S1x128 (![1] : Fin 1 → Fin S1x128.rank)
  bcast_S1x128_S414626x128_0_1 : S1x128.BroadcastsInDim S414626x128 (![0, 1] : Fin 2 → Fin S414626x128.rank)
  bcast_S_S414626x128 : S_.BroadcastsInDim S414626x128 (![] : Fin 0 → Fin S414626x128.rank)
  transposes_S128x128_S128x128_1_0 : S128x128.Transposes [1, 0] S128x128
  reducesTo_S414626x128_S414626_d1 : S414626x128.ReducesTo [1] S414626
  h_S_ : 0 < S_.numel
  bcast_S_S414626x1 : S_.BroadcastsInDim S414626x1 (![] : Fin 0 → Fin S414626x1.rank)
  bcast_S414626x1_S414626x128_0_1 : S414626x1.BroadcastsInDim S414626x128 (![0, 1] : Fin 2 → Fin S414626x128.rank)
  concatenates_S414626x128_S414626x128_S414626x128_S414626x384_d1 : Shape.Concatenates [S414626x128, S414626x128, S414626x128] S414626x384 1
  transposes_S128x384_S384x128_1_0 : S128x384.Transposes [1, 0] S384x128
  reducesTo_S20000x128_S20000_d1 : S20000x128.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  gather_S20000x2_S414626x1_S414626x2_1_0_n_n_0_1_12_wf : GatherDims.WF S20000x2 S414626x1 S414626x2 [1] [0] [] [0] [] 1 ![1, 2]
  dot_S414626x2_S2x128_S414626x128_1_0_0_1_n_n_wf : DotDims.WF S414626x2 S2x128 S414626x128 [1] [0] [0] [1] [] []
  dot_S414626x128_S128x128_S414626x128_1_0_0_1_n_n_wf : DotDims.WF S414626x128 S128x128 S414626x128 [1] [0] [0] [1] [] []
  gather_S20000x128_S414626x1_S414626x128_1_0_n_n_0_1_1128_wf : GatherDims.WF S20000x128 S414626x1 S414626x128 [1] [0] [] [0] [] 1 ![1, 128]
  dot_S414626x384_S384x128_S414626x128_1_0_0_1_n_n_wf : DotDims.WF S414626x384 S384x128 S414626x128 [1] [0] [0] [1] [] []
  dot_S20000x128_S128x128_S20000x128_1_0_0_1_n_n_wf : DotDims.WF S20000x128 S128x128 S20000x128 [1] [0] [0] [1] [] []
  scatter_S20000x128_S414626x1_S414626x128_1_0_0_1_wf : ScatterDims.WF S20000x128 S414626x1 S414626x128 [1] [0] [0] 1

variable [Facts₀]

def gather_S20000x2_S414626x1_S414626x2_1_0_n_n_0_1_12 : GatherDims S20000x2 S414626x1 S414626x2 where
  offsetDims := [1]
  collapsedSliceDims := [0]
  operandBatchingDims := []
  startIndicesBatchingDims := []
  startIndexMap := [0]
  indexVectorDim := 1
  sliceSizes := ![1, 2]
  wf := gather_S20000x2_S414626x1_S414626x2_1_0_n_n_0_1_12_wf
def dot_S414626x2_S2x128_S414626x128_1_0_0_1_n_n : DotDims S414626x2 S2x128 S414626x128 where
  lhsContracting := [1]
  rhsContracting := [0]
  lhsNonContracting := [0]
  rhsNonContracting := [1]
  lhsBatch := []
  rhsBatch := []
  wf := dot_S414626x2_S2x128_S414626x128_1_0_0_1_n_n_wf
def dot_S414626x128_S128x128_S414626x128_1_0_0_1_n_n : DotDims S414626x128 S128x128 S414626x128 where
  lhsContracting := [1]
  rhsContracting := [0]
  lhsNonContracting := [0]
  rhsNonContracting := [1]
  lhsBatch := []
  rhsBatch := []
  wf := dot_S414626x128_S128x128_S414626x128_1_0_0_1_n_n_wf
def gather_S20000x128_S414626x1_S414626x128_1_0_n_n_0_1_1128 : GatherDims S20000x128 S414626x1 S414626x128 where
  offsetDims := [1]
  collapsedSliceDims := [0]
  operandBatchingDims := []
  startIndicesBatchingDims := []
  startIndexMap := [0]
  indexVectorDim := 1
  sliceSizes := ![1, 128]
  wf := gather_S20000x128_S414626x1_S414626x128_1_0_n_n_0_1_1128_wf
def dot_S414626x384_S384x128_S414626x128_1_0_0_1_n_n : DotDims S414626x384 S384x128 S414626x128 where
  lhsContracting := [1]
  rhsContracting := [0]
  lhsNonContracting := [0]
  rhsNonContracting := [1]
  lhsBatch := []
  rhsBatch := []
  wf := dot_S414626x384_S384x128_S414626x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000x128_S414626x1_S414626x128_1_0_0_1 : ScatterDims S20000x128 S414626x1 S414626x128 where
  updateWindowDims := [1]
  insertedWindowDims := [0]
  scatterDimsToOperandDims := [0]
  indexVectorDim := 1
  wf := scatter_S20000x128_S414626x1_S414626x128_1_0_0_1_wf

class Facts : Prop extends Facts₀ where

variable [Facts]
-- ==== Proof.KRun.lean ====
import proofs.«139836_j74208444940775_2_alg».proof.Proof.Gen.KernelIdeal.Frame

/-! The idealized kernel's run with its result named.

The program's frame run ends with every unscoped buffer at the contents of the last segment boundary — the fold
of the host stretches and of the two regions' write-backs from the launch memory. The frame claim keeps of that
only the argument arrays; here the same run is stated keeping also the result array: after every weakly fair
execution the result buffer holds the last boundary's contents at it. -/

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, its result array at the last
    boundary's contents and its argument arrays as launched. -/
theorem run_result : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c)⟩)

end Cert.KernelIdeal.RunV

end
-- ==== Proof.RefRun.lean ====
import proofs.«139836_j74208444940775_2_alg».proof.Proof.RefOpsP
import proofs.«139836_j74208444940775_2_alg».proof.Proof.RefReadP

/-! The reference's run, read one operation at a time.

The reference is a straight line of 228 host operations; every weakly fair execution of it ends with each buffer at
the fold of the operations' results over the launch contents. Its result is read off that fold in two steps, cut
at the scatter: the 161 operations up to the scatter leave the scattered array at its staged value and the arguments
untouched; the 67 operations after it read only that array, the node features and the node weights. Cutting there
keeps each step's term small: the array entering a normalisation is read three times, and five normalisations are
nested along the whole line. -/

set_option maxRecDepth 16384

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Running two lines of operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ)

set_option maxHeartbeats 8000000 in
/-- The operations up to the scatter leave the scattered array at its staged value. -/
theorem upto_scatter (c : Dev nD) :
    after ((ops (F := Ideal)).take 161) (launchContents m c) (Proc.devRef .tc main_v127)
      = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg22)) (m ((c.tc : Thread nD τ).loc main_arg23)) := by
  simp only [ops, List.take_succ_cons, List.take_zero]
  after_results_simp <;> rfl

set_option maxHeartbeats 4000000 in
/-- The operations up to the scatter do not write argument 0. -/
theorem upto_scatter_arg0 (c : Dev nD) :
    after ((ops (F := Ideal)).take 161) (launchContents m c) (Proc.devRef .tc main_arg0) = m ((c.tc : Thread nD τ).loc main_arg0) := by
  simp only [ops, List.take_succ_cons, List.take_zero]
  after_results_simp <;> rfl

set_option maxHeartbeats 4000000 in
/-- The operations up to the scatter do not write argument 17. -/
theorem upto_scatter_arg17 (c : Dev nD) :
    after ((ops (F := Ideal)).take 161) (launchContents m c) (Proc.devRef .tc main_arg17) = m ((c.tc : Thread nD τ).loc main_arg17) := by
  simp only [ops, List.take_succ_cons, List.take_zero]
  after_results_simp <;> rfl

set_option maxHeartbeats 4000000 in
/-- The operations up to the scatter do not write argument 18. -/
theorem upto_scatter_arg18 (c : Dev nD) :
    after ((ops (F := Ideal)).take 161) (launchContents m c) (Proc.devRef .tc main_arg18) = m ((c.tc : Thread nD τ).loc main_arg18) := by
  simp only [ops, List.take_succ_cons, List.take_zero]
  after_results_simp <;> rfl

set_option maxHeartbeats 4000000 in
/-- The operations up to the scatter do not write argument 19. -/
theorem upto_scatter_arg19 (c : Dev nD) :
    after ((ops (F := Ideal)).take 161) (launchContents m c) (Proc.devRef .tc main_arg19) = m ((c.tc : Thread nD τ).loc main_arg19) := by
  simp only [ops, List.take_succ_cons, List.take_zero]
  after_results_simp <;> rfl

set_option maxHeartbeats 4000000 in
/-- The operations up to the scatter do not write argument 20. -/
theorem upto_scatter_arg20 (c : Dev nD) :
    after ((ops (F := Ideal)).take 161) (launchContents m c) (Proc.devRef .tc main_arg20) = m ((c.tc : Thread nD τ).loc main_arg20) := by
  simp only [ops, List.take_succ_cons, List.take_zero]
  after_results_simp <;> rfl

set_option maxHeartbeats 4000000 in
/-- The operations up to the scatter do not write argument 21. -/
theorem upto_scatter_arg21 (c : Dev nD) :
    after ((ops (F := Ideal)).take 161) (launchContents m c) (Proc.devRef .tc main_arg21) = m ((c.tc : Thread nD τ).loc main_arg21) := by
  simp only [ops, List.take_succ_cons, List.take_zero]
  after_results_simp <;> rfl

set_option maxHeartbeats 8000000 in
/-- The operations after the scatter take the scattered array, the node features and the node weights to the
    result's staged value. -/
theorem from_scatter (c : Dev nD) (W : Valuation τ sig (Elt Ideal))
    (hv : W (Proc.devRef .tc main_v127) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg22)) (m ((c.tc : Thread nD τ).loc main_arg23)))
    (h0 : W (Proc.devRef .tc main_arg0) = m ((c.tc : Thread nD τ).loc main_arg0))
    (h17 : W (Proc.devRef .tc main_arg17) = m ((c.tc : Thread nD τ).loc main_arg17))
    (h18 : W (Proc.devRef .tc main_arg18) = m ((c.tc : Thread nD τ).loc main_arg18))
    (h19 : W (Proc.devRef .tc main_arg19) = m ((c.tc : Thread nD τ).loc main_arg19))
    (h20 : W (Proc.devRef .tc main_arg20) = m ((c.tc : Thread nD τ).loc main_arg20))
    (h21 : W (Proc.devRef .tc main_arg21) = m ((c.tc : Thread nD τ).loc main_arg21)) :
    after ((ops (F := Ideal)).drop 161) W (Proc.devRef .tc main_v180)
      = val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  simp only [ops, List.drop_succ_cons, List.drop_zero]
  after_results_simp
  rw [hv, h0, h17, h18, h19, h20, h21]
  rfl

/-- The result buffer after the whole line is the result's staged value. -/
theorem result_value (c : Dev nD) :
    after (ops (F := Ideal)) (launchContents m c) (Proc.devRef .tc main_v180)
      = val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  have e : (ops (F := Ideal)) = (ops (F := Ideal)).take 161 ++ (ops (F := Ideal)).drop 161 := (List.take_append_drop 161 _).symm
  rw [e, after_append]
  exact from_scatter m c _ (upto_scatter m c) (upto_scatter_arg0 m c) (upto_scatter_arg17 m c) (upto_scatter_arg18 m c) (upto_scatter_arg19 m c) (upto_scatter_arg20 m c) (upto_scatter_arg21 m c)

set_option maxHeartbeats 40000000 in
/-- On every device, from any memory with zero counters: every weakly fair execution of the reference terminates
    with its result at the staged value of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v180) = val_main_v180 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v180).trans (result_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl),
      (h c main_arg23).trans (by after_results_simp <;> rfl)⟩)
    (run_seq scopedRefs_eq scopedSems_eq defs main (fun _ => ops) main_eq (fun _ => ops_sub) m ρ)

end Cert.ReferenceIdeal.RunH

end
-- ==== Proof.RowSpec.lean ====
import Idealize.ShloMosaic.PureOps.Ideal
import Idealize.ShloMosaic.Lib.ValueIdx

/-! The message-passing layer, one row at a time, over the extended reals.

Every stage of the layer acts on rows independently: an edge's feature row depends on that edge's three
gathered rows and on the weights; a node's output row depends on that node's own row, on the row summed into it
by the scatter, and on the weights. This module states those row functions once. Float literals are kept as
their binary words (the same words occur on both sides and are never evaluated). -/

noncomputable section

namespace Cert.Gnn

open Idealize.ShloMosaic

/-- max(x, 0). -/
def relu (x : EReal) : EReal := max x (Ideal.ofBits .f32 0x00000000#32)

/-- The mean of a row of 128 entries: their sum divided by 128. -/
def mean128 (y : Fin 128 → EReal) : EReal :=
  Ideal.div (∑ k : Fin 128, y k) (Ideal.ofBits .f32 0x43000000#32)

/-- A row centred at its mean. -/
def centred (y : Fin 128 → EReal) (j : Fin 128) : EReal := y j - mean128 y

/-- The variance of a row: the mean of the squares of the centred row. -/
def var128 (y : Fin 128 → EReal) : EReal := mean128 fun k => centred y k * centred y k

/-- Normalisation of a row with gain g, before the shift: ((y_j − μ) · rsqrt(σ² + ε)) · g_j. -/
def gnScale (y g : Fin 128 → EReal) (j : Fin 128) : EReal :=
  centred y j * Ideal.rsqrt (var128 y + Ideal.ofBits .f32 0x3727C5AC#32) * g j

/-- Normalisation of a row with gain g and shift b. -/
def gn (y g b : Fin 128 → EReal) (j : Fin 128) : EReal := gnScale y g j + b j

/-- A row times a K × 128 matrix: entry j is ∑ₖ xₖ · w k j. -/
def dotRow {K : Nat} (x : Fin K → EReal) (w : Fin K → Fin 128 → EReal) (j : Fin 128) : EReal :=
  ∑ k : Fin K, x k * w k j

/-- Three rows of 128 entries laid side by side. -/
def cat3 (u v w : Fin 128 → EReal) (k : Fin 384) : EReal :=
  if h : k.val < 128 then u ⟨k.val, h⟩
  else if h2 : k.val < 256 then v ⟨k.val - 128, by omega⟩
  else w ⟨k.val - 256, by omega⟩

/-- The feature row of one edge: d0 the displacement of its two endpoints, a and c the feature rows of its
    head and tail; w1, b1 the first distance layer; w2, dg, db the second (normalised); qw, qg, qb the query
    layer; cw1, cg, cb the layer over the three concatenated rows; cw2 the last linear map. Each matrix is
    given as contraction index × output index. -/
def edgeRow (d0 : Fin 2 → EReal) (a c : Fin 128 → EReal)
    (w1 : Fin 2 → Fin 128 → EReal) (b1 : Fin 128 → EReal)
    (w2 : Fin 128 → Fin 128 → EReal) (dg db : Fin 128 → EReal)
    (qw : Fin 128 → Fin 128 → EReal) (qg qb : Fin 128 → EReal)
    (cw1 : Fin 384 → Fin 128 → EReal) (cg cb : Fin 128 → EReal)
    (cw2 : Fin 128 → Fin 128 → EReal) : Fin 128 → EReal :=
  dotRow (fun j => relu (gn (dotRow (cat3
      (fun j => relu (gn (dotRow (fun j => relu (dotRow d0 w1 j + b1 j)) w2) dg db j))
      (fun j => relu (gn (dotRow a qw) qg qb j))
      c) cw1) cg cb j)) cw2

/-- The output row of one node: x its own feature row, a the row entering the first normalisation (the
    node's own product plus what the scatter sums into it); ng, nb the first normalisation; lw, lg, lb the
    second layer. The row a is normalised and rectified, mapped and normalised again, and the node's own row
    added back before the last rectifier. -/
def nodeRow (x a : Fin 128 → EReal) (ng nb : Fin 128 → EReal)
    (lw : Fin 128 → Fin 128 → EReal) (lg lb : Fin 128 → EReal) (j : Fin 128) : EReal :=
  relu (gn (dotRow (fun j => relu (gn a ng nb j)) lw) lg lb j + x j)

end Cert.Gnn

end
-- ==== Proof.EdgeArray.lean ====
import proofs.«139836_j74208444940775_2_alg».proof.Proof.Gen.KernelIdeal.Frame
import proofs.«139836_j74208444940775_2_alg».proof.Proof.RowSpec
import Idealize.ShloMosaic.Lib.ValueIdx
import Idealize.ShloMosaic.Lib.Pipeline.Value

/-! What the edge call leaves in its output array.

The edge call runs over 208 grid points; point t reads rows 2000·t … 2000·t + 1999 of the three padded edge
arrays and the whole of each weight array, and writes back rows 2000·t … 2000·t + 1999 of its output. Each output
row is the edge row function of the same row of the three inputs. The 208 blocks tile the 416000 rows, so the
output array ends as that function of the arrays the call finds, row by row. -/

set_option maxRecDepth 16384

noncomputable section

namespace Cert.Gnn

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The block index maps of the edge call at each of its 208 points: the three edge inputs and the output move
    with the point along the rows, the twelve weight inputs stay at block (0, 0). -/
theorem edge_idx : ∀ t : Fin cfg0.N, win0_15.index t (0 : Fin 2) = t.val
    ∧ win0_15.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- The output array of the edge call as one function of the arrays the call finds: row e is the edge row of
    row e of the three edge inputs. -/
def edgeArr (c : Dev nD) : S416000x128.Idx → EReal := fun i =>
  edgeRow (fun k => V c main_v40 (ix2 (⟨(i 0).val, (i 0).isLt⟩ : Fin 416000) k))
      (fun k => V c main_v41 (ix2 (⟨(i 0).val, (i 0).isLt⟩ : Fin 416000) k))
      (fun k => V c main_v42 (ix2 (⟨(i 0).val, (i 0).isLt⟩ : Fin 416000) k))
      (fun k j => V c main_v31 (ix2 k j))
      (fun j => V c main_v43 (ix2 0 j))
      (fun k j => V c main_v33 (ix2 k j))
      (fun j => V c main_v44 (ix2 0 j))
      (fun j => V c main_v45 (ix2 0 j))
      (fun k j => V c main_v35 (ix2 k j))
      (fun j => V c main_v46 (ix2 0 j))
      (fun j => V c main_v47 (ix2 0 j))
      (fun k j => V c main_v37 (ix2 k j))
      (fun j => V c main_v48 (ix2 0 j))
      (fun j => V c main_v49 (ix2 0 j))
      (fun k j => V c main_v39 (ix2 k j))
      ⟨(i 1).val, (i 1).isLt⟩

theorem edge_blk0 (c : Dev nD) (t : Fin cfg0.N) (r : Fin 2000) (k : Fin 2) :
    iblk0 V c 0 t (ix2 r k) = V c main_v40 (ix2 (⟨t.val * 2000 + r.val, by have := t.isLt; have := r.isLt; have h208 : cfg0.N = 208 := N_0; omega⟩ : Fin 416000) k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 0) (((cfg0.win 0).blk t).view.emb (ix2 r k)) = _
  refine congrArg (V c main_v40) (funext fun a => Fin.ext ?_)
  match a with
  | ⟨0, _⟩ => show win0_0.index t (0 : Fin 2) * 2000 + 1 * r.val = t.val * 2000 + r.val; omega
  | ⟨1, _⟩ => show win0_0.index t (1 : Fin 2) * 2 + 1 * k.val = k.val; omega

theorem edge_blk1 (c : Dev nD) (t : Fin cfg0.N) (r : Fin 2000) (k : Fin 128) :
    iblk0 V c 1 t (ix2 r k) = V c main_v41 (ix2 (⟨t.val * 2000 + r.val, by have := t.isLt; have := r.isLt; have h208 : cfg0.N = 208 := N_0; omega⟩ : Fin 416000) k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 1) (((cfg0.win 1).blk t).view.emb (ix2 r k)) = _
  refine congrArg (V c main_v41) (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

theorem edge_blk2 (c : Dev nD) (t : Fin cfg0.N) (r : Fin 2000) (k : Fin 128) :
    iblk0 V c 2 t (ix2 r k) = V c main_v42 (ix2 (⟨t.val * 2000 + r.val, by have := t.isLt; have := r.isLt; have h208 : cfg0.N = 208 := N_0; omega⟩ : Fin 416000) k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 2) (((cfg0.win 2).blk t).view.emb (ix2 r k)) = _
  refine congrArg (V c main_v42) (funext fun a => Fin.ext ?_)
  match a with
  | ⟨0, _⟩ => show win0_2.index t (0 : Fin 2) * 2000 + 1 * r.val = t.val * 2000 + r.val; omega
  | ⟨1, _⟩ => show win0_2.index t (1 : Fin 2) * 128 + 1 * k.val = k.val; omega

theorem edge_blk3 (c : Dev nD) (t : Fin cfg0.N) (p : Fin 2) (k : Fin 128) :
    iblk0 V c 3 t (ix2 p k) = V c main_v31 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 3) (((cfg0.win 3).blk t).view.emb (ix2 p k)) = _
  refine congrArg (V c main_v31) (funext fun a => Fin.ext ?_)
  match a with
  | ⟨0, _⟩ => show win0_3.index t (0 : Fin 2) * 2 + 1 * p.val = p.val; omega
  | ⟨1, _⟩ => show win0_3.index t (1 : Fin 2) * 128 + 1 * k.val = k.val; omega

theorem edge_blk4 (c : Dev nD) (t : Fin cfg0.N) (p : Fin 1) (k : Fin 128) :
    iblk0 V c 4 t (ix2 p k) = V c main_v43 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 4) (((cfg0.win 4).blk t).view.emb (ix2 p k)) = _
  refine congrArg (V c main_v43) (funext fun a => Fin.ext ?_)
  match a with
  | ⟨0, _⟩ => show win0_4.index t (0 : Fin 2) * 1 + 1 * p.val = p.val; omega
  | ⟨1, _⟩ => show win0_4.index t (1 : Fin 2) * 128 + 1 * k.val = k.val; omega

theorem edge_blk5 (c : Dev nD) (t : Fin cfg0.N) (p : Fin 128) (k : Fin 128) :
    iblk0 V c 5 t (ix2 p k) = V c main_v33 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 5) (((cfg0.win 5).blk t).view.emb (ix2 p k)) = _
  refine congrArg (V c main_v33) (funext fun a => Fin.ext ?_)
  match a with
  | ⟨0, _⟩ => show win0_5.index t (0 : Fin 2) * 128 + 1 * p.val = p.val; omega
  | ⟨1, _⟩ => show win0_5.index t (1 : Fin 2) * 128 + 1 * k.val = k.val; omega

theorem edge_blk6 (c : Dev nD) (t : Fin cfg0.N) (p : Fin 1) (k : Fin 128) :
    iblk0 V c 6 t (ix2 p k) = V c main_v44 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 6) (((cfg0.win 6).blk t).view.emb (ix2 p k)) = _
  refine congrArg (V c main_v44) (funext fun a => Fin.ext ?_)
  match a with
  | ⟨0, _⟩ => show win0_6.index t (0 : Fin 2) * 1 + 1 * p.val = p.val; omega
  | ⟨1, _⟩ => show win0_6.index t (1 : Fin 2) * 128 + 1 * k.val = k.val; omega

theorem edge_blk7 (c : Dev nD) (t : Fin cfg0.N) (p : Fin 1) (k : Fin 128) :
    iblk0 V c 7 t (ix2 p k) = V c main_v45 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 7) (((cfg0.win 7).blk t).view.emb (ix2 p k)) = _
  refine congrArg (V c main_v45) (funext fun a => Fin.ext ?_)
  match a with
  | ⟨0, _⟩ => show win0_7.index t (0 : Fin 2) * 1 + 1 * p.val = p.val; omega
  | ⟨1, _⟩ => show win0_7.index t (1 : Fin 2) * 128 + 1 * k.val = k.val; omega

theorem edge_blk8 (c : Dev nD) (t : Fin cfg0.N) (p : Fin 128) (k : Fin 128) :
    iblk0 V c 8 t (ix2 p k) = V c main_v35 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 8) (((cfg0.win 8).blk t).view.emb (ix2 p k)) = _
  refine congrArg (V c main_v35) (funext fun a => Fin.ext ?_)
  match a with
  | ⟨0, _⟩ => show win0_8.index t (0 : Fin 2) * 128 + 1 * p.val = p.val; omega
  | ⟨1, _⟩ => show win0_8.index t (1 : Fin 2) * 128 + 1 * k.val = k.val; omega

theorem edge_blk9 (c : Dev nD) (t : Fin cfg0.N) (p : Fin 1) (k : Fin 128) :
    iblk0 V c 9 t (ix2 p k) = V c main_v46 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 9) (((cfg0.win 9).blk t).view.emb (ix2 p k)) = _
  refine congrArg (V c main_v46) (funext fun a => Fin.ext ?_)
  match a with
  | ⟨0, _⟩ => show win0_9.index t (0 : Fin 2) * 1 + 1 * p.val = p.val; omega
  | ⟨1, _⟩ => show win0_9.index t (1 : Fin 2) * 128 + 1 * k.val = k.val; omega

theorem edge_blk10 (c : Dev nD) (t : Fin cfg0.N) (p : Fin 1) (k : Fin 128) :
    iblk0 V c 10 t (ix2 p k) = V c main_v47 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 10) (((cfg0.win 10).blk t).view.emb (ix2 p k)) = _
  refine congrArg (V c main_v47) (funext fun a => Fin.ext ?_)
  match a with
  | ⟨0, _⟩ => show win0_10.index t (0 : Fin 2) * 1 + 1 * p.val = p.val; omega
  | ⟨1, _⟩ => show win0_10.index t (1 : Fin 2) * 128 + 1 * k.val = k.val; omega

theorem edge_blk11 (c : Dev nD) (t : Fin cfg0.N) (p : Fin 384) (k : Fin 128) :
    iblk0 V c 11 t (ix2 p k) = V c main_v37 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 11) (((cfg0.win 11).blk t).view.emb (ix2 p k)) = _
  refine congrArg (V c main_v37) (funext fun a => Fin.ext ?_)
  match a with
  | ⟨0, _⟩ => show win0_11.index t (0 : Fin 2) * 384 + 1 * p.val = p.val; omega
  | ⟨1, _⟩ => show win0_11.index t (1 : Fin 2) * 128 + 1 * k.val = k.val; omega

theorem edge_blk12 (c : Dev nD) (t : Fin cfg0.N) (p : Fin 1) (k : Fin 128) :
    iblk0 V c 12 t (ix2 p k) = V c main_v48 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 12) (((cfg0.win 12).blk t).view.emb (ix2 p k)) = _
  refine congrArg (V c main_v48) (funext fun a => Fin.ext ?_)
  match a with
  | ⟨0, _⟩ => show win0_12.index t (0 : Fin 2) * 1 + 1 * p.val = p.val; omega
  | ⟨1, _⟩ => show win0_12.index t (1 : Fin 2) * 128 + 1 * k.val = k.val; omega

theorem edge_blk13 (c : Dev nD) (t : Fin cfg0.N) (p : Fin 1) (k : Fin 128) :
    iblk0 V c 13 t (ix2 p k) = V c main_v49 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 13) (((cfg0.win 13).blk t).view.emb (ix2 p k)) = _
  refine congrArg (V c main_v49) (funext fun a => Fin.ext ?_)
  match a with
  | ⟨0, _⟩ => show win0_13.index t (0 : Fin 2) * 1 + 1 * p.val = p.val; omega
  | ⟨1, _⟩ => show win0_13.index t (1 : Fin 2) * 128 + 1 * k.val = k.val; omega

theorem edge_blk14 (c : Dev nD) (t : Fin cfg0.N) (p : Fin 128) (k : Fin 128) :
    iblk0 V c 14 t (ix2 p k) = V c main_v39 (ix2 p k) := by
  obtain ⟨o0, o1, a0, b0, a1, b1, a2, b2, a3, b3, a4, b4, a5, b5, a6, b6, a7, b7, a8, b8, a9, b9, a10, b10, a11, b11, a12, b12, a13, b13, a14, b14⟩ := edge_idx t
  show V c (Pipeline.arrRef spec0 14) (((cfg0.win 14).blk t).view.emb (ix2 p k)) = _
  refine congrArg (V c main_v39) (funext fun a => Fin.ext ?_)
  match a with
  | ⟨0, _⟩ => show win0_14.index t (0 : Fin 2) * 128 + 1 * p.val = p.val; omega
  | ⟨1, _⟩ => show win0_14.index t (1 : Fin 2) * 128 + 1 * k.val = k.val; omega

/-- What point t writes back is block t of that function. -/
theorem edge_flushed (hpay : ∀ (x0 : Vec Ideal S2000x2 .f32) (x1 x2 : Vec Ideal S2000x128 .bf16) (x3 : Vec Ideal S2x128 .f32) (x4 : Vec Ideal S1x128 .f32) (x5 : Vec Ideal S128x128 .bf16) (x6 x7 : Vec Ideal S1x128 .f32) (x8 : Vec Ideal S128x128 .bf16) (x9 x10 : Vec Ideal S1x128 .f32) (x11 : Vec Ideal S384x128 .bf16) (x12 x13 : Vec Ideal S1x128 .f32) (x14 : Vec Ideal S128x128 .bf16) (r : Fin 2000) (j : Fin 128),
    out0_15 (F := Ideal) x0 x1 x2 x3 x4 x5 x6 x7 x8 x9 x10 x11 x12 x13 x14 (ix2 r j)
      = edgeRow (fun k => x0 (ix2 r k)) (fun k => x1 (ix2 r k)) (fun k => x2 (ix2 r k))
          (fun k j => x3 (ix2 k j)) (fun j => x4 (ix2 0 j))
          (fun k j => x5 (ix2 k j)) (fun j => x6 (ix2 0 j)) (fun j => x7 (ix2 0 j))
          (fun k j => x8 (ix2 k j)) (fun j => x9 (ix2 0 j)) (fun j => x10 (ix2 0 j))
          (fun k j => x11 (ix2 k j)) (fun j => x12 (ix2 0 j)) (fun j => x13 (ix2 0 j))
          (fun k j => x14 (ix2 k j)) j) (c : Dev nD) (t : Fin cfg0.N) :
    (dat0 V c).flushed 15 t = ((cfg0.win 15).blk t).view.read (Elt Ideal) (edgeArr V c) := by
  show (cfg0.win 15).cut (grid0.coords t) ((dat0 V c).after 15 t) = _
  rw [after0_15]
  obtain ⟨o0, o1, -⟩ := edge_idx t
  funext y
  obtain ⟨r, q, rfl⟩ : ∃ (r : Fin 2000) (q : Fin 128), y = ix2 r q := ⟨y 0, y 1, eq_ix2 y⟩
  show out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 r q)
    = edgeArr V c (((cfg0.win 15).blk t).view.emb (ix2 r q))
  refine (hpay _ _ _ _ _ _ _ _ _ _ _ _ _ _ _ r q).trans ?_
  have he : (⟨((((cfg0.win 15).blk t).view.emb (ix2 r q)) 0).val, ((((cfg0.win 15).blk t).view.emb (ix2 r q)) 0).isLt⟩ : Fin 416000)
      = ⟨t.val * 2000 + r.val, by have := t.isLt; have := r.isLt; have h208 : cfg0.N = 208 := N_0; omega⟩ :=
    Fin.ext (by show win0_15.index t (0 : Fin 2) * 2000 + 1 * r.val = t.val * 2000 + r.val; omega)
  have hq : (⟨((((cfg0.win 15).blk t).view.emb (ix2 r q)) 1).val, ((((cfg0.win 15).blk t).view.emb (ix2 r q)) 1).isLt⟩ : Fin 128) = q :=
    Fin.ext (by show win0_15.index t (1 : Fin 2) * 128 + 1 * q.val = q.val; omega)
  unfold edgeArr
  rw [he, hq]
  simp only [edge_blk0 V c t, edge_blk1 V c t, edge_blk2 V c t, edge_blk3 V c t, edge_blk4 V c t, edge_blk5 V c t, edge_blk6 V c t, edge_blk7 V c t, edge_blk8 V c t, edge_blk9 V c t, edge_blk10 V c t, edge_blk11 V c t, edge_blk12 V c t, edge_blk13 V c t, edge_blk14 V c t]

/-- An index of the output array lies in point t's block iff its row is among that block's 2000 rows. -/
theorem edge_mem_blk (t : Fin cfg0.N) (i : S416000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v50).slice (win0_15.rect t)).set ↔ _
  rw [View.set_slice_whole, Rect.mem_set_unit]
  exact Iff.rfl

/-- The 208 blocks cover the output array: row e lies in the block of point e / 2000. -/
theorem edge_cover (i : S416000x128.Idx) :
    ∃ t : Fin cfg0.N, (cfg0.win 15).flush t = true ∧ i ∈ ((cfg0.win 15).blk t).view.set := by
  have hi0 : (i 0).val < 416000 := (i 0).isLt
  have hi1 : (i 1).val < 128 := (i 1).isLt
  have h208 : cfg0.N = 208 := N_0
  refine ⟨⟨(i 0).val / 2000, by omega⟩, flush0_15 _, ?_⟩
  rw [edge_mem_blk]
  obtain ⟨o0, o1, -⟩ := edge_idx ⟨(i 0).val / 2000, by omega⟩
  intro a
  match a with
  | ⟨0, _⟩ => show win0_15.index ⟨(i 0).val / 2000, _⟩ (0 : Fin 2) * 2000 ≤ (i 0).val ∧ (i 0).val < win0_15.index ⟨(i 0).val / 2000, _⟩ (0 : Fin 2) * 2000 + 2000; simp only [o0]; omega
  | ⟨1, _⟩ => show win0_15.index ⟨(i 0).val / 2000, _⟩ (1 : Fin 2) * 128 ≤ (i 1).val ∧ (i 1).val < win0_15.index ⟨(i 0).val / 2000, _⟩ (1 : Fin 2) * 128 + 128; simp only [o1]; omega

/-- The output array after the edge call. -/
theorem edge_final (hpay : ∀ (x0 : Vec Ideal S2000x2 .f32) (x1 x2 : Vec Ideal S2000x128 .bf16) (x3 : Vec Ideal S2x128 .f32) (x4 : Vec Ideal S1x128 .f32) (x5 : Vec Ideal S128x128 .bf16) (x6 x7 : Vec Ideal S1x128 .f32) (x8 : Vec Ideal S128x128 .bf16) (x9 x10 : Vec Ideal S1x128 .f32) (x11 : Vec Ideal S384x128 .bf16) (x12 x13 : Vec Ideal S1x128 .f32) (x14 : Vec Ideal S128x128 .bf16) (r : Fin 2000) (j : Fin 128),
    out0_15 (F := Ideal) x0 x1 x2 x3 x4 x5 x6 x7 x8 x9 x10 x11 x12 x13 x14 (ix2 r j)
      = edgeRow (fun k => x0 (ix2 r k)) (fun k => x1 (ix2 r k)) (fun k => x2 (ix2 r k))
          (fun k j => x3 (ix2 k j)) (fun j => x4 (ix2 0 j))
          (fun k j => x5 (ix2 k j)) (fun j => x6 (ix2 0 j)) (fun j => x7 (ix2 0 j))
          (fun k j => x8 (ix2 k j)) (fun j => x9 (ix2 0 j)) (fun j => x10 (ix2 0 j))
          (fun k j => x11 (ix2 k j)) (fun j => x12 (ix2 0 j)) (fun j => x13 (ix2 0 j))
          (fun k j => x14 (ix2 k j)) j) (c : Dev nD) :
    (dat0 V c).arrAt 15 cfg0.N = edgeArr V c :=
  (dat0 V c).arrAt_eq_of_cover 15 (edgeArr V c) (fun t _ => edge_flushed V hpay c t) edge_cover

end Cert.Gnn

end
-- ==== Proof.NodeArray.lean ====
import proofs.«139836_j74208444940775_2_alg».proof.Proof.Gen.KernelIdeal.Frame
import proofs.«139836_j74208444940775_2_alg».proof.Proof.RowSpec
import Idealize.ShloMosaic.Lib.ValueIdx
import Idealize.ShloMosaic.Lib.Pipeline.Value

/-! What the node call leaves in its output array.

The node call runs over 5 grid points; point t reads rows 4000·t … 4000·t + 3999 of the node features and of the
scattered sums and the whole of each weight array, and writes back the same rows of its output. Each output row
is the node row function of the node's own row and of its own product plus the row scattered into it. The 5
blocks tile the 20000 rows. -/

set_option maxRecDepth 16384

noncomputable section

namespace Cert.Gnn

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The block index maps of the node call at each of its 5 points: the two node inputs and the output move with
    the point along the rows, the six weight inputs stay at block (0, 0). -/
theorem node_idx : ∀ t : Fin cfg1.N, win1_8.index t (0 : Fin 2) = t.val
    ∧ win1_8.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- The output array of the node call as one function of the arrays the call finds. -/
def nodeArr (c : Dev nD) : S20000x128.Idx → EReal := fun i =>
  nodeRow (fun k => V c main_arg0 (ix2 (⟨(i 0).val, (i 0).isLt⟩ : Fin 20000) k))
      (fun j => dotRow (fun k => V c main_arg0 (ix2 (⟨(i 0).val, (i 0).isLt⟩ : Fin 20000) k)) (fun k j => V c main_v56 (ix2 k j)) j + V c main_v54 (ix2 (⟨(i 0).val, (i 0).isLt⟩ : Fin 20000) j))
      (fun j => V c main_v59 (ix2 0 j)) (fun j => V c main_v60 (ix2 0 j))
      (fun k j => V c main_v58 (ix2 k j)) (fun j => V c main_v61 (ix2 0 j)) (fun j => V c main_v62 (ix2 0 j))
      ⟨(i 1).val, (i 1).isLt⟩

theorem node_blk0 (c : Dev nD) (t : Fin cfg1.N) (r : Fin 4000) (k : Fin 128) :
    iblk1 V c 0 t (ix2 r k) = V c main_arg0 (ix2 (⟨t.val * 4000 + r.val, by have := t.isLt; have := r.isLt; have h5 : cfg1.N = 5 := N_1; omega⟩ : Fin 20000) k) := by
  obtain ⟨o0, o1, a0, b0, a1, b1, a2, b2, a3, b3, a4, b4, a5, b5, a6, b6, a7, b7⟩ := node_idx t
  show V c (Pipeline.arrRef spec1 0) (((cfg1.win 0).blk t).view.emb (ix2 r k)) = _
  refine congrArg (V c main_arg0) (funext fun a => Fin.ext ?_)
  match a with
  | ⟨0, _⟩ => show win1_0.index t (0 : Fin 2) * 4000 + 1 * r.val = t.val * 4000 + r.val; omega
  | ⟨1, _⟩ => show win1_0.index t (1 : Fin 2) * 128 + 1 * k.val = k.val; omega

theorem node_blk1 (c : Dev nD) (t : Fin cfg1.N) (r : Fin 4000) (k : Fin 128) :
    iblk1 V c 1 t (ix2 r k) = V c main_v54 (ix2 (⟨t.val * 4000 + r.val, by have := t.isLt; have := r.isLt; have h5 : cfg1.N = 5 := N_1; omega⟩ : Fin 20000) k) := by
  obtain ⟨o0, o1, a0, b0, a1, b1, a2, b2, a3, b3, a4, b4, a5, b5, a6, b6, a7, b7⟩ := node_idx t
  show V c (Pipeline.arrRef spec1 1) (((cfg1.win 1).blk t).view.emb (ix2 r k)) = _
  refine congrArg (V c main_v54) (funext fun a => Fin.ext ?_)
  match a with
  | ⟨0, _⟩ => show win1_1.index t (0 : Fin 2) * 4000 + 1 * r.val = t.val * 4000 + r.val; omega
  | ⟨1, _⟩ => show win1_1.index t (1 : Fin 2) * 128 + 1 * k.val = k.val; omega

theorem node_blk2 (c : Dev nD) (t : Fin cfg1.N) (p : Fin 128) (k : Fin 128) :
    iblk1 V c 2 t (ix2 p k) = V c main_v56 (ix2 p k) := by
  obtain ⟨o0, o1, a0, b0, a1, b1, a2, b2, a3, b3, a4, b4, a5, b5, a6, b6, a7, b7⟩ := node_idx t
  show V c (Pipeline.arrRef spec1 2) (((cfg1.win 2).blk t).view.emb (ix2 p k)) = _
  refine congrArg (V c main_v56) (funext fun a => Fin.ext ?_)
  match a with
  | ⟨0, _⟩ => show win1_2.index t (0 : Fin 2) * 128 + 1 * p.val = p.val; omega
  | ⟨1, _⟩ => show win1_2.index t (1 : Fin 2) * 128 + 1 * k.val = k.val; omega

theorem node_blk3 (c : Dev nD) (t : Fin cfg1.N) (p : Fin 1) (k : Fin 128) :
    iblk1 V c 3 t (ix2 p k) = V c main_v59 (ix2 p k) := by
  obtain ⟨o0, o1, a0, b0, a1, b1, a2, b2, a3, b3, a4, b4, a5, b5, a6, b6, a7, b7⟩ := node_idx t
  show V c (Pipeline.arrRef spec1 3) (((cfg1.win 3).blk t).view.emb (ix2 p k)) = _
  refine congrArg (V c main_v59) (funext fun a => Fin.ext ?_)
  match a with
  | ⟨0, _⟩ => show win1_3.index t (0 : Fin 2) * 1 + 1 * p.val = p.val; omega
  | ⟨1, _⟩ => show win1_3.index t (1 : Fin 2) * 128 + 1 * k.val = k.val; omega

theorem node_blk4 (c : Dev nD) (t : Fin cfg1.N) (p : Fin 1) (k : Fin 128) :
    iblk1 V c 4 t (ix2 p k) = V c main_v60 (ix2 p k) := by
  obtain ⟨o0, o1, a0, b0, a1, b1, a2, b2, a3, b3, a4, b4, a5, b5, a6, b6, a7, b7⟩ := node_idx t
  show V c (Pipeline.arrRef spec1 4) (((cfg1.win 4).blk t).view.emb (ix2 p k)) = _
  refine congrArg (V c main_v60) (funext fun a => Fin.ext ?_)
  match a with
  | ⟨0, _⟩ => show win1_4.index t (0 : Fin 2) * 1 + 1 * p.val = p.val; omega
  | ⟨1, _⟩ => show win1_4.index t (1 : Fin 2) * 128 + 1 * k.val = k.val; omega

theorem node_blk5 (c : Dev nD) (t : Fin cfg1.N) (p : Fin 128) (k : Fin 128) :
    iblk1 V c 5 t (ix2 p k) = V c main_v58 (ix2 p k) := by
  obtain ⟨o0, o1, a0, b0, a1, b1, a2, b2, a3, b3, a4, b4, a5, b5, a6, b6, a7, b7⟩ := node_idx t
  show V c (Pipeline.arrRef spec1 5) (((cfg1.win 5).blk t).view.emb (ix2 p k)) = _
  refine congrArg (V c main_v58) (funext fun a => Fin.ext ?_)
  match a with
  | ⟨0, _⟩ => show win1_5.index t (0 : Fin 2) * 128 + 1 * p.val = p.val; omega
  | ⟨1, _⟩ => show win1_5.index t (1 : Fin 2) * 128 + 1 * k.val = k.val; omega

theorem node_blk6 (c : Dev nD) (t : Fin cfg1.N) (p : Fin 1) (k : Fin 128) :
    iblk1 V c 6 t (ix2 p k) = V c main_v61 (ix2 p k) := by
  obtain ⟨o0, o1, a0, b0, a1, b1, a2, b2, a3, b3, a4, b4, a5, b5, a6, b6, a7, b7⟩ := node_idx t
  show V c (Pipeline.arrRef spec1 6) (((cfg1.win 6).blk t).view.emb (ix2 p k)) = _
  refine congrArg (V c main_v61) (funext fun a => Fin.ext ?_)
  match a with
  | ⟨0, _⟩ => show win1_6.index t (0 : Fin 2) * 1 + 1 * p.val = p.val; omega
  | ⟨1, _⟩ => show win1_6.index t (1 : Fin 2) * 128 + 1 * k.val = k.val; omega

theorem node_blk7 (c : Dev nD) (t : Fin cfg1.N) (p : Fin 1) (k : Fin 128) :
    iblk1 V c 7 t (ix2 p k) = V c main_v62 (ix2 p k) := by
  obtain ⟨o0, o1, a0, b0, a1, b1, a2, b2, a3, b3, a4, b4, a5, b5, a6, b6, a7, b7⟩ := node_idx t
  show V c (Pipeline.arrRef spec1 7) (((cfg1.win 7).blk t).view.emb (ix2 p k)) = _
  refine congrArg (V c main_v62) (funext fun a => Fin.ext ?_)
  match a with
  | ⟨0, _⟩ => show win1_7.index t (0 : Fin 2) * 1 + 1 * p.val = p.val; omega
  | ⟨1, _⟩ => show win1_7.index t (1 : Fin 2) * 128 + 1 * k.val = k.val; omega

/-- What point t writes back is block t of that function. -/
theorem node_flushed (hpay : ∀ (x0 x1 : Vec Ideal S4000x128 .f32) (x2 : Vec Ideal S128x128 .bf16) (x3 x4 : Vec Ideal S1x128 .f32) (x5 : Vec Ideal S128x128 .bf16) (x6 x7 : Vec Ideal S1x128 .f32) (r : Fin 4000) (j : Fin 128),
    out1_8 (F := Ideal) x0 x1 x2 x3 x4 x5 x6 x7 (ix2 r j)
      = nodeRow (fun k => x0 (ix2 r k))
          (fun j => dotRow (fun k => x0 (ix2 r k)) (fun k j => x2 (ix2 k j)) j + x1 (ix2 r j))
          (fun j => x3 (ix2 0 j)) (fun j => x4 (ix2 0 j))
          (fun k j => x5 (ix2 k j)) (fun j => x6 (ix2 0 j)) (fun j => x7 (ix2 0 j)) j) (c : Dev nD) (t : Fin cfg1.N) :
    (dat1 V c).flushed 8 t = ((cfg1.win 8).blk t).view.read (Elt Ideal) (nodeArr V c) := by
  show (cfg1.win 8).cut (grid1.coords t) ((dat1 V c).after 8 t) = _
  rw [after1_8]
  obtain ⟨o0, o1, -⟩ := node_idx t
  funext y
  obtain ⟨r, q, rfl⟩ : ∃ (r : Fin 4000) (q : Fin 128), y = ix2 r q := ⟨y 0, y 1, eq_ix2 y⟩
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 r q)
    = nodeArr V c (((cfg1.win 8).blk t).view.emb (ix2 r q))
  refine (hpay _ _ _ _ _ _ _ _ r q).trans ?_
  have he : (⟨((((cfg1.win 8).blk t).view.emb (ix2 r q)) 0).val, ((((cfg1.win 8).blk t).view.emb (ix2 r q)) 0).isLt⟩ : Fin 20000)
      = ⟨t.val * 4000 + r.val, by have := t.isLt; have := r.isLt; have h5 : cfg1.N = 5 := N_1; omega⟩ :=
    Fin.ext (by show win1_8.index t (0 : Fin 2) * 4000 + 1 * r.val = t.val * 4000 + r.val; omega)
  have hq : (⟨((((cfg1.win 8).blk t).view.emb (ix2 r q)) 1).val, ((((cfg1.win 8).blk t).view.emb (ix2 r q)) 1).isLt⟩ : Fin 128) = q :=
    Fin.ext (by show win1_8.index t (1 : Fin 2) * 128 + 1 * q.val = q.val; omega)
  unfold nodeArr
  rw [he, hq]
  simp only [node_blk0 V c t, node_blk1 V c t, node_blk2 V c t, node_blk3 V c t, node_blk4 V c t, node_blk5 V c t, node_blk6 V c t, node_blk7 V c t]

/-- An index of the output array lies in point t's block iff its row is among that block's 4000 rows. -/
theorem node_mem_blk (t : Fin cfg1.N) (i : S20000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v63).slice (win1_8.rect t)).set ↔ _
  rw [View.set_slice_whole, Rect.mem_set_unit]
  exact Iff.rfl

/-- The 5 blocks cover the output array: row n lies in the block of point n / 4000. -/
theorem node_cover (i : S20000x128.Idx) :
    ∃ t : Fin cfg1.N, (cfg1.win 8).flush t = true ∧ i ∈ ((cfg1.win 8).blk t).view.set := by
  have hi0 : (i 0).val < 20000 := (i 0).isLt
  have hi1 : (i 1).val < 128 := (i 1).isLt
  have h5 : cfg1.N = 5 := N_1
  refine ⟨⟨(i 0).val / 4000, by omega⟩, flush1_8 _, ?_⟩
  rw [node_mem_blk]
  obtain ⟨o0, o1, -⟩ := node_idx ⟨(i 0).val / 4000, by omega⟩
  intro a
  match a with
  | ⟨0, _⟩ => show win1_8.index ⟨(i 0).val / 4000, _⟩ (0 : Fin 2) * 4000 ≤ (i 0).val ∧ (i 0).val < win1_8.index ⟨(i 0).val / 4000, _⟩ (0 : Fin 2) * 4000 + 4000; simp only [o0]; omega
  | ⟨1, _⟩ => show win1_8.index ⟨(i 0).val / 4000, _⟩ (1 : Fin 2) * 128 ≤ (i 1).val ∧ (i 1).val < win1_8.index ⟨(i 0).val / 4000, _⟩ (1 : Fin 2) * 128 + 128; simp only [o1]; omega

/-- The output array after the node call. -/
theorem node_final (hpay : ∀ (x0 x1 : Vec Ideal S4000x128 .f32) (x2 : Vec Ideal S128x128 .bf16) (x3 x4 : Vec Ideal S1x128 .f32) (x5 : Vec Ideal S128x128 .bf16) (x6 x7 : Vec Ideal S1x128 .f32) (r : Fin 4000) (j : Fin 128),
    out1_8 (F := Ideal) x0 x1 x2 x3 x4 x5 x6 x7 (ix2 r j)
      = nodeRow (fun k => x0 (ix2 r k))
          (fun j => dotRow (fun k => x0 (ix2 r k)) (fun k j => x2 (ix2 k j)) j + x1 (ix2 r j))
          (fun j => x3 (ix2 0 j)) (fun j => x4 (ix2 0 j))
          (fun k j => x5 (ix2 k j)) (fun j => x6 (ix2 0 j)) (fun j => x7 (ix2 0 j)) j) (c : Dev nD) :
    (dat1 V c).arrAt 8 cfg1.N = nodeArr V c :=
  (dat1 V c).arrAt_eq_of_cover 8 (nodeArr V c) (fun t _ => node_flushed V hpay c t) node_cover

end Cert.Gnn

end
-- ==== Proof.HostIn.lean ====
import proofs.«139836_j74208444940775_2_alg».proof.Proof.Gen.KernelIdeal.Frame
import Idealize.ShloMosaic.Lib.StableHlo.Run
import Idealize.ShloMosaic.PureOps.Ideal

/-! The arrays the two calls find.

Before the edge call the host gathers the displacement and feature rows of every edge, pads them with 1374 zero
rows, transposes the weight matrices and reshapes the vectors to rows; between the calls it drops the padding rows
of the edge call's output, sums the remaining rows into the nodes named by the index array, and prepares the node
call's weights. Here each array a call reads is written as that function of the launch memory. -/

set_option maxRecDepth 16384

noncomputable section

namespace Cert.Gnn

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ) (ρ : Dev nD → PrngReg)

/-- A stretch of host operations that does not write a buffer leaves it as it was. -/
macro "skip_stretch " ops:ident : tactic =>
  `(tactic| refine (StableHlo.after_of_forall_not_mem $ops _ (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

/-! ## The argument arrays stay as launched through the host stretches -/

theorem W6_main_arg5 (c : Dev nD) : W6 m ρ c (Proc.devRef .tc main_arg5) = m ((c : Thread nD τ).loc main_arg5) := by
  skip_stretch hostOps0_5
  skip_stretch hostOps0_4
  skip_stretch hostOps0_3
  skip_stretch hostOps0_2
  skip_stretch hostOps0_1
  skip_stretch hostOps0
  rfl

theorem W6_main_arg7 (c : Dev nD) : W6 m ρ c (Proc.devRef .tc main_arg7) = m ((c : Thread nD τ).loc main_arg7) := by
  skip_stretch hostOps0_5
  skip_stretch hostOps0_4
  skip_stretch hostOps0_3
  skip_stretch hostOps0_2
  skip_stretch hostOps0_1
  skip_stretch hostOps0
  rfl

theorem W6_main_arg8 (c : Dev nD) : W6 m ρ c (Proc.devRef .tc main_arg8) = m ((c : Thread nD τ).loc main_arg8) := by
  skip_stretch hostOps0_5
  skip_stretch hostOps0_4
  skip_stretch hostOps0_3
  skip_stretch hostOps0_2
  skip_stretch hostOps0_1
  skip_stretch hostOps0
  rfl

theorem W6_main_arg10 (c : Dev nD) : W6 m ρ c (Proc.devRef .tc main_arg10) = m ((c : Thread nD τ).loc main_arg10) := by
  skip_stretch hostOps0_5
  skip_stretch hostOps0_4
  skip_stretch hostOps0_3
  skip_stretch hostOps0_2
  skip_stretch hostOps0_1
  skip_stretch hostOps0
  rfl

theorem W6_main_arg11 (c : Dev nD) : W6 m ρ c (Proc.devRef .tc main_arg11) = m ((c : Thread nD τ).loc main_arg11) := by
  skip_stretch hostOps0_5
  skip_stretch hostOps0_4
  skip_stretch hostOps0_3
  skip_stretch hostOps0_2
  skip_stretch hostOps0_1
  skip_stretch hostOps0
  rfl

theorem W6_main_arg13 (c : Dev nD) : W6 m ρ c (Proc.devRef .tc main_arg13) = m ((c : Thread nD τ).loc main_arg13) := by
  skip_stretch hostOps0_5
  skip_stretch hostOps0_4
  skip_stretch hostOps0_3
  skip_stretch hostOps0_2
  skip_stretch hostOps0_1
  skip_stretch hostOps0
  rfl

theorem W6_main_arg14 (c : Dev nD) : W6 m ρ c (Proc.devRef .tc main_arg14) = m ((c : Thread nD τ).loc main_arg14) := by
  skip_stretch hostOps0_5
  skip_stretch hostOps0_4
  skip_stretch hostOps0_3
  skip_stretch hostOps0_2
  skip_stretch hostOps0_1
  skip_stretch hostOps0
  rfl

theorem W7_main_arg0 (c : Dev nD) : W7 m ρ c (Proc.devRef .tc main_arg0) = m ((c : Thread nD τ).loc main_arg0) := by
  skip_stretch hostOps0_6
  skip_stretch hostOps0_5
  skip_stretch hostOps0_4
  skip_stretch hostOps0_3
  skip_stretch hostOps0_2
  skip_stretch hostOps0_1
  skip_stretch hostOps0
  rfl

theorem W8_main_arg0 (c : Dev nD) : W8 m ρ c (Proc.devRef .tc main_arg0) = m ((c : Thread nD τ).loc main_arg0) :=
  (W8_of_ne m ρ c main_arg0 (by decide)).trans (W7_main_arg0 m ρ c)

theorem W7_main_arg16 (c : Dev nD) : W7 m ρ c (Proc.devRef .tc main_arg16) = m ((c : Thread nD τ).loc main_arg16) := by
  skip_stretch hostOps0_6
  skip_stretch hostOps0_5
  skip_stretch hostOps0_4
  skip_stretch hostOps0_3
  skip_stretch hostOps0_2
  skip_stretch hostOps0_1
  skip_stretch hostOps0
  rfl

theorem W8_main_arg16 (c : Dev nD) : W8 m ρ c (Proc.devRef .tc main_arg16) = m ((c : Thread nD τ).loc main_arg16) :=
  (W8_of_ne m ρ c main_arg16 (by decide)).trans (W7_main_arg16 m ρ c)

theorem W7_main_arg17 (c : Dev nD) : W7 m ρ c (Proc.devRef .tc main_arg17) = m ((c : Thread nD τ).loc main_arg17) := by
  skip_stretch hostOps0_6
  skip_stretch hostOps0_5
  skip_stretch hostOps0_4
  skip_stretch hostOps0_3
  skip_stretch hostOps0_2
  skip_stretch hostOps0_1
  skip_stretch hostOps0
  rfl

theorem W8_main_arg17 (c : Dev nD) : W8 m ρ c (Proc.devRef .tc main_arg17) = m ((c : Thread nD τ).loc main_arg17) :=
  (W8_of_ne m ρ c main_arg17 (by decide)).trans (W7_main_arg17 m ρ c)

theorem W7_main_arg18 (c : Dev nD) : W7 m ρ c (Proc.devRef .tc main_arg18) = m ((c : Thread nD τ).loc main_arg18) := by
  skip_stretch hostOps0_6
  skip_stretch hostOps0_5
  skip_stretch hostOps0_4
  skip_stretch hostOps0_3
  skip_stretch hostOps0_2
  skip_stretch hostOps0_1
  skip_stretch hostOps0
  rfl

theorem W8_main_arg18 (c : Dev nD) : W8 m ρ c (Proc.devRef .tc main_arg18) = m ((c : Thread nD τ).loc main_arg18) :=
  (W8_of_ne m ρ c main_arg18 (by decide)).trans (W7_main_arg18 m ρ c)

theorem W7_main_arg19 (c : Dev nD) : W7 m ρ c (Proc.devRef .tc main_arg19) = m ((c : Thread nD τ).loc main_arg19) := by
  skip_stretch hostOps0_6
  skip_stretch hostOps0_5
  skip_stretch hostOps0_4
  skip_stretch hostOps0_3
  skip_stretch hostOps0_2
  skip_stretch hostOps0_1
  skip_stretch hostOps0
  rfl

theorem W8_main_arg19 (c : Dev nD) : W8 m ρ c (Proc.devRef .tc main_arg19) = m ((c : Thread nD τ).loc main_arg19) :=
  (W8_of_ne m ρ c main_arg19 (by decide)).trans (W7_main_arg19 m ρ c)

theorem W7_main_arg20 (c : Dev nD) : W7 m ρ c (Proc.devRef .tc main_arg20) = m ((c : Thread nD τ).loc main_arg20) := by
  skip_stretch hostOps0_6
  skip_stretch hostOps0_5
  skip_stretch hostOps0_4
  skip_stretch hostOps0_3
  skip_stretch hostOps0_2
  skip_stretch hostOps0_1
  skip_stretch hostOps0
  rfl

theorem W8_main_arg20 (c : Dev nD) : W8 m ρ c (Proc.devRef .tc main_arg20) = m ((c : Thread nD τ).loc main_arg20) :=
  (W8_of_ne m ρ c main_arg20 (by decide)).trans (W7_main_arg20 m ρ c)

theorem W7_main_arg21 (c : Dev nD) : W7 m ρ c (Proc.devRef .tc main_arg21) = m ((c : Thread nD τ).loc main_arg21) := by
  skip_stretch hostOps0_6
  skip_stretch hostOps0_5
  skip_stretch hostOps0_4
  skip_stretch hostOps0_3
  skip_stretch hostOps0_2
  skip_stretch hostOps0_1
  skip_stretch hostOps0
  rfl

theorem W8_main_arg21 (c : Dev nD) : W8 m ρ c (Proc.devRef .tc main_arg21) = m ((c : Thread nD τ).loc main_arg21) :=
  (W8_of_ne m ρ c main_arg21 (by decide)).trans (W7_main_arg21 m ρ c)

theorem W7_main_arg22 (c : Dev nD) : W7 m ρ c (Proc.devRef .tc main_arg22) = m ((c : Thread nD τ).loc main_arg22) := by
  skip_stretch hostOps0_6
  skip_stretch hostOps0_5
  skip_stretch hostOps0_4
  skip_stretch hostOps0_3
  skip_stretch hostOps0_2
  skip_stretch hostOps0_1
  skip_stretch hostOps0
  rfl

theorem W8_main_arg22 (c : Dev nD) : W8 m ρ c (Proc.devRef .tc main_arg22) = m ((c : Thread nD τ).loc main_arg22) :=
  (W8_of_ne m ρ c main_arg22 (by decide)).trans (W7_main_arg22 m ρ c)

/-! ## The edge call's inputs -/

/-- A weight vector as a one-row matrix. -/
theorem V7_main_v43 (c : Dev nD) : V7 m ρ c main_v43 = shapeCast S1x128 (m ((c : Thread nD τ).loc main_arg5)) shapeCasts_S128_S1x128 := by
  show StableHlo.after hostOps0_6 (W6 m ρ c) (Proc.devRef .tc main_v43) = _
  rw [← W6_main_arg5 m ρ c]
  generalize W6 m ρ c = Y
  simp only [hostOps0_6]
  after_results
  try rfl

/-- A weight vector as a one-row matrix. -/
theorem V7_main_v44 (c : Dev nD) : V7 m ρ c main_v44 = shapeCast S1x128 (m ((c : Thread nD τ).loc main_arg7)) shapeCasts_S128_S1x128 := by
  show StableHlo.after hostOps0_6 (W6 m ρ c) (Proc.devRef .tc main_v44) = _
  rw [← W6_main_arg7 m ρ c]
  generalize W6 m ρ c = Y
  simp only [hostOps0_6]
  after_results
  try rfl

/-- A weight vector as a one-row matrix. -/
theorem V7_main_v45 (c : Dev nD) : V7 m ρ c main_v45 = shapeCast S1x128 (m ((c : Thread nD τ).loc main_arg8)) shapeCasts_S128_S1x128 := by
  show StableHlo.after hostOps0_6 (W6 m ρ c) (Proc.devRef .tc main_v45) = _
  rw [← W6_main_arg8 m ρ c]
  generalize W6 m ρ c = Y
  simp only [hostOps0_6]
  after_results
  try rfl

/-- A weight vector as a one-row matrix. -/
theorem V7_main_v46 (c : Dev nD) : V7 m ρ c main_v46 = shapeCast S1x128 (m ((c : Thread nD τ).loc main_arg10)) shapeCasts_S128_S1x128 := by
  show StableHlo.after hostOps0_6 (W6 m ρ c) (Proc.devRef .tc main_v46) = _
  rw [← W6_main_arg10 m ρ c]
  generalize W6 m ρ c = Y
  simp only [hostOps0_6]
  after_results
  try rfl

/-- A weight vector as a one-row matrix. -/
theorem V7_main_v47 (c : Dev nD) : V7 m ρ c main_v47 = shapeCast S1x128 (m ((c : Thread nD τ).loc main_arg11)) shapeCasts_S128_S1x128 := by
  show StableHlo.after hostOps0_6 (W6 m ρ c) (Proc.devRef .tc main_v47) = _
  rw [← W6_main_arg11 m ρ c]
  generalize W6 m ρ c = Y
  simp only [hostOps0_6]
  after_results
  try rfl

/-- A weight vector as a one-row matrix. -/
theorem V7_main_v48 (c : Dev nD) : V7 m ρ c main_v48 = shapeCast S1x128 (m ((c : Thread nD τ).loc main_arg13)) shapeCasts_S128_S1x128 := by
  show StableHlo.after hostOps0_6 (W6 m ρ c) (Proc.devRef .tc main_v48) = _
  rw [← W6_main_arg13 m ρ c]
  generalize W6 m ρ c = Y
  simp only [hostOps0_6]
  after_results
  try rfl

/-- A weight vector as a one-row matrix. -/
theorem V7_main_v49 (c : Dev nD) : V7 m ρ c main_v49 = shapeCast S1x128 (m ((c : Thread nD τ).loc main_arg14)) shapeCasts_S128_S1x128 := by
  show StableHlo.after hostOps0_6 (W6 m ρ c) (Proc.devRef .tc main_v49) = _
  rw [← W6_main_arg14 m ρ c]
  generalize W6 m ρ c = Y
  simp only [hostOps0_6]
  after_results
  try rfl

/-- An index column: the index array with its negative entries shifted up by 20000, as a column. -/
def kIdx (h : (⟨S414626, .i32⟩ : BufTy).Contents (Elt Ideal)) : (⟨S414626x1, .i32⟩ : BufTy).Contents (Elt Ideal) :=
  broadcastInDim S414626x1 ![0] bcast_S414626_S414626x1_0
    (select (cmpi .slt h (broadcastInDim S414626 ![] bcast_S_S414626 (constantI S_ 32 0#32)))
      (addi h (broadcastInDim S414626 ![] bcast_S_S414626 (constantI S_ 32 20000#32))) h)

/-- The displacement rows of the edges: head centre minus tail centre. -/
theorem W1_main_v14 (c : Dev nD) : W1 m ρ c (Proc.devRef .tc main_v14)
    = subf (F := Ideal) (φ := .f32) (Host.gather (α := Ideal .f32) gather_S20000x2_S414626x1_S414626x2_1_0_n_n_0_1_12 (m ((c : Thread nD τ).loc main_arg2) : (⟨S20000x2, .f32⟩ : BufTy).Contents (Elt Ideal)) (kIdx (m ((c : Thread nD τ).loc main_arg22) : (⟨S414626, .i32⟩ : BufTy).Contents (Elt Ideal))))
        (Host.gather (α := Ideal .f32) gather_S20000x2_S414626x1_S414626x2_1_0_n_n_0_1_12 (m ((c : Thread nD τ).loc main_arg3) : (⟨S20000x2, .f32⟩ : BufTy).Contents (Elt Ideal)) (kIdx (m ((c : Thread nD τ).loc main_arg23) : (⟨S414626, .i32⟩ : BufTy).Contents (Elt Ideal)))) := by
  show StableHlo.after hostOps0 (W0 m ρ c) (Proc.devRef .tc main_v14) = _
  simp only [hostOps0]
  after_results_simp
  try rfl

/-- The head feature rows of the edges. -/
theorem W1_main_v23 (c : Dev nD) : W1 m ρ c (Proc.devRef .tc main_v23)
    = Host.gather gather_S20000x128_S414626x1_S414626x128_1_0_n_n_0_1_1128 (truncf (F := Ideal) .bf16 (m ((c : Thread nD τ).loc main_arg0) : (⟨S20000x128, .f32⟩ : BufTy).Contents (Elt Ideal)) bitsLt_bf16_f32) (kIdx (m ((c : Thread nD τ).loc main_arg22) : (⟨S414626, .i32⟩ : BufTy).Contents (Elt Ideal))) := by
  show StableHlo.after hostOps0 (W0 m ρ c) (Proc.devRef .tc main_v23) = _
  simp only [hostOps0]
  after_results_simp
  try rfl

/-- The tail feature rows of the edges. -/
theorem W1_main_v30 (c : Dev nD) : W1 m ρ c (Proc.devRef .tc main_v30)
    = Host.gather gather_S20000x128_S414626x1_S414626x128_1_0_n_n_0_1_1128 (truncf (F := Ideal) .bf16 (m ((c : Thread nD τ).loc main_arg1) : (⟨S20000x128, .f32⟩ : BufTy).Contents (Elt Ideal)) bitsLt_bf16_f32) (kIdx (m ((c : Thread nD τ).loc main_arg23) : (⟨S414626, .i32⟩ : BufTy).Contents (Elt Ideal))) := by
  show StableHlo.after hostOps0 (W0 m ρ c) (Proc.devRef .tc main_v30) = _
  simp only [hostOps0]
  after_results_simp
  try rfl

theorem W1_main_c_7 (c : Dev nD) : W1 m ρ c (Proc.devRef .tc main_c_7) = constantI S_ 32 0#32 := by
  show StableHlo.after hostOps0 (W0 m ρ c) (Proc.devRef .tc main_c_7) = _
  simp only [hostOps0]
  after_results_simp

/-- A weight matrix transposed. -/
theorem V7_main_v31 (c : Dev nD) : V7 m ρ c main_v31 = transpose S2x128 [1, 0] (m ((c : Thread nD τ).loc main_arg4)) transposes_S128x2_S2x128_1_0 := by
  show W7 m ρ c (Proc.devRef .tc main_v31) = _
  skip_stretch hostOps0_6
  skip_stretch hostOps0_5
  skip_stretch hostOps0_4
  skip_stretch hostOps0_3
  skip_stretch hostOps0_2
  skip_stretch hostOps0_1
  show StableHlo.after hostOps0 (W0 m ρ c) (Proc.devRef .tc main_v31) = _
  simp only [hostOps0]
  after_results_simp
  try rfl

/-- A weight matrix transposed. -/
theorem V7_main_v33 (c : Dev nD) : V7 m ρ c main_v33 = truncf (F := Ideal) .bf16 (transpose S128x128 [1, 0] (m ((c : Thread nD τ).loc main_arg6)) transposes_S128x128_S128x128_1_0) bitsLt_bf16_f32 := by
  show W7 m ρ c (Proc.devRef .tc main_v33) = _
  skip_stretch hostOps0_6
  skip_stretch hostOps0_5
  skip_stretch hostOps0_4
  skip_stretch hostOps0_3
  skip_stretch hostOps0_2
  skip_stretch hostOps0_1
  show StableHlo.after hostOps0 (W0 m ρ c) (Proc.devRef .tc main_v33) = _
  simp only [hostOps0]
  after_results_simp
  try rfl

/-- A weight matrix transposed. -/
theorem V7_main_v35 (c : Dev nD) : V7 m ρ c main_v35 = truncf (F := Ideal) .bf16 (transpose S128x128 [1, 0] (m ((c : Thread nD τ).loc main_arg9)) transposes_S128x128_S128x128_1_0) bitsLt_bf16_f32 := by
  show W7 m ρ c (Proc.devRef .tc main_v35) = _
  skip_stretch hostOps0_6
  skip_stretch hostOps0_5
  skip_stretch hostOps0_4
  skip_stretch hostOps0_3
  skip_stretch hostOps0_2
  skip_stretch hostOps0_1
  show StableHlo.after hostOps0 (W0 m ρ c) (Proc.devRef .tc main_v35) = _
  simp only [hostOps0]
  after_results_simp
  try rfl

/-- A weight matrix transposed. -/
theorem V7_main_v37 (c : Dev nD) : V7 m ρ c main_v37 = truncf (F := Ideal) .bf16 (transpose S384x128 [1, 0] (m ((c : Thread nD τ).loc main_arg12)) transposes_S128x384_S384x128_1_0) bitsLt_bf16_f32 := by
  show W7 m ρ c (Proc.devRef .tc main_v37) = _
  skip_stretch hostOps0_6
  skip_stretch hostOps0_5
  skip_stretch hostOps0_4
  skip_stretch hostOps0_3
  skip_stretch hostOps0_2
  skip_stretch hostOps0_1
  show StableHlo.after hostOps0 (W0 m ρ c) (Proc.devRef .tc main_v37) = _
  simp only [hostOps0]
  after_results_simp
  try rfl

/-- A weight matrix transposed. -/
theorem V7_main_v39 (c : Dev nD) : V7 m ρ c main_v39 = truncf (F := Ideal) .bf16 (transpose S128x128 [1, 0] (m ((c : Thread nD τ).loc main_arg15)) transposes_S128x128_S128x128_1_0) bitsLt_bf16_f32 := by
  show W7 m ρ c (Proc.devRef .tc main_v39) = _
  skip_stretch hostOps0_6
  skip_stretch hostOps0_5
  skip_stretch hostOps0_4
  skip_stretch hostOps0_3
  skip_stretch hostOps0_2
  skip_stretch hostOps0_1
  show StableHlo.after hostOps0 (W0 m ρ c) (Proc.devRef .tc main_v39) = _
  simp only [hostOps0]
  after_results_simp
  try rfl

/-- The displacement rows padded with 1374 zero rows. -/
theorem V7_main_v40 (c : Dev nD) : V7 m ρ c main_v40
    = pad S416000x2 ![0, 0] ![1374, 0] ![0, 0] (W1 m ρ c (Proc.devRef .tc main_v14)) (sitofp (F := Ideal) .f32 (constantI S_ 32 0#32) : (⟨S_, .f32⟩ : BufTy).Contents (Elt Ideal)) pads_S414626x2_S416000x2_013740_000 h_S_ := by
  show W7 m ρ c (Proc.devRef .tc main_v40) = _
  skip_stretch hostOps0_6
  skip_stretch hostOps0_5
  skip_stretch hostOps0_4
  skip_stretch hostOps0_3
  skip_stretch hostOps0_2
  show StableHlo.after hostOps0_1 (W1 m ρ c) (Proc.devRef .tc main_v40) = _
  rw [← W1_main_c_7 m ρ c]
  generalize W1 m ρ c = Y
  simp only [hostOps0_1]
  after_results
  try rfl

theorem W3_main_c_8 (c : Dev nD) : W3 m ρ c (Proc.devRef .tc main_c_8) = constantI S_ 32 0#32 := by
  show StableHlo.after hostOps0_2 (W2 m ρ c) (Proc.devRef .tc main_c_8) = _
  generalize W2 m ρ c = Y
  simp only [hostOps0_2]
  after_results

theorem W3_main_v23 (c : Dev nD) : W3 m ρ c (Proc.devRef .tc main_v23) = W1 m ρ c (Proc.devRef .tc main_v23) := by
  skip_stretch hostOps0_2
  skip_stretch hostOps0_1
  rfl

/-- The head feature rows padded with 1374 zero rows. -/
theorem V7_main_v41 (c : Dev nD) : V7 m ρ c main_v41
    = pad S416000x128 ![0, 0] ![1374, 0] ![0, 0] (W1 m ρ c (Proc.devRef .tc main_v23)) (sitofp (F := Ideal) .bf16 (constantI S_ 32 0#32) : (⟨S_, .bf16⟩ : BufTy).Contents (Elt Ideal)) pads_S414626x128_S416000x128_013740_000 h_S_ := by
  show W7 m ρ c (Proc.devRef .tc main_v41) = _
  skip_stretch hostOps0_6
  skip_stretch hostOps0_5
  skip_stretch hostOps0_4
  show StableHlo.after hostOps0_3 (W3 m ρ c) (Proc.devRef .tc main_v41) = _
  rw [← W3_main_c_8 m ρ c, ← W3_main_v23 m ρ c]
  generalize W3 m ρ c = Y
  simp only [hostOps0_3]
  after_results
  try rfl

theorem W5_main_c_9 (c : Dev nD) : W5 m ρ c (Proc.devRef .tc main_c_9) = constantI S_ 32 0#32 := by
  show StableHlo.after hostOps0_4 (W4 m ρ c) (Proc.devRef .tc main_c_9) = _
  generalize W4 m ρ c = Y
  simp only [hostOps0_4]
  after_results

theorem W5_main_v30 (c : Dev nD) : W5 m ρ c (Proc.devRef .tc main_v30) = W1 m ρ c (Proc.devRef .tc main_v30) := by
  skip_stretch hostOps0_4
  skip_stretch hostOps0_3
  skip_stretch hostOps0_2
  skip_stretch hostOps0_1
  rfl

/-- The tail feature rows padded with 1374 zero rows. -/
theorem V7_main_v42 (c : Dev nD) : V7 m ρ c main_v42
    = pad S416000x128 ![0, 0] ![1374, 0] ![0, 0] (W1 m ρ c (Proc.devRef .tc main_v30)) (sitofp (F := Ideal) .bf16 (constantI S_ 32 0#32) : (⟨S_, .bf16⟩ : BufTy).Contents (Elt Ideal)) pads_S414626x128_S416000x128_013740_000 h_S_ := by
  show W7 m ρ c (Proc.devRef .tc main_v42) = _
  skip_stretch hostOps0_6
  show StableHlo.after hostOps0_5 (W5 m ρ c) (Proc.devRef .tc main_v42) = _
  rw [← W5_main_c_9 m ρ c, ← W5_main_v30 m ρ c]
  generalize W5 m ρ c = Y
  simp only [hostOps0_5]
  after_results
  try rfl

/-! ## The node call's inputs -/

/-- The node features reach the node call as launched. -/
theorem V9_main_arg0 (c : Dev nD) : V9 m ρ c main_arg0 = m ((c : Thread nD τ).loc main_arg0) := by
  show W9 m ρ c (Proc.devRef .tc main_arg0) = _
  skip_stretch hostOps1
  exact W8_main_arg0 m ρ c

/-- A weight matrix transposed. -/
theorem V9_main_v56 (c : Dev nD) : V9 m ρ c main_v56
    = truncf (F := Ideal) .bf16 (transpose S128x128 [1, 0] (m ((c : Thread nD τ).loc main_arg16)) transposes_S128x128_S128x128_1_0) bitsLt_bf16_f32 := by
  show StableHlo.after hostOps1 (W8 m ρ c) (Proc.devRef .tc main_v56) = _
  rw [← W8_main_arg16 m ρ c]
  generalize W8 m ρ c = Y
  simp only [hostOps1]
  after_results
  try rfl

/-- A weight matrix transposed. -/
theorem V9_main_v58 (c : Dev nD) : V9 m ρ c main_v58
    = truncf (F := Ideal) .bf16 (transpose S128x128 [1, 0] (m ((c : Thread nD τ).loc main_arg19)) transposes_S128x128_S128x128_1_0) bitsLt_bf16_f32 := by
  show StableHlo.after hostOps1 (W8 m ρ c) (Proc.devRef .tc main_v58) = _
  rw [← W8_main_arg19 m ρ c]
  generalize W8 m ρ c = Y
  simp only [hostOps1]
  after_results
  try rfl

/-- A weight vector as a one-row matrix. -/
theorem V9_main_v59 (c : Dev nD) : V9 m ρ c main_v59 = shapeCast S1x128 (m ((c : Thread nD τ).loc main_arg17)) shapeCasts_S128_S1x128 := by
  show StableHlo.after hostOps1 (W8 m ρ c) (Proc.devRef .tc main_v59) = _
  rw [← W8_main_arg17 m ρ c]
  generalize W8 m ρ c = Y
  simp only [hostOps1]
  after_results
  try rfl

/-- A weight vector as a one-row matrix. -/
theorem V9_main_v60 (c : Dev nD) : V9 m ρ c main_v60 = shapeCast S1x128 (m ((c : Thread nD τ).loc main_arg18)) shapeCasts_S128_S1x128 := by
  show StableHlo.after hostOps1 (W8 m ρ c) (Proc.devRef .tc main_v60) = _
  rw [← W8_main_arg18 m ρ c]
  generalize W8 m ρ c = Y
  simp only [hostOps1]
  after_results
  try rfl

/-- A weight vector as a one-row matrix. -/
theorem V9_main_v61 (c : Dev nD) : V9 m ρ c main_v61 = shapeCast S1x128 (m ((c : Thread nD τ).loc main_arg20)) shapeCasts_S128_S1x128 := by
  show StableHlo.after hostOps1 (W8 m ρ c) (Proc.devRef .tc main_v61) = _
  rw [← W8_main_arg20 m ρ c]
  generalize W8 m ρ c = Y
  simp only [hostOps1]
  after_results
  try rfl

/-- A weight vector as a one-row matrix. -/
theorem V9_main_v62 (c : Dev nD) : V9 m ρ c main_v62 = shapeCast S1x128 (m ((c : Thread nD τ).loc main_arg21)) shapeCasts_S128_S1x128 := by
  show StableHlo.after hostOps1 (W8 m ρ c) (Proc.devRef .tc main_v62) = _
  rw [← W8_main_arg21 m ρ c]
  generalize W8 m ρ c = Y
  simp only [hostOps1]
  after_results
  try rfl

/-- The scattered sums: into a zero array, row e of the edge call's output (its 1374 padding rows dropped) is
    added to the row the index array names. -/
theorem V9_main_v54 (c : Dev nD) : V9 m ρ c main_v54
    = Host.scatterAdd (F := Ideal) scatter_S20000x128_S414626x1_S414626x128_1_0_0_1
        (broadcastInDim S20000x128 ![] bcast_S_S20000x128 (constant (F := Ideal) S_ .f32 0x00000000#32))
        (broadcastInDim S414626x1 ![0] bcast_S414626_S414626x1_0 (W8 m ρ c (Proc.devRef .tc main_arg22) : (⟨S414626, .i32⟩ : BufTy).Contents (Elt Ideal)))
        (extractStridedSlice S414626x128 ![0, 0] (W8 m ρ c (Proc.devRef .tc main_v50) : (⟨S416000x128, .f32⟩ : BufTy).Contents (Elt Ideal)) slices_S416000x128_S414626x128_0_0) := by
  show StableHlo.after hostOps1 (W8 m ρ c) (Proc.devRef .tc main_v54) = _
  generalize W8 m ρ c = Y
  simp only [hostOps1]
  after_results
  try rfl

end Cert.Gnn

end
-- ==== Proof.EdgeBody.lean ====
import proofs.«139836_j74208444940775_2_alg».proof.Proof.Gen.KernelIdeal.Frame
import proofs.«139836_j74208444940775_2_alg».proof.Proof.RowSpec
import Idealize.ShloMosaic.Lib.ValueIdx
import Idealize.ShloMosaic.Lib.Pipeline.Value
import Idealize.ShloMosaic.Lib.ValueLayout
import Idealize.ShloMosaic.PureOps.Ideal.Laws

/-! The two kernel bodies read at an index.

Each kernel body is a sequence of whole-block operations: products with weight matrices, row sums kept as a
column and broadcast back along the rows, pointwise arithmetic, one concatenation along the columns. Every one
of them acts on each row of its block independently, so entry (r, j) of what a body leaves is a function of row r
of the body's row inputs and of the weights. This module reads each block operation at an index, composes the
readings stage by stage, and identifies the result with the row functions of the layer. -/

noncomputable section

namespace Cert.Gnn

open Idealize.ShloMosaic Idealize.ShloMosaic.ValueIdx Cert.KernelIdeal Cert.KernelIdeal.Gen

/-! ## Layout operations on 2000-row blocks, read at an index -/

/-- The sum over the columns of a 2000 × 128 block, at row r. -/
theorem rowSum2000 (v : FVec Ideal S2000x128 .f32) (hφ : FKind.Formats FTy.f32)
    (hacc : (0x00000000#32 : BitVec 32) = FKind.add.neutral .f32 hφ) (r : Fin 2000) :
    multiReduction (F := Ideal) .add [1] S2000 v 0x00000000#32 reduces_S2000x128_S2000 hφ hacc (ix1 r)
      = ∑ k : Fin 128, v (ix2 r k) := by
  refine (Ideal.multiReduction_add_single v 0x00000000#32 reduces_S2000x128_S2000 hφ hacc (ix1 r)).trans ?_
  show ∑ k : Fin 128, v (reduces_S2000x128_S2000.lift (ix1 r) k) = _
  refine Finset.sum_congr rfl fun k _ => congrArg v ?_
  funext a
  apply Fin.ext
  match a with
  | ⟨0, _⟩ => rfl
  | ⟨1, _⟩ => rfl

/-- A vector of 2000 entries viewed as a column: entry (r, 0) is entry r. -/
theorem keepCol2000 {α : Type} (w : S2000.Idx → α) (r : Fin 2000) (u : Fin 1) :
    shapeCast S2000x1 w shapeCasts_S2000_S2000x1 (ix2 r u) = w (ix1 r) :=
  shapeCast_apply w shapeCasts_S2000_S2000x1 _ _ (by
    have hu : u.val = 0 := by omega
    rw [Shape.rowMajor_val_two, Shape.rowMajor_val_one]
    show r.val = r.val * 1 + u.val
    rw [hu, Nat.mul_one, Nat.add_zero])

/-- A column broadcast along the rows: entry (r, j) is the column's entry (r, 0). -/
theorem bcastCol2000 {α : Type} (c : S2000x1.Idx → α) (r : Fin 2000) (j : Fin 128) :
    broadcastTo S2000x128 c broadcasts_S2000x1_S2000x128 (ix2 r j) = c (ix2 r (0 : Fin 1)) := by
  refine broadcastTo_apply c broadcasts_S2000x1_S2000x128 (ix2 r j) (ix2 r (0 : Fin 1)) fun ax => ?_
  match ax with
  | ⟨0, _⟩ =>
    show r.val = if (2000 : Nat) = 1 then 0 else r.val
    split
    · omega
    · rfl
  | ⟨1, _⟩ => rfl

/-- One row broadcast over 2000 rows: entry (r, j) is the row's entry j. -/
theorem bcastRow2000 {α : Type} (g : S1x128.Idx → α) (r : Fin 2000) (j : Fin 128) :
    broadcastTo S2000x128 g broadcasts_S1x128_S2000x128 (ix2 r j) = g (ix2 (0 : Fin 1) j) :=
  broadcastTo_1b_ab_apply g broadcasts_S1x128_S2000x128 r j

/-! ## The 2000 × 2 by 2 × 128 product into the zero block, read at an index -/

theorem mmA_l0 (i : S2000x128.Idx) (q : dot_S2000x2_S2x128_S2000x128_1_0_0_1_n_n.contr.Idx) :
    (dot_S2000x2_S2x128_S2000x128_1_0_0_1_n_n.lhsIdx i q 0).val = (i 0).val := by
  unfold DotDims.lhsIdx
  rw [dif_neg (show ¬(0 : Fin S2000x2.rank) ∈ dot_S2000x2_S2x128_S2000x128_1_0_0_1_n_n.lhsBatch by decide), dif_pos (show (0 : Fin S2000x2.rank) ∈ dot_S2000x2_S2x128_S2000x128_1_0_0_1_n_n.lhsNonContracting by decide)]
  rfl
theorem mmA_l1 (i : S2000x128.Idx) (q : dot_S2000x2_S2x128_S2000x128_1_0_0_1_n_n.contr.Idx) :
    (dot_S2000x2_S2x128_S2000x128_1_0_0_1_n_n.lhsIdx i q 1).val = (q ⟨0, by decide⟩).val :=
  dot_S2000x2_S2x128_S2000x128_1_0_0_1_n_n.lhsIdx_val_of_single rfl i q
theorem mmA_r0 (i : S2000x128.Idx) (q : dot_S2000x2_S2x128_S2000x128_1_0_0_1_n_n.contr.Idx) :
    (dot_S2000x2_S2x128_S2000x128_1_0_0_1_n_n.rhsIdx i q 0).val = (q ⟨0, by decide⟩).val :=
  dot_S2000x2_S2x128_S2000x128_1_0_0_1_n_n.rhsIdx_val_of_single rfl i q
theorem mmA_r1 (i : S2000x128.Idx) (q : dot_S2000x2_S2x128_S2000x128_1_0_0_1_n_n.contr.Idx) :
    (dot_S2000x2_S2x128_S2000x128_1_0_0_1_n_n.rhsIdx i q 1).val = (i 1).val := by
  unfold DotDims.rhsIdx
  rw [dif_neg (show ¬(1 : Fin S2x128.rank) ∈ dot_S2000x2_S2x128_S2000x128_1_0_0_1_n_n.rhsBatch by decide), dif_pos (show (1 : Fin S2x128.rank) ∈ dot_S2000x2_S2x128_S2000x128_1_0_0_1_n_n.rhsNonContracting by decide)]
  rfl

/-- Entry (r, j) of the product is ∑ₖ lhs (r, k) · rhs (k, j). -/
theorem mmA_apply {φ₁ φ₂ : FTy} (lhs : FVec Ideal S2000x2 φ₁) (rhs : FVec Ideal S2x128 φ₂) (r : Fin 2000) (j : Fin 128) :
    matmul dot_S2000x2_S2x128_S2000x128_1_0_0_1_n_n none lhs rhs (constant S2000x128 .f32 0x00000000#32) (ix2 r j)
      = ∑ k : Fin 2, lhs (ix2 r k) * rhs (ix2 k j) := by
  refine (Ideal.matmul_constant_zero_apply dot_S2000x2_S2x128_S2000x128_1_0_0_1_n_n none lhs rhs (ix2 r j)).trans ?_
  rw [← Equiv.sum_comp (ValueIdx.contrEquiv1 dot_S2000x2_S2x128_S2000x128_1_0_0_1_n_n 2 rfl rfl).symm]
  refine Finset.sum_congr rfl fun k _ => ?_
  have hk := ValueIdx.contrEquiv1_symm_val dot_S2000x2_S2x128_S2000x128_1_0_0_1_n_n 2 rfl rfl k
  have el : dot_S2000x2_S2x128_S2000x128_1_0_0_1_n_n.lhsIdx (ix2 r j) ((ValueIdx.contrEquiv1 dot_S2000x2_S2x128_S2000x128_1_0_0_1_n_n 2 rfl rfl).symm k) = ix2 r k :=
    funext fun a => Fin.ext (by
      match a with
      | ⟨0, _⟩ => exact mmA_l0 _ _
      | ⟨1, _⟩ => exact (mmA_l1 _ _).trans hk)
  have er : dot_S2000x2_S2x128_S2000x128_1_0_0_1_n_n.rhsIdx (ix2 r j) ((ValueIdx.contrEquiv1 dot_S2000x2_S2x128_S2000x128_1_0_0_1_n_n 2 rfl rfl).symm k) = ix2 k j :=
    funext fun a => Fin.ext (by
      match a with
      | ⟨0, _⟩ => exact (mmA_r0 _ _).trans hk
      | ⟨1, _⟩ => exact mmA_r1 _ _)
  rw [el, er]

/-- The same with the operands' entries named: row r of the product is row r of the left operand times the
    right operand. -/
theorem mmA_row {φ₁ φ₂ : FTy} (lhs : FVec Ideal S2000x2 φ₁) (rhs : FVec Ideal S2x128 φ₂)
    (x : Fin 2 → EReal) (w : Fin 2 → Fin 128 → EReal) (r : Fin 2000)
    (hx : ∀ k, lhs (ix2 r k) = x k) (hw : ∀ k j, rhs (ix2 k j) = w k j) (j : Fin 128) :
    matmul dot_S2000x2_S2x128_S2000x128_1_0_0_1_n_n none lhs rhs (constant S2000x128 .f32 0x00000000#32) (ix2 r j) = dotRow x w j := by
  refine (mmA_apply lhs rhs r j).trans ?_
  unfold dotRow
  exact Finset.sum_congr rfl fun k _ => by rw [hx k, hw k j]

/-! ## The 2000 × 128 by 128 × 128 product into the zero block, read at an index -/

theorem mmB_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmB_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mmB_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mmB_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, j) of the product is ∑ₖ lhs (r, k) · rhs (k, j). -/
theorem mmB_apply {φ₁ φ₂ : FTy} (lhs : FVec Ideal S2000x128 φ₁) (rhs : FVec Ideal S128x128 φ₂) (r : Fin 2000) (j : Fin 128) :
    matmul dot_S2000x128_S128x128_S2000x128_1_0_0_1_n_n none lhs rhs (constant S2000x128 .f32 0x00000000#32) (ix2 r j)
      = ∑ k : Fin 128, lhs (ix2 r k) * rhs (ix2 k j) := by
  refine (Ideal.matmul_constant_zero_apply dot_S2000x128_S128x128_S2000x128_1_0_0_1_n_n none lhs rhs (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k :=
    funext fun a => Fin.ext (by
      match a with
      | ⟨0, _⟩ => exact mmB_l0 _ _
      | ⟨1, _⟩ => exact (mmB_l1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j :=
    funext fun a => Fin.ext (by
      match a with
      | ⟨0, _⟩ => exact (mmB_r0 _ _).trans hk
      | ⟨1, _⟩ => exact mmB_r1 _ _)
  rw [el, er]

/-- The same with the operands' entries named: row r of the product is row r of the left operand times the
    right operand. -/
theorem mmB_row {φ₁ φ₂ : FTy} (lhs : FVec Ideal S2000x128 φ₁) (rhs : FVec Ideal S128x128 φ₂)
    (x : Fin 128 → EReal) (w : Fin 128 → Fin 128 → EReal) (r : Fin 2000)
    (hx : ∀ k, lhs (ix2 r k) = x k) (hw : ∀ k j, rhs (ix2 k j) = w k j) (j : Fin 128) :
    matmul dot_S2000x128_S128x128_S2000x128_1_0_0_1_n_n none lhs rhs (constant S2000x128 .f32 0x00000000#32) (ix2 r j) = dotRow x w j := by
  refine (mmB_apply lhs rhs r j).trans ?_
  unfold dotRow
  exact Finset.sum_congr rfl fun k _ => by rw [hx k, hw k j]

/-! ## The 2000 × 384 by 384 × 128 product into the zero block, read at an index -/

theorem mmC_l0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem mmC_l1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem mmC_r0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem mmC_r1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- Entry (r, j) of the product is ∑ₖ lhs (r, k) · rhs (k, j). -/
theorem mmC_apply {φ₁ φ₂ : FTy} (lhs : FVec Ideal S2000x384 φ₁) (rhs : FVec Ideal S384x128 φ₂) (r : Fin 2000) (j : Fin 128) :
    matmul dot_S2000x384_S384x128_S2000x128_1_0_0_1_n_n none lhs rhs (constant S2000x128 .f32 0x00000000#32) (ix2 r j)
      = ∑ k : Fin 384, lhs (ix2 r k) * rhs (ix2 k j) := by
  refine (Ideal.matmul_constant_zero_apply dot_S2000x384_S384x128_S2000x128_1_0_0_1_n_n none lhs rhs (ix2 r j)).trans ?_
  rw [← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx (ix2 r j) ((ValueIdx.contrEquiv1 dot_S2000x384_S384x128_S2000x128_1_0_0_1_n_n 384 rfl rfl).symm k) = ix2 r k :=
    funext fun a => Fin.ext (by
      match a with
      | ⟨0, _⟩ => exact mmC_l0 _ _
      | ⟨1, _⟩ => exact (mmC_l1 _ _).trans hk)
  have er : dot_S2000x384_S384x128_S2000x128_1_0_0_1_n_n.rhsIdx (ix2 r j) ((ValueIdx.contrEquiv1 dot_S2000x384_S384x128_S2000x128_1_0_0_1_n_n 384 rfl rfl).symm k) = ix2 k j :=
    funext fun a => Fin.ext (by
      match a with
      | ⟨0, _⟩ => exact (mmC_r0 _ _).trans hk
      | ⟨1, _⟩ => exact mmC_r1 _ _)
  rw [el, er]

/-- The same with the operands' entries named: row r of the product is row r of the left operand times the
    right operand. -/
theorem mmC_row {φ₁ φ₂ : FTy} (lhs : FVec Ideal S2000x384 φ₁) (rhs : FVec Ideal S384x128 φ₂)
    (x : Fin 384 → EReal) (w : Fin 384 → Fin 128 → EReal) (r : Fin 2000)
    (hx : ∀ k, lhs (ix2 r k) = x k) (hw : ∀ k j, rhs (ix2 k j) = w k j) (j : Fin 128) :
    matmul dot_S2000x384_S384x128_S2000x128_1_0_0_1_n_n none lhs rhs (constant S2000x128 .f32 0x00000000#32) (ix2 r j) = dotRow x w j := by
  refine (mmC_apply lhs rhs r j).trans ?_
  unfold dotRow
  exact Finset.sum_congr rfl fun k _ => by rw [hx k, hw k j]

/-! ## The normalisation of a 2000 × 128 block, row by row -/

/-- The column of row means of a block. -/
def meanCol2000 (v : FVec Ideal S2000x128 .f32) : FVec Ideal S2000x1 .f32 :=
  divf (shapeCast S2000x1 (multiReduction .add [1] S2000 v 0x00000000#32 reduces_S2000x128_S2000 (.inl rfl) rfl) shapeCasts_S2000_S2000x1)
    (broadcast S2000x1 (Scalar.ofBits .f32 0x43000000#32 : Ideal .f32))

/-- Its entry at row r is the mean of row r. -/
theorem meanCol2000_apply (v : FVec Ideal S2000x128 .f32) (y : Fin 128 → EReal) (r : Fin 2000)
    (hy : ∀ k, v (ix2 r k) = y k) (u : Fin 1) : meanCol2000 v (ix2 r u) = mean128 y := by
  unfold mean128
  exact congrArg (fun s => Ideal.div s (Ideal.ofBits .f32 0x43000000#32))
    (((keepCol2000 _ r u).trans (rowSum2000 v (.inl rfl) rfl r)).trans (Finset.sum_congr rfl fun k _ => hy k))

/-- A block with each row's mean subtracted. -/
def centredBlk2000 (v : FVec Ideal S2000x128 .f32) : FVec Ideal S2000x128 .f32 :=
  subf v (broadcastTo S2000x128 (meanCol2000 v) broadcasts_S2000x1_S2000x128)

theorem centredBlk2000_apply (v : FVec Ideal S2000x128 .f32) (y : Fin 128 → EReal) (r : Fin 2000)
    (hy : ∀ k, v (ix2 r k) = y k) (j : Fin 128) : centredBlk2000 v (ix2 r j) = centred y j := by
  show v (ix2 r j) - broadcastTo S2000x128 (meanCol2000 v) broadcasts_S2000x1_S2000x128 (ix2 r j) = _
  rw [bcastCol2000, meanCol2000_apply v y r hy, hy j]
  rfl

/-- The normalisation before the shift: centre, scale by the reciprocal root of the variance plus ε, multiply
    by the gain row. -/
def gnScaleBlk2000 (v : FVec Ideal S2000x128 .f32) (g : FVec Ideal S1x128 .f32) : FVec Ideal S2000x128 .f32 :=
  mulf (mulf (centredBlk2000 v)
      (broadcastTo S2000x128 (rsqrt (addf (meanCol2000 (mulf (centredBlk2000 v) (centredBlk2000 v)))
        (broadcast S2000x1 (Scalar.ofBits .f32 0x3727C5AC#32 : Ideal .f32)))) broadcasts_S2000x1_S2000x128))
    (broadcastTo S2000x128 g broadcasts_S1x128_S2000x128)

/-- Row r of the normalised block is the normalisation of row r. -/
theorem gnScaleBlk2000_apply (v : FVec Ideal S2000x128 .f32) (g : FVec Ideal S1x128 .f32) (y gg : Fin 128 → EReal)
    (r : Fin 2000) (hy : ∀ k, v (ix2 r k) = y k) (hg : ∀ k, g (ix2 (0 : Fin 1) k) = gg k) (j : Fin 128) :
    gnScaleBlk2000 v g (ix2 r j) = gnScale y gg j := by
  show centredBlk2000 v (ix2 r j)
      * broadcastTo S2000x128 (rsqrt (addf (meanCol2000 (mulf (centredBlk2000 v) (centredBlk2000 v)))
        (broadcast S2000x1 (Scalar.ofBits .f32 0x3727C5AC#32 : Ideal .f32)))) broadcasts_S2000x1_S2000x128 (ix2 r j)
      * broadcastTo S2000x128 g broadcasts_S1x128_S2000x128 (ix2 r j) = _
  rw [bcastCol2000, bcastRow2000, centredBlk2000_apply v y r hy, hg j]
  show centred y j * Ideal.rsqrt (meanCol2000 (mulf (centredBlk2000 v) (centredBlk2000 v)) (ix2 r (0 : Fin 1))
      + Ideal.ofBits .f32 0x3727C5AC#32) * gg j = _
  rw [meanCol2000_apply (mulf (centredBlk2000 v) (centredBlk2000 v)) (fun k => centred y k * centred y k) r
    (fun k => by
      show centredBlk2000 v (ix2 r k) * centredBlk2000 v (ix2 r k) = _
      rw [centredBlk2000_apply v y r hy])]
  rfl

/-! ## Three 2000 × 128 blocks side by side -/

/-- Row r of the concatenation along the columns is the three rows laid side by side. -/
theorem concat3_2000_apply (p q s : FVec Ideal S2000x128 .f32) (u v w : Fin 128 → EReal) (r : Fin 2000)
    (hu : ∀ k, p (ix2 r k) = u k) (hv : ∀ k, q (ix2 r k) = v k) (hw : ∀ k, s (ix2 r k) = w k) (k : Fin 384) :
    concatenate S2000x384 1 [⟨S2000x128, p⟩, ⟨S2000x128, q⟩, ⟨S2000x128, s⟩]
        concatenates_S2000x128_S2000x128_S2000x128_S2000x384_d1 (ix2 r k) = cat3 u v w k := by
  unfold cat3
  by_cases h1 : k.val < 128
  · rw [dif_pos h1, ← hu]
    refine concatenate_apply_piece (1 : Fin S2000x384.rank) _ _ (ix2 r k) 0 (by show (0 : Nat) < 3; omega) S2000x128 p rfl rfl 0 rfl
      (ix2 r ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2, ← hv]
      refine concatenate_apply_piece (1 : Fin S2000x384.rank) _ _ (ix2 r k) 1 (by show (1 : Nat) < 3; omega) S2000x128 q rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega
    · rw [dif_neg h2, ← hw]
      refine concatenate_apply_piece (1 : Fin S2000x384.rank) _ _ (ix2 r k) 2 (by show (2 : Nat) < 3; omega) S2000x128 s rfl rfl 256 rfl
        (ix2 r ⟨k.val - 256, by have := k.isLt; omega⟩) (fun b hb => ?_) ?_
      · match b with
        | ⟨0, _⟩ => rfl
        | ⟨1, _⟩ => exact absurd rfl hb
      · show 256 + (k.val - 256) = k.val
        omega

/-! ## The edge kernel's arithmetic, row by row -/

/-- The first stage: the displacement's two layers, the second normalised up to its shift. -/
theorem k0_pay3_eq (v0 : FVec Ideal S2000x2 .f32) (v2 : FVec Ideal S2x128 .f32) (v5 : FVec Ideal S1x128 .f32)
    (v12 : FVec Ideal S128x128 .bf16) (v15 : FVec Ideal S1x128 .f32) :
    k0_pay3 (F := Ideal) v0 v2 v5 v12 v15
      = gnScaleBlk2000
          (matmul (F := Ideal) (φ₁ := .bf16) (φ₂ := .bf16) dot_S2000x128_S128x128_S2000x128_1_0_0_1_n_n none
            (truncf .bf16 (maximumf (addf
                (matmul (F := Ideal) (φ₁ := .f32) (φ₂ := .f32) dot_S2000x2_S2x128_S2000x128_1_0_0_1_n_n none (shapeCast S2000x2 v0 shapeCasts_S2000x2_S2000x2) (shapeCast S2x128 v2 shapeCasts_S2x128_S2x128) (constant S2000x128 .f32 0x00000000#32))
                (broadcastTo S2000x128 (shapeCast S1x128 v5 shapeCasts_S1x128_S1x128) broadcasts_S1x128_S2000x128))
              (broadcast S2000x128 (Scalar.ofBits .f32 0x00000000#32 : Ideal .f32))) bitsLt_bf16_f32)
            (shapeCast S128x128 v12 shapeCasts_S128x128_S128x128) (constant S2000x128 .f32 0x00000000#32))
          (shapeCast S1x128 v15 shapeCasts_S1x128_S1x128) := rfl

theorem k0_pay3_apply (v0 : FVec Ideal S2000x2 .f32) (v2 : FVec Ideal S2x128 .f32) (v5 : FVec Ideal S1x128 .f32)
    (v12 : FVec Ideal S128x128 .bf16) (v15 : FVec Ideal S1x128 .f32) (r : Fin 2000) (j : Fin 128) :
    k0_pay3 (F := Ideal) v0 v2 v5 v12 v15 (ix2 r j)
      = gnScale (dotRow (fun j => relu (dotRow (fun k => v0 (ix2 r k)) (fun k j => v2 (ix2 k j)) j + v5 (ix2 (0 : Fin 1) j)))
          (fun k j => v12 (ix2 k j))) (fun j => v15 (ix2 (0 : Fin 1) j)) j := by
  rw [k0_pay3_eq]
  simp only [shapeCast_self]
  refine gnScaleBlk2000_apply _ _ _ _ r (fun k => ?_) (fun k => rfl) j
  refine mmB_row _ _ _ _ r (fun i => ?_) (fun _ _ => rfl) k
  show max ((matmul (F := Ideal) (φ₁ := .f32) (φ₂ := .f32) dot_S2000x2_S2x128_S2000x128_1_0_0_1_n_n none v0 v2 (constant S2000x128 .f32 0x00000000#32)) (ix2 r i)
      + broadcastTo S2000x128 v5 broadcasts_S1x128_S2000x128 (ix2 r i)) (Ideal.ofBits .f32 0x00000000#32) = _
  rw [bcastRow2000, mmA_row v0 v2 _ _ r (fun _ => rfl) (fun _ _ => rfl) i]
  rfl

/-- The second stage: the shift and rectifier of the first, the query layer, and the three rows side by side. -/
theorem k0_pay4_eq (v18 : FVec Ideal S1x128 .f32) (v38 : FVec Ideal S2000x128 .f32) (v43 : FVec Ideal S2000x128 .bf16)
    (v45 : FVec Ideal S128x128 .bf16) (v48 v50 : FVec Ideal S1x128 .f32) (v76 : FVec Ideal S2000x128 .bf16) :
    k0_pay4 (F := Ideal) v18 v38 v43 v45 v48 v50 v76
      = truncf .bf16 (concatenate S2000x384 1
          [⟨S2000x128, maximumf (addf v38 (broadcastTo S2000x128 v18 broadcasts_S1x128_S2000x128)) (broadcast S2000x128 (Scalar.ofBits .f32 0x00000000#32 : Ideal .f32))⟩,
           ⟨S2000x128, maximumf (addf
              (gnScaleBlk2000 (matmul (F := Ideal) (φ₁ := .bf16) (φ₂ := .bf16) dot_S2000x128_S128x128_S2000x128_1_0_0_1_n_n none (shapeCast S2000x128 v43 shapeCasts_S2000x128_S2000x128) (shapeCast S128x128 v45 shapeCasts_S128x128_S128x128) (constant S2000x128 .f32 0x00000000#32))
                (shapeCast S1x128 v48 shapeCasts_S1x128_S1x128))
              (broadcastTo S2000x128 (shapeCast S1x128 v50 shapeCasts_S1x128_S1x128) broadcasts_S1x128_S2000x128)) (broadcast S2000x128 (Scalar.ofBits .f32 0x00000000#32 : Ideal .f32))⟩,
           ⟨S2000x128, extf .f32 (shapeCast S2000x128 v76 shapeCasts_S2000x128_S2000x128) bitsLt_bf16_f32⟩]
          concatenates_S2000x128_S2000x128_S2000x128_S2000x384_d1) bitsLt_bf16_f32 := rfl

theorem k0_pay4_apply (v18 : FVec Ideal S1x128 .f32) (v38 : FVec Ideal S2000x128 .f32) (v43 : FVec Ideal S2000x128 .bf16)
    (v45 : FVec Ideal S128x128 .bf16) (v48 v50 : FVec Ideal S1x128 .f32) (v76 : FVec Ideal S2000x128 .bf16)
    (y g b : Fin 128 → EReal) (r : Fin 2000) (hy : ∀ k, v38 (ix2 r k) = gnScale y g k)
    (hb : ∀ k, v18 (ix2 (0 : Fin 1) k) = b k) (k : Fin 384) :
    k0_pay4 (F := Ideal) v18 v38 v43 v45 v48 v50 v76 (ix2 r k)
      = cat3 (fun j => relu (gn y g b j))
          (fun j => relu (gn (dotRow (fun k => v43 (ix2 r k)) (fun k j => v45 (ix2 k j)))
            (fun j => v48 (ix2 (0 : Fin 1) j)) (fun j => v50 (ix2 (0 : Fin 1) j)) j))
          (fun j => v76 (ix2 r j)) k := by
  rw [k0_pay4_eq]
  refine (truncf_apply _ bitsLt_bf16_f32 (ix2 r k)).trans ?_
  refine concat3_2000_apply _ _ _ _ _ _ r (fun j => ?_) (fun j => ?_) (fun j => ?_) k
  · show max (v38 (ix2 r j) + broadcastTo S2000x128 v18 broadcasts_S1x128_S2000x128 (ix2 r j)) (Ideal.ofBits .f32 0x00000000#32) = _
    rw [bcastRow2000, hy j, hb j]
    rfl
  · simp only [shapeCast_self]
    show max (gnScaleBlk2000 (matmul (F := Ideal) (φ₁ := .bf16) (φ₂ := .bf16) dot_S2000x128_S128x128_S2000x128_1_0_0_1_n_n none v43 v45 (constant S2000x128 .f32 0x00000000#32)) v48 (ix2 r j)
        + broadcastTo S2000x128 v50 broadcasts_S1x128_S2000x128 (ix2 r j)) (Ideal.ofBits .f32 0x00000000#32) = _
    rw [bcastRow2000, gnScaleBlk2000_apply _ _ (dotRow (fun k => v43 (ix2 r k)) (fun k j => v45 (ix2 k j)))
      (fun j => v48 (ix2 (0 : Fin 1) j)) r (fun k => mmB_row _ _ _ _ r (fun _ => rfl) (fun _ _ => rfl) k) (fun _ => rfl) j]
    rfl
  · rw [shapeCast_self]
    rfl

/-- The last stage: the layer over the concatenated rows, normalised and rectified, then the last linear map. -/
theorem k0_pay1_eq (v80 : FVec Ideal S2000x384 .bf16) (v81 : FVec Ideal S384x128 .bf16) (v84 v86 : FVec Ideal S1x128 .f32)
    (v113 : FVec Ideal S128x128 .bf16) :
    k0_pay1 (F := Ideal) v80 v81 v84 v86 v113
      = (matmul (F := Ideal) (φ₁ := .bf16) (φ₂ := .bf16) dot_S2000x128_S128x128_S2000x128_1_0_0_1_n_n none
          (truncf .bf16 (maximumf (addf
              (gnScaleBlk2000 (matmul (F := Ideal) (φ₁ := .bf16) (φ₂ := .bf16) dot_S2000x384_S384x128_S2000x128_1_0_0_1_n_n none v80 (shapeCast S384x128 v81 shapeCasts_S384x128_S384x128) (constant S2000x128 .f32 0x00000000#32))
                (shapeCast S1x128 v84 shapeCasts_S1x128_S1x128))
              (broadcastTo S2000x128 (shapeCast S1x128 v86 shapeCasts_S1x128_S1x128) broadcasts_S1x128_S2000x128)) (broadcast S2000x128 (Scalar.ofBits .f32 0x00000000#32 : Ideal .f32))) bitsLt_bf16_f32)
          (shapeCast S128x128 v113 shapeCasts_S128x128_S128x128) (constant S2000x128 .f32 0x00000000#32)) := rfl

theorem k0_pay1_apply (v80 : FVec Ideal S2000x384 .bf16) (v81 : FVec Ideal S384x128 .bf16) (v84 v86 : FVec Ideal S1x128 .f32)
    (v113 : FVec Ideal S128x128 .bf16) (X : Fin 384 → EReal) (r : Fin 2000) (hX : ∀ k, v80 (ix2 r k) = X k) (j : Fin 128) :
    k0_pay1 (F := Ideal) v80 v81 v84 v86 v113 (ix2 r j)
      = dotRow (fun j => relu (gn (dotRow X (fun k j => v81 (ix2 k j)))
          (fun j => v84 (ix2 (0 : Fin 1) j)) (fun j => v86 (ix2 (0 : Fin 1) j)) j)) (fun k j => v113 (ix2 k j)) j := by
  rw [k0_pay1_eq]
  simp only [shapeCast_self]
  refine mmB_row _ _ _ _ r (fun i => ?_) (fun _ _ => rfl) j
  show max (gnScaleBlk2000 (matmul (F := Ideal) (φ₁ := .bf16) (φ₂ := .bf16) dot_S2000x384_S384x128_S2000x128_1_0_0_1_n_n none v80 v81 (constant S2000x128 .f32 0x00000000#32)) v84 (ix2 r i)
      + broadcastTo S2000x128 v86 broadcasts_S1x128_S2000x128 (ix2 r i)) (Ideal.ofBits .f32 0x00000000#32) = _
  rw [bcastRow2000, gnScaleBlk2000_apply _ _ (dotRow X (fun k j => v81 (ix2 k j)))
    (fun j => v84 (ix2 (0 : Fin 1) j)) r (fun k => mmC_row _ _ _ _ r hX (fun _ _ => rfl) k) (fun _ => rfl) i]
  rfl

theorem k0_pay2_apply (v17 : FVec Ideal S1x128 .f32) (i : S1x128.Idx) : k0_pay2 (F := Ideal) v17 i = v17 i :=
  congrFun (shapeCast_self v17 shapeCasts_S1x128_S1x128) i

/-! ## The edge kernel's output block, row by row -/

theorem hz0 : (![0, 0] : Fin 2 → Nat) = fun _ => 0 := funext fun a => by fin_cases a <;> rfl

/-- Row r of the block the edge kernel leaves is the edge row function of row r of its three row inputs and of
    the weights. -/
theorem out0_15_apply (x0 : Vec Ideal S2000x2 .f32) (x1 x2 : Vec Ideal S2000x128 .bf16) (x3 : Vec Ideal S2x128 .f32) (x4 : Vec Ideal S1x128 .f32) (x5 : Vec Ideal S128x128 .bf16) (x6 x7 : Vec Ideal S1x128 .f32) (x8 : Vec Ideal S128x128 .bf16) (x9 x10 : Vec Ideal S1x128 .f32) (x11 : Vec Ideal S384x128 .bf16) (x12 x13 : Vec Ideal S1x128 .f32) (x14 : Vec Ideal S128x128 .bf16) (r : Fin 2000) (j : Fin 128) :
    out0_15 (F := Ideal) x0 x1 x2 x3 x4 x5 x6 x7 x8 x9 x10 x11 x12 x13 x14 (ix2 r j)
      = edgeRow (fun k => x0 (ix2 r k)) (fun k => x1 (ix2 r k)) (fun k => x2 (ix2 r k))
          (fun k j => x3 (ix2 k j)) (fun j => x4 (ix2 0 j))
          (fun k j => x5 (ix2 k j)) (fun j => x6 (ix2 0 j)) (fun j => x7 (ix2 0 j))
          (fun k j => x8 (ix2 k j)) (fun j => x9 (ix2 0 j)) (fun j => x10 (ix2 0 j))
          (fun k j => x11 (ix2 k j)) (fun j => x12 (ix2 0 j)) (fun j => x13 (ix2 0 j))
          (fun k j => x14 (ix2 k j)) j := by
  unfold out0_15
  rw [View.canon_unit_zero hz0]
  simp only [View.ld_unit_zero (S := S2000x2) hz0, View.ld_unit_zero (S := S2x128) hz0, View.ld_unit_zero (S := S1x128) hz0,
    View.ld_unit_zero (S := S128x128) hz0, View.ld_unit_zero (S := S2000x128) hz0, View.ld_unit_zero (S := S384x128) hz0]
  exact k0_pay1_apply _ x11 x12 x13 x14 _ r
    (fun k => k0_pay4_apply _ _ x1 x8 x9 x10 x2 _ _ _ r (fun k => k0_pay3_apply x0 x3 x4 x5 x6 r k)
      (fun k => k0_pay2_apply x7 _) k) j

/-! ## Layout operations on 4000-row blocks, read at an index -/

/-- The sum over the columns of a 4000 × 128 block, at row r. -/
theorem rowSum4000 (v : FVec Ideal S4000x128 .f32) (hφ : FKind.Formats FTy.f32)
    (hacc : (0x00000000#32 : BitVec 32) = FKind.add.neutral .f32 hφ) (r : Fin 4000) :
    multiReduction (F := Ideal) .add [1] S4000 v 0x00000000#32 reduces_S4000x128_S4000 hφ hacc (ix1 r)
      = ∑ k : Fin 128, v (ix2 r k) := by
  refine (Ideal.multiReduction_add_single v 0x00000000#32 reduces_S4000x128_S4000 hφ hacc (ix1 r)).trans ?_
  show ∑ k : Fin 128, v (reduces_S4000x128_S4000.lift (ix1 r) k) = _
  refine Finset.sum_congr rfl fun k _ => congrArg v ?_
  funext a
  apply Fin.ext
  match a with
  | ⟨0, _⟩ => rfl
  | ⟨1, _⟩ => rfl

/-- A vector of 4000 entries viewed as a column: entry (r, 0) is entry r. -/
theorem keepCol4000 {α : Type} (w : S4000.Idx → α) (r : Fin 4000) (u : Fin 1) :
    shapeCast S4000x1 w shapeCasts_S4000_S4000x1 (ix2 r u) = w (ix1 r) :=
  shapeCast_apply w shapeCasts_S4000_S4000x1 _ _ (by
    have hu : u.val = 0 := by omega
    rw [Shape.rowMajor_val_two, Shape.rowMajor_val_one]
    show r.val = r.val * 1 + u.val
    rw [hu, Nat.mul_one, Nat.add_zero])

/-- A column broadcast along the rows: entry (r, j) is the column's entry (r, 0). -/
theorem bcastCol4000 {α : Type} (c : S4000x1.Idx → α) (r : Fin 4000) (j : Fin 128) :
    broadcastTo S4000x128 c broadcasts_S4000x1_S4000x128 (ix2 r j) = c (ix2 r (0 : Fin 1)) := by
  refine broadcastTo_apply c broadcasts_S4000x1_S4000x128 (ix2 r j) (ix2 r (0 : Fin 1)) fun ax => ?_
  match ax with
  | ⟨0, _⟩ =>
    show r.val = if (4000 : Nat) = 1 then 0 else r.val
    split
    · omega
    · rfl
  | ⟨1, _⟩ => rfl

/-- One row broadcast over 4000 rows: entry (r, j) is the row's entry j. -/
theorem bcastRow4000 {α : Type} (g : S1x128.Idx → α) (r : Fin 4000) (j : Fin 128) :
    broadcastTo S4000x128 g broadcasts_S1x128_S4000x128 (ix2 r j) = g (ix2 (0 : Fin 1) j) :=
  broadcastTo_1b_ab_apply g broadcasts_S1x128_S4000x128 r j

/-! ## The 4000 × 128 by 128 × 128 product into the zero block, read at an index -/

theorem mmN_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mmN_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mmN_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mmN_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (r, j) of the product is ∑ₖ lhs (r, k) · rhs (k, j). -/
theorem mmN_apply {φ₁ φ₂ : FTy} (lhs : FVec Ideal S4000x128 φ₁) (rhs : FVec Ideal S128x128 φ₂) (r : Fin 4000) (j : Fin 128) :
    matmul dot_S4000x128_S128x128_S4000x128_1_0_0_1_n_n none lhs rhs (constant S4000x128 .f32 0x00000000#32) (ix2 r j)
      = ∑ k : Fin 128, lhs (ix2 r k) * rhs (ix2 k j) := by
  refine (Ideal.matmul_constant_zero_apply dot_S4000x128_S128x128_S4000x128_1_0_0_1_n_n none lhs rhs (ix2 r j)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k :=
    funext fun a => Fin.ext (by
      match a with
      | ⟨0, _⟩ => exact mmN_l0 _ _
      | ⟨1, _⟩ => exact (mmN_l1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j :=
    funext fun a => Fin.ext (by
      match a with
      | ⟨0, _⟩ => exact (mmN_r0 _ _).trans hk
      | ⟨1, _⟩ => exact mmN_r1 _ _)
  rw [el, er]

/-- The same with the operands' entries named: row r of the product is row r of the left operand times the
    right operand. -/
theorem mmN_row {φ₁ φ₂ : FTy} (lhs : FVec Ideal S4000x128 φ₁) (rhs : FVec Ideal S128x128 φ₂)
    (x : Fin 128 → EReal) (w : Fin 128 → Fin 128 → EReal) (r : Fin 4000)
    (hx : ∀ k, lhs (ix2 r k) = x k) (hw : ∀ k j, rhs (ix2 k j) = w k j) (j : Fin 128) :
    matmul dot_S4000x128_S128x128_S4000x128_1_0_0_1_n_n none lhs rhs (constant S4000x128 .f32 0x00000000#32) (ix2 r j) = dotRow x w j := by
  refine (mmN_apply lhs rhs r j).trans ?_
  unfold dotRow
  exact Finset.sum_congr rfl fun k _ => by rw [hx k, hw k j]

/-! ## The normalisation of a 4000 × 128 block, row by row -/

/-- The column of row means of a block. -/
def meanCol4000 (v : FVec Ideal S4000x128 .f32) : FVec Ideal S4000x1 .f32 :=
  divf (shapeCast S4000x1 (multiReduction .add [1] S4000 v 0x00000000#32 reduces_S4000x128_S4000 (.inl rfl) rfl) shapeCasts_S4000_S4000x1)
    (broadcast S4000x1 (Scalar.ofBits .f32 0x43000000#32 : Ideal .f32))

/-- Its entry at row r is the mean of row r. -/
theorem meanCol4000_apply (v : FVec Ideal S4000x128 .f32) (y : Fin 128 → EReal) (r : Fin 4000)
    (hy : ∀ k, v (ix2 r k) = y k) (u : Fin 1) : meanCol4000 v (ix2 r u) = mean128 y := by
  unfold mean128
  exact congrArg (fun s => Ideal.div s (Ideal.ofBits .f32 0x43000000#32))
    (((keepCol4000 _ r u).trans (rowSum4000 v (.inl rfl) rfl r)).trans (Finset.sum_congr rfl fun k _ => hy k))

/-- A block with each row's mean subtracted. -/
def centredBlk4000 (v : FVec Ideal S4000x128 .f32) : FVec Ideal S4000x128 .f32 :=
  subf v (broadcastTo S4000x128 (meanCol4000 v) broadcasts_S4000x1_S4000x128)

theorem centredBlk4000_apply (v : FVec Ideal S4000x128 .f32) (y : Fin 128 → EReal) (r : Fin 4000)
    (hy : ∀ k, v (ix2 r k) = y k) (j : Fin 128) : centredBlk4000 v (ix2 r j) = centred y j := by
  show v (ix2 r j) - broadcastTo S4000x128 (meanCol4000 v) broadcasts_S4000x1_S4000x128 (ix2 r j) = _
  rw [bcastCol4000, meanCol4000_apply v y r hy, hy j]
  rfl

/-- The normalisation before the shift: centre, scale by the reciprocal root of the variance plus ε, multiply
    by the gain row. -/
def gnScaleBlk4000 (v : FVec Ideal S4000x128 .f32) (g : FVec Ideal S1x128 .f32) : FVec Ideal S4000x128 .f32 :=
  mulf (mulf (centredBlk4000 v)
      (broadcastTo S4000x128 (rsqrt (addf (meanCol4000 (mulf (centredBlk4000 v) (centredBlk4000 v)))
        (broadcast S4000x1 (Scalar.ofBits .f32 0x3727C5AC#32 : Ideal .f32)))) broadcasts_S4000x1_S4000x128))
    (broadcastTo S4000x128 g broadcasts_S1x128_S4000x128)

/-- Row r of the normalised block is the normalisation of row r. -/
theorem gnScaleBlk4000_apply (v : FVec Ideal S4000x128 .f32) (g : FVec Ideal S1x128 .f32) (y gg : Fin 128 → EReal)
    (r : Fin 4000) (hy : ∀ k, v (ix2 r k) = y k) (hg : ∀ k, g (ix2 (0 : Fin 1) k) = gg k) (j : Fin 128) :
    gnScaleBlk4000 v g (ix2 r j) = gnScale y gg j := by
  show centredBlk4000 v (ix2 r j)
      * broadcastTo S4000x128 (rsqrt (addf (meanCol4000 (mulf (centredBlk4000 v) (centredBlk4000 v)))
        (broadcast S4000x1 (Scalar.ofBits .f32 0x3727C5AC#32 : Ideal .f32)))) broadcasts_S4000x1_S4000x128 (ix2 r j)
      * broadcastTo S4000x128 g broadcasts_S1x128_S4000x128 (ix2 r j) = _
  rw [bcastCol4000, bcastRow4000, centredBlk4000_apply v y r hy, hg j]
  show centred y j * Ideal.rsqrt (meanCol4000 (mulf (centredBlk4000 v) (centredBlk4000 v)) (ix2 r (0 : Fin 1))
      + Ideal.ofBits .f32 0x3727C5AC#32) * gg j = _
  rw [meanCol4000_apply (mulf (centredBlk4000 v) (centredBlk4000 v)) (fun k => centred y k * centred y k) r
    (fun k => by
      show centredBlk4000 v (ix2 r k) * centredBlk4000 v (ix2 r k) = _
      rw [centredBlk4000_apply v y r hy])]
  rfl

/-! ## The node kernel's arithmetic, row by row -/

/-- The first stage: the node's own product plus the summed row, normalised and rectified. -/
theorem k1_pay2_eq (v0 : FVec Ideal S4000x128 .f32) (v2 : FVec Ideal S128x128 .bf16) (v5 : FVec Ideal S4000x128 .f32)
    (v8 v10 : FVec Ideal S1x128 .f32) :
    k1_pay2 (F := Ideal) v0 v2 v5 v8 v10
      = truncf .bf16 (maximumf (addf
          (gnScaleBlk4000 (addf (matmul (F := Ideal) (φ₁ := .bf16) (φ₂ := .bf16) dot_S4000x128_S128x128_S4000x128_1_0_0_1_n_n none (truncf .bf16 v0 bitsLt_bf16_f32) (shapeCast S128x128 v2 shapeCasts_S128x128_S128x128) (constant S4000x128 .f32 0x00000000#32))
              (shapeCast S4000x128 v5 shapeCasts_S4000x128_S4000x128))
            (shapeCast S1x128 v8 shapeCasts_S1x128_S1x128))
          (broadcastTo S4000x128 (shapeCast S1x128 v10 shapeCasts_S1x128_S1x128) broadcasts_S1x128_S4000x128)) (broadcast S4000x128 (Scalar.ofBits .f32 0x00000000#32 : Ideal .f32))) bitsLt_bf16_f32 := rfl

theorem k1_pay2_apply (v0 : FVec Ideal S4000x128 .f32) (v2 : FVec Ideal S128x128 .bf16) (v5 : FVec Ideal S4000x128 .f32)
    (v8 v10 : FVec Ideal S1x128 .f32) (r : Fin 4000) (j : Fin 128) :
    k1_pay2 (F := Ideal) v0 v2 v5 v8 v10 (ix2 r j)
      = relu (gn (fun j => dotRow (fun k => v0 (ix2 r k)) (fun k j => v2 (ix2 k j)) j + v5 (ix2 r j))
          (fun j => v8 (ix2 (0 : Fin 1) j)) (fun j => v10 (ix2 (0 : Fin 1) j)) j) := by
  rw [k1_pay2_eq]
  simp only [shapeCast_self]
  show max (gnScaleBlk4000 (addf (matmul (F := Ideal) (φ₁ := .bf16) (φ₂ := .bf16) dot_S4000x128_S128x128_S4000x128_1_0_0_1_n_n none (truncf .bf16 v0 bitsLt_bf16_f32) v2 (constant S4000x128 .f32 0x00000000#32)) v5) v8 (ix2 r j)
      + broadcastTo S4000x128 v10 broadcasts_S1x128_S4000x128 (ix2 r j)) (Ideal.ofBits .f32 0x00000000#32) = _
  rw [bcastRow4000, gnScaleBlk4000_apply _ _
    (fun j => dotRow (fun k => v0 (ix2 r k)) (fun k j => v2 (ix2 k j)) j + v5 (ix2 r j))
    (fun j => v8 (ix2 (0 : Fin 1) j)) r
    (fun k => by
      show (matmul (F := Ideal) (φ₁ := .bf16) (φ₂ := .bf16) dot_S4000x128_S128x128_S4000x128_1_0_0_1_n_n none (truncf .bf16 v0 bitsLt_bf16_f32) v2 (constant S4000x128 .f32 0x00000000#32)) (ix2 r k) + v5 (ix2 r k) = _
      rw [mmN_row (φ₁ := .bf16) (φ₂ := .bf16) (truncf .bf16 v0 bitsLt_bf16_f32) v2 (fun k => v0 (ix2 r k)) (fun k j => v2 (ix2 k j)) r (fun _ => rfl) (fun _ _ => rfl) k])
    (fun _ => rfl) j]
  rfl

/-- The second stage: the second layer, normalised, the node's own row added back, and the last rectifier. -/
theorem k1_pay1_eq (v0 : FVec Ideal S4000x128 .f32) (v36 : FVec Ideal S4000x128 .bf16) (v38 : FVec Ideal S128x128 .bf16)
    (c : FVec Ideal S4000x128 .f32) (v40 v42 : FVec Ideal S1x128 .f32) :
    k1_pay1 (F := Ideal) v0 v36 v38 c v40 v42
      = maximumf (addf (addf
          (gnScaleBlk4000 (matmul (F := Ideal) (φ₁ := .bf16) (φ₂ := .bf16) dot_S4000x128_S128x128_S4000x128_1_0_0_1_n_n none v36 v38 c) (shapeCast S1x128 v40 shapeCasts_S1x128_S1x128))
          (broadcastTo S4000x128 (shapeCast S1x128 v42 shapeCasts_S1x128_S1x128) broadcasts_S1x128_S4000x128)) v0) (broadcast S4000x128 (Scalar.ofBits .f32 0x00000000#32 : Ideal .f32)) := rfl

theorem k1_pay1_apply (v0 : FVec Ideal S4000x128 .f32) (v36 : FVec Ideal S4000x128 .bf16) (v38 : FVec Ideal S128x128 .bf16)
    (v40 v42 : FVec Ideal S1x128 .f32) (A : Fin 128 → EReal) (W : Fin 128 → Fin 128 → EReal) (r : Fin 4000)
    (hA : ∀ k, v36 (ix2 r k) = A k) (hW : ∀ k j, v38 (ix2 k j) = W k j) (j : Fin 128) :
    k1_pay1 (F := Ideal) v0 v36 v38 (constant S4000x128 .f32 0x00000000#32) v40 v42 (ix2 r j)
      = relu (gn (dotRow A W) (fun j => v40 (ix2 (0 : Fin 1) j)) (fun j => v42 (ix2 (0 : Fin 1) j)) j + v0 (ix2 r j)) := by
  rw [k1_pay1_eq]
  simp only [shapeCast_self]
  show max (gnScaleBlk4000 (matmul (F := Ideal) (φ₁ := .bf16) (φ₂ := .bf16) dot_S4000x128_S128x128_S4000x128_1_0_0_1_n_n none v36 v38 (constant S4000x128 .f32 0x00000000#32)) v40 (ix2 r j)
      + broadcastTo S4000x128 v42 broadcasts_S1x128_S4000x128 (ix2 r j) + v0 (ix2 r j)) (Ideal.ofBits .f32 0x00000000#32) = _
  rw [bcastRow4000, gnScaleBlk4000_apply _ _ (dotRow A W) (fun j => v40 (ix2 (0 : Fin 1) j)) r
    (fun k => mmN_row _ _ _ _ r hA hW k) (fun _ => rfl) j]
  rfl

theorem k1_pay3_apply (v37 : FVec Ideal S128x128 .bf16) (i : S128x128.Idx) : k1_pay3 (F := Ideal) v37 i = v37 i :=
  congrFun (shapeCast_self v37 shapeCasts_S128x128_S128x128) i

/-! ## The node kernel's output block, row by row -/

/-- Row r of the block the node kernel leaves is the node row function of row r of its two row inputs and of the
    weights. -/
theorem out1_8_apply (x0 x1 : Vec Ideal S4000x128 .f32) (x2 : Vec Ideal S128x128 .bf16) (x3 x4 : Vec Ideal S1x128 .f32) (x5 : Vec Ideal S128x128 .bf16) (x6 x7 : Vec Ideal S1x128 .f32) (r : Fin 4000) (j : Fin 128) :
    out1_8 (F := Ideal) x0 x1 x2 x3 x4 x5 x6 x7 (ix2 r j)
      = nodeRow (fun k => x0 (ix2 r k))
          (fun j => dotRow (fun k => x0 (ix2 r k)) (fun k j => x2 (ix2 k j)) j + x1 (ix2 r j))
          (fun j => x3 (ix2 0 j)) (fun j => x4 (ix2 0 j))
          (fun k j => x5 (ix2 k j)) (fun j => x6 (ix2 0 j)) (fun j => x7 (ix2 0 j)) j := by
  unfold out1_8
  rw [View.canon_unit_zero hz0]
  simp only [View.ld_unit_zero (S := S4000x128) hz0, View.ld_unit_zero (S := S128x128) hz0, View.ld_unit_zero (S := S1x128) hz0]
  exact k1_pay1_apply x0 _ _ x6 x7 _ _ r (fun k => k1_pay2_apply x0 x2 x1 x3 x4 r k)
    (fun k j => k1_pay3_apply x5 (ix2 k j)) j

end Cert.Gnn

end
-- ==== Proof.KernelValue.lean ====
import proofs.«139836_j74208444940775_2_alg».proof.Proof.EdgeArray
import proofs.«139836_j74208444940775_2_alg».proof.Proof.NodeArray
import proofs.«139836_j74208444940775_2_alg».proof.Proof.HostIn
import proofs.«139836_j74208444940775_2_alg».proof.Proof.EdgeBody
import Idealize.ShloMosaic.Lib.ValueLayout
import Idealize.ShloMosaic.Lib.KernelVsHost

/-! The kernel's two arrays, row by row, in terms of the launch memory.

Row e < 414626 of the edge call's output (the padding rows dropped) is the edge row of row e of the three gathered
arrays — the padding changes nothing there — with each weight matrix read transposed and each weight vector read
through its reshape. Row n of the node call's output is the node row of the node's own features and of its own
product plus the scattered sum. -/

set_option maxRecDepth 16384

noncomputable section

namespace Cert.Gnn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- A padded array read at one of the rows it was padded from. -/
theorem pad_rows_apply {K : Nat} (x : (⟨2, ![414626, K]⟩ : Shape).Idx → EReal) {u : Shape} (v : u.Idx → EReal)
    (h : (⟨2, ![414626, K]⟩ : Shape).Pads ![0, 0] ![1374, 0] ![0, 0] ⟨2, ![416000, K]⟩) (hu : 0 < u.numel)
    (e : Fin 414626) (k : Fin K) :
    pad ⟨2, ![416000, K]⟩ ![0, 0] ![1374, 0] ![0, 0] x v h hu (ix2 (⟨e.val, by have := e.isLt; omega⟩ : Fin 416000) k) = x (ix2 e k) :=
  pad_apply_of_inside _ _ _ x v h hu _ (ix2 e k) (fun a => by
    match a with
    | ⟨0, _⟩ => show e.val = 0 + e.val * (0 + 1); omega
    | ⟨1, _⟩ => show k.val = 0 + k.val * (0 + 1); omega)

/-- Row e < 414626 of the edge call's output, the padding rows dropped. -/
theorem kernel_edge_rows (c : Dev nD) (e : Fin 414626) (j : Fin 128) :
    extractStridedSlice S414626x128 ![0, 0] ((dat0 (V7 m ρ) c).arrAt 15 cfg0.N) slices_S416000x128_S414626x128_0_0 (ix2 e j)
      = edgeRow (fun k => W1 m ρ c (Proc.devRef .tc main_v14) (ix2 e k))
          (fun k => W1 m ρ c (Proc.devRef .tc main_v23) (ix2 e k))
          (fun k => W1 m ρ c (Proc.devRef .tc main_v30) (ix2 e k))
          (fun k j => m ((c : Thread nD τ).loc main_arg4) (ix2 j k)) (fun j => m ((c : Thread nD τ).loc main_arg5) (ix1 j))
          (fun k j => m ((c : Thread nD τ).loc main_arg6) (ix2 j k)) (fun j => m ((c : Thread nD τ).loc main_arg7) (ix1 j)) (fun j => m ((c : Thread nD τ).loc main_arg8) (ix1 j))
          (fun k j => m ((c : Thread nD τ).loc main_arg9) (ix2 j k)) (fun j => m ((c : Thread nD τ).loc main_arg10) (ix1 j)) (fun j => m ((c : Thread nD τ).loc main_arg11) (ix1 j))
          (fun k j => m ((c : Thread nD τ).loc main_arg12) (ix2 j k)) (fun j => m ((c : Thread nD τ).loc main_arg13) (ix1 j)) (fun j => m ((c : Thread nD τ).loc main_arg14) (ix1 j))
          (fun k j => m ((c : Thread nD τ).loc main_arg15) (ix2 j k)) j := by
  rw [edge_final (V7 m ρ) out0_15_apply c]
  refine (slice2_axis0_apply 0 _ _ e j (⟨e.val, by have := e.isLt; omega⟩ : Fin 416000) (by simp)).trans ?_
  have h40 : ∀ k : Fin 2, V7 m ρ c main_v40 (ix2 (⟨e.val, by have := e.isLt; omega⟩ : Fin 416000) k) = W1 m ρ c (Proc.devRef .tc main_v14) (ix2 e k) := fun k => by
    rw [V7_main_v40]; exact pad_rows_apply _ _ _ _ e k
  have h41 : ∀ k : Fin 128, V7 m ρ c main_v41 (ix2 (⟨e.val, by have := e.isLt; omega⟩ : Fin 416000) k) = W1 m ρ c (Proc.devRef .tc main_v23) (ix2 e k) := fun k => by
    rw [V7_main_v41]; exact pad_rows_apply _ _ _ _ e k
  have h42 : ∀ k : Fin 128, V7 m ρ c main_v42 (ix2 (⟨e.val, by have := e.isLt; omega⟩ : Fin 416000) k) = W1 m ρ c (Proc.devRef .tc main_v30) (ix2 e k) := fun k => by
    rw [V7_main_v42]; exact pad_rows_apply _ _ _ _ e k
  have h31 : ∀ (k : Fin 2) (j : Fin 128), V7 m ρ c main_v31 (ix2 k j) = m ((c : Thread nD τ).loc main_arg4) (ix2 j k) := fun k j => by
    rw [V7_main_v31]; exact transpose_ix2_apply _ _ k j
  have h33 : ∀ (k j : Fin 128), V7 m ρ c main_v33 (ix2 k j) = m ((c : Thread nD τ).loc main_arg6) (ix2 j k) := fun k j => by
    rw [V7_main_v33]; exact transpose_ix2_apply _ _ k j
  have h35 : ∀ (k j : Fin 128), V7 m ρ c main_v35 (ix2 k j) = m ((c : Thread nD τ).loc main_arg9) (ix2 j k) := fun k j => by
    rw [V7_main_v35]; exact transpose_ix2_apply _ _ k j
  have h37 : ∀ (k : Fin 384) (j : Fin 128), V7 m ρ c main_v37 (ix2 k j) = m ((c : Thread nD τ).loc main_arg12) (ix2 j k) := fun k j => by
    rw [V7_main_v37]; exact transpose_ix2_apply _ _ k j
  have h39 : ∀ (k j : Fin 128), V7 m ρ c main_v39 (ix2 k j) = m ((c : Thread nD τ).loc main_arg15) (ix2 j k) := fun k j => by
    rw [V7_main_v39]; exact transpose_ix2_apply _ _ k j
  have h43 : ∀ j : Fin 128, V7 m ρ c main_v43 (ix2 0 j) = m ((c : Thread nD τ).loc main_arg5) (ix1 j) := fun j => by
    rw [V7_main_v43]; exact shapeCast_a_1a_apply _ _ 0 j
  have h44 : ∀ j : Fin 128, V7 m ρ c main_v44 (ix2 0 j) = m ((c : Thread nD τ).loc main_arg7) (ix1 j) := fun j => by
    rw [V7_main_v44]; exact shapeCast_a_1a_apply _ _ 0 j
  have h45 : ∀ j : Fin 128, V7 m ρ c main_v45 (ix2 0 j) = m ((c : Thread nD τ).loc main_arg8) (ix1 j) := fun j => by
    rw [V7_main_v45]; exact shapeCast_a_1a_apply _ _ 0 j
  have h46 : ∀ j : Fin 128, V7 m ρ c main_v46 (ix2 0 j) = m ((c : Thread nD τ).loc main_arg10) (ix1 j) := fun j => by
    rw [V7_main_v46]; exact shapeCast_a_1a_apply _ _ 0 j
  have h47 : ∀ j : Fin 128, V7 m ρ c main_v47 (ix2 0 j) = m ((c : Thread nD τ).loc main_arg11) (ix1 j) := fun j => by
    rw [V7_main_v47]; exact shapeCast_a_1a_apply _ _ 0 j
  have h48 : ∀ j : Fin 128, V7 m ρ c main_v48 (ix2 0 j) = m ((c : Thread nD τ).loc main_arg13) (ix1 j) := fun j => by
    rw [V7_main_v48]; exact shapeCast_a_1a_apply _ _ 0 j
  have h49 : ∀ j : Fin 128, V7 m ρ c main_v49 (ix2 0 j) = m ((c : Thread nD τ).loc main_arg14) (ix1 j) := fun j => by
    rw [V7_main_v49]; exact shapeCast_a_1a_apply _ _ 0 j
  show edgeRow (fun k => V7 m ρ c main_v40 (ix2 (⟨e.val, _⟩ : Fin 416000) k)) (fun k => V7 m ρ c main_v41 (ix2 (⟨e.val, _⟩ : Fin 416000) k)) (fun k => V7 m ρ c main_v42 (ix2 (⟨e.val, _⟩ : Fin 416000) k))
      (fun k j => V7 m ρ c main_v31 (ix2 k j)) (fun j => V7 m ρ c main_v43 (ix2 0 j))
      (fun k j => V7 m ρ c main_v33 (ix2 k j)) (fun j => V7 m ρ c main_v44 (ix2 0 j)) (fun j => V7 m ρ c main_v45 (ix2 0 j))
      (fun k j => V7 m ρ c main_v35 (ix2 k j)) (fun j => V7 m ρ c main_v46 (ix2 0 j)) (fun j => V7 m ρ c main_v47 (ix2 0 j))
      (fun k j => V7 m ρ c main_v37 (ix2 k j)) (fun j => V7 m ρ c main_v48 (ix2 0 j)) (fun j => V7 m ρ c main_v49 (ix2 0 j))
      (fun k j => V7 m ρ c main_v39 (ix2 k j)) j = _
  simp only [h40, h41, h42, h31, h33, h35, h37, h39, h43, h44, h45, h46, h47, h48, h49]

/-- Row n of the node call's output. -/
theorem kernel_node_rows (c : Dev nD) (n : Fin 20000) (j : Fin 128) :
    W10 m ρ c (Proc.devRef .tc main_v63) (ix2 n j)
      = nodeRow (fun k => m ((c : Thread nD τ).loc main_arg0) (ix2 n k))
          (fun j => dotRow (fun k => m ((c : Thread nD τ).loc main_arg0) (ix2 n k)) (fun k j => m ((c : Thread nD τ).loc main_arg16) (ix2 j k)) j + V9 m ρ c main_v54 (ix2 n j))
          (fun j => m ((c : Thread nD τ).loc main_arg17) (ix1 j)) (fun j => m ((c : Thread nD τ).loc main_arg18) (ix1 j))
          (fun k j => m ((c : Thread nD τ).loc main_arg19) (ix2 j k)) (fun j => m ((c : Thread nD τ).loc main_arg20) (ix1 j)) (fun j => m ((c : Thread nD τ).loc main_arg21) (ix1 j)) j := by
  have hw : W10 m ρ c (Proc.devRef .tc main_v63) = (dat1 (V9 m ρ) c).arrAt 8 cfg1.N := W10_arr m ρ c 8
  rw [hw, node_final (V9 m ρ) out1_8_apply c]
  have h0 : ∀ k : Fin 128, V9 m ρ c main_arg0 (ix2 n k) = m ((c : Thread nD τ).loc main_arg0) (ix2 n k) := fun k => by rw [V9_main_arg0]
  have h56 : ∀ (k j : Fin 128), V9 m ρ c main_v56 (ix2 k j) = m ((c : Thread nD τ).loc main_arg16) (ix2 j k) := fun k j => by
    rw [V9_main_v56]; exact transpose_ix2_apply _ _ k j
  have h58 : ∀ (k j : Fin 128), V9 m ρ c main_v58 (ix2 k j) = m ((c : Thread nD τ).loc main_arg19) (ix2 j k) := fun k j => by
    rw [V9_main_v58]; exact transpose_ix2_apply _ _ k j
  have h59 : ∀ j : Fin 128, V9 m ρ c main_v59 (ix2 0 j) = m ((c : Thread nD τ).loc main_arg17) (ix1 j) := fun j => by
    rw [V9_main_v59]; exact shapeCast_a_1a_apply _ _ 0 j
  have h60 : ∀ j : Fin 128, V9 m ρ c main_v60 (ix2 0 j) = m ((c : Thread nD τ).loc main_arg18) (ix1 j) := fun j => by
    rw [V9_main_v60]; exact shapeCast_a_1a_apply _ _ 0 j
  have h61 : ∀ j : Fin 128, V9 m ρ c main_v61 (ix2 0 j) = m ((c : Thread nD τ).loc main_arg20) (ix1 j) := fun j => by
    rw [V9_main_v61]; exact shapeCast_a_1a_apply _ _ 0 j
  have h62 : ∀ j : Fin 128, V9 m ρ c main_v62 (ix2 0 j) = m ((c : Thread nD τ).loc main_arg21) (ix1 j) := fun j => by
    rw [V9_main_v62]; exact shapeCast_a_1a_apply _ _ 0 j
  show nodeRow (fun k => V9 m ρ c main_arg0 (ix2 n k))
      (fun j => dotRow (fun k => V9 m ρ c main_arg0 (ix2 n k)) (fun k j => V9 m ρ c main_v56 (ix2 k j)) j + V9 m ρ c main_v54 (ix2 n j))
      (fun j => V9 m ρ c main_v59 (ix2 0 j)) (fun j => V9 m ρ c main_v60 (ix2 0 j))
      (fun k j => V9 m ρ c main_v58 (ix2 k j)) (fun j => V9 m ρ c main_v61 (ix2 0 j)) (fun j => V9 m ρ c main_v62 (ix2 0 j)) j = _
  simp only [h0, h56, h58, h59, h60, h61, h62]

end Cert.Gnn

end
-- ==== Proof.IndexFacts.lean ====
import proofs.«139836_j74208444940775_2_alg».proof.Pre_finite_inputs
import Idealize.ShloMosaic.PureOps.Ideal
import Idealize.ShloMosaic.Lib.ValueIdx
import Idealize.ShloMosaic.Lib.ReduceAll

/-! Facts about the index arrays.

The precondition's last conjunct says every entry of the head-index array is nonnegative. From it: the
comparison "entry < 0" is false everywhere, so the wrap of negative indices (add the row count where the entry is
negative) leaves the array as it is. Separately: a scatter-add into a zero block, added to a base block, is the
scatter-add into the base block. -/

noncomputable section

namespace Cert.Gnn

open Idealize.ShloMosaic

/-- A word that is at least zero as a signed integer is not below zero. -/
theorem slt_zero_of_sge_zero (x : BitVec 32) (h : IntOp.cmpi .sge x 0#32 = 1#1) : IntOp.cmpi .slt x 0#32 = 0#1 := by
  have h' : BitVec.ofBool ((0#32 : BitVec 32).sle x) = 1#1 := h
  have h1 : (0#32 : BitVec 32).sle x = true := by
    cases hb : (0#32 : BitVec 32).sle x with
    | true => rfl
    | false => rw [hb] at h'; exact absurd h' (by decide)
  have h2 : x.slt 0#32 = false := by
    have e : (0#32 : BitVec 32).sle x = !(x.slt 0#32) := BitVec.sle_eq_not_slt
    rw [h1] at e
    cases hs : x.slt 0#32 with
    | false => rfl
    | true => rw [hs] at e; exact absurd e (by decide)
  show BitVec.ofBool (x.slt 0#32) = 0#1
  rw [h2]
  rfl

/-- Where no entry is negative, replacing the negative entries by themselves plus 20000 changes nothing. -/
theorem wrap_id (h : (⟨1, ![414626]⟩ : Shape).Idx → BitVec 32)
    (bc : (⟨0, ![]⟩ : Shape).BroadcastsInDim ⟨1, ![414626]⟩ (![] : Fin 0 → Fin 1))
    (hh : ∀ i, IntOp.cmpi .slt (h i) 0#32 = 0#1) :
    select (cmpi .slt h (broadcastInDim ⟨1, ![414626]⟩ ![] bc (constantI ⟨0, ![]⟩ 32 0#32)))
      (addi h (broadcastInDim ⟨1, ![414626]⟩ ![] bc (constantI ⟨0, ![]⟩ 32 20000#32))) h = h := by
  funext i
  show Scalar.select (IntOp.cmpi .slt (h i) 0#32)
    (addi h (broadcastInDim ⟨1, ![414626]⟩ ![] bc (constantI ⟨0, ![]⟩ 32 20000#32)) i) (h i) = h i
  rw [hh i]
  exact ValueIdx.select_zero _ _

/-- Adding a block to the scatter-add of updates into a zero block is the scatter-add of the updates into that block. -/
theorem scatterAdd_zero_base {s si su : Shape} {w : Nat} (d : ScatterDims s si su) (base z : s.Idx → EReal)
    (idx : IVec si w) (upd : su.Idx → EReal) (hz : ∀ i, z i = 0) (i : s.Idx) :
    base i + Ideal.hostScatterAdd d z idx upd i = Ideal.hostScatterAdd d base idx upd i := by
  show base i + (z i + ∑ j ∈ Finset.univ.filter (fun j => d.resultIdx? j idx = some i), upd j)
    = base i + ∑ j ∈ Finset.univ.filter (fun j => d.resultIdx? j idx = some i), upd j
  rw [hz i, zero_add]

/-- Under the precondition, no entry of the head-index array is negative: the precondition's last conjunct is
    the conjunction over all entries of "entry ≥ 0". -/
theorem hi_nonneg_of_pre [Cert.Pre_finite_inputs.Facts] (a0 : FVec Ideal Cert.Pre_finite_inputs.S20000x128 .f32) (a1 : FVec Ideal Cert.Pre_finite_inputs.S20000x128 .f32) (a2 : FVec Ideal Cert.Pre_finite_inputs.S20000x2 .f32) (a3 : FVec Ideal Cert.Pre_finite_inputs.S20000x2 .f32) (a4 : FVec Ideal Cert.Pre_finite_inputs.S128x2 .f32) (a5 : FVec Ideal Cert.Pre_finite_inputs.S128 .f32) (a6 : FVec Ideal Cert.Pre_finite_inputs.S128x128 .f32) (a7 : FVec Ideal Cert.Pre_finite_inputs.S128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128 .f32) (a12 : FVec Ideal Cert.Pre_finite_inputs.S128x384 .f32) (a13 : FVec Ideal Cert.Pre_finite_inputs.S128 .f32) (a14 : FVec Ideal Cert.Pre_finite_inputs.S128 .f32) (a15 : FVec Ideal Cert.Pre_finite_inputs.S128x128 .f32) (a16 : FVec Ideal Cert.Pre_finite_inputs.S128x128 .f32) (a17 : FVec Ideal Cert.Pre_finite_inputs.S128 .f32) (a18 : FVec Ideal Cert.Pre_finite_inputs.S128 .f32) (a19 : FVec Ideal Cert.Pre_finite_inputs.S128x128 .f32) (a20 : FVec Ideal Cert.Pre_finite_inputs.S128 .f32) (a21 : FVec Ideal Cert.Pre_finite_inputs.S128 .f32) (a22 a23 : IVec Cert.Pre_finite_inputs.S414626 32)
    (h : Cert.Pre_finite_inputs.fn (F := Ideal) a0 a1 a2 a3 a4 a5 a6 a7 a8 a9 a10 a11 a12 a13 a14 a15 a16 a17 a18 a19 a20 a21 a22 a23 = fun _ => 1#1) :
    ∀ i : Cert.Pre_finite_inputs.S414626.Idx, IntOp.cmpi .slt (a22 i) 0#32 = 0#1 := by
  intro i
  have h0 : Cert.Pre_finite_inputs.fn (F := Ideal) a0 a1 a2 a3 a4 a5 a6 a7 a8 a9 a10 a11 a12 a13 a14 a15 a16 a17 a18 a19 a20 a21 a22 a23 ValueIdx.ix0 = 1#1 := congrFun h ValueIdx.ix0
  have h1 : IntOp.andi _ (Host.reduce IntOp.andi
      (cmpi .sge a22 (broadcastInDim Cert.Pre_finite_inputs.S414626 ![] Cert.Pre_finite_inputs.Facts.bcast_S_S414626 (constantI Cert.Pre_finite_inputs.S_ 32 0#32)))
      (constantI Cert.Pre_finite_inputs.S_ 1 1#1) Cert.Pre_finite_inputs.Facts.reducesTo_S414626_S_d0 Cert.Pre_finite_inputs.Facts.h_S_ ValueIdx.ix0) = 1#1 := h0
  have h2 := (IntOp.andi_eq_one.1 h1).2
  haveI : Subsingleton Cert.Pre_finite_inputs.S_.Idx := ⟨fun a b => funext fun d => d.elim0⟩
  have h3 := Host.reduce_andi_all _ _ _ _ _ h2 i
  exact slt_zero_of_sge_zero (a22 i) h3

end Cert.Gnn

end
-- ==== Proof.RefEdge.lean ====
import proofs.«139836_j74208444940775_2_alg».proof.Proof.RefReadP
import proofs.«139836_j74208444940775_2_alg».proof.Proof.RowSpec
import Idealize.ShloMosaic.Lib.ValueIdx
import Idealize.ShloMosaic.Lib.Pipeline.Value
import Idealize.ShloMosaic.PureOps.Ideal.Laws

/-! The reference's edge stage read at an index.

The reference computes, for every edge, a feature row from three gathered rows and the weights. This module reads
that computation at one entry (e, j) of its result and identifies it with the row function `edgeRow`. The normalisation
block (row mean, centring, row variance, reciprocal square root, gain and shift) occurs three times with different
operands; it is stated once over a variable matrix and read at an index there, and each occurrence is that block by
unfolding definitions. -/

noncomputable section

namespace Cert.Gnn

open Idealize.ShloMosaic Idealize.ShloMosaic.ValueIdx Cert.ReferenceIdeal Cert.ReferenceIdeal.Gen Cert.ReferenceIdeal.Read

namespace RefEdge

/-! ## The blocks over variable operands -/

/-- A scalar constant laid down a column of one entry per row. -/
def colConst (w : BitVec 32) : FVec Ideal S414626x1 .f32 :=
  broadcastInDim S414626x1 ![] bcast_S_S414626x1 (constant (F := Ideal) S_ .f32 w)

theorem colConst_apply (w : BitVec 32) (i : S414626x1.Idx) : colConst w i = Ideal.ofBits .f32 w := by
  unfold colConst
  exact (broadcastInDim_apply _ bcast_S_S414626x1 (constant (F := Ideal) S_ .f32 w) i (fun a => a.elim0)
    (fun a => a.elim0)).trans rfl

/-- The sums of the rows of a matrix, from the initial value zero. -/
def rowSum (Y : FVec Ideal S414626x128 .f32) : FVec Ideal S414626 .f32 :=
  Host.reduceAdd Y (constant (F := Ideal) S_ .f32 0x00000000#32) reducesTo_S414626x128_S414626_d1 h_S_

theorem rowSum_apply (Y : FVec Ideal S414626x128 .f32) (e : Fin 414626) :
    rowSum Y (ix1 e) = ∑ k : Fin 128, Y (ix2 e k) := by
  unfold rowSum
  simp only [Host.reduceAdd, Ideal.hostReduceAdd_def]
  rw [Ideal.hostReduceAdd_single reducesTo_S414626x128_S414626_d1 (by decide)]
  refine (congrArg (· + _) Ideal.ofBits_zero_f32).trans ((zero_add _).trans (Finset.sum_congr rfl fun k _ => ?_))
  exact congrArg Y (funext fun a => Fin.ext (by match a with | ⟨0, _⟩ => rfl | ⟨1, _⟩ => rfl))

/-- A vector of one entry per row as a column. -/
def toCol (v : FVec Ideal S414626 .f32) : FVec Ideal S414626x1 .f32 :=
  broadcastInDim S414626x1 ![0] bcast_S414626_S414626x1_0 v

theorem toCol_apply (v : FVec Ideal S414626 .f32) (e : Fin 414626) (z : Fin 1) :
    toCol v (ix2 e z) = v (ix1 e) := by
  unfold toCol
  exact broadcastInDim_apply _ bcast_S414626_S414626x1_0 v (ix2 e z) (ix1 e) (fun a => match a with
    | ⟨0, _⟩ => by show e.val = if (414626 : Nat) = 1 then 0 else e.val; rw [if_neg (by decide)])

/-- A column repeated along every row. -/
def spread (c : FVec Ideal S414626x1 .f32) : FVec Ideal S414626x128 .f32 :=
  broadcastInDim S414626x128 ![0, 1] bcast_S414626x1_S414626x128_0_1 c

theorem spread_apply (c : FVec Ideal S414626x1 .f32) (e : Fin 414626) (j : Fin 128) :
    spread c (ix2 e j) = c (ix2 e (⟨0, Nat.one_pos⟩ : Fin 1)) := by
  unfold spread
  exact broadcastInDim_apply _ bcast_S414626x1_S414626x128_0_1 c (ix2 e j) (ix2 e (⟨0, Nat.one_pos⟩ : Fin 1))
    (fun a => match a with
    | ⟨0, _⟩ => by show e.val = if (414626 : Nat) = 1 then 0 else e.val; rw [if_neg (by decide)]
    | ⟨1, _⟩ => by show 0 = if (1 : Nat) = 1 then 0 else j.val; rw [if_pos rfl])

/-- A vector of 128 entries repeated down every row. -/
def rowVec (g : FVec Ideal S128 .f32) : FVec Ideal S414626x128 .f32 :=
  broadcastInDim S414626x128 ![0, 1] bcast_S1x128_S414626x128_0_1 (broadcastInDim S1x128 ![1] bcast_S128_S1x128_1 g)

theorem rowVec_apply (g : FVec Ideal S128 .f32) (e : Fin 414626) (j : Fin 128) :
    rowVec g (ix2 e j) = g (ix1 j) := by
  unfold rowVec
  refine (broadcastInDim_apply _ bcast_S1x128_S414626x128_0_1 _ (ix2 e j) (ix2 (⟨0, Nat.one_pos⟩ : Fin 1) j)
    (fun a => match a with
    | ⟨0, _⟩ => by show 0 = if (1 : Nat) = 1 then 0 else e.val; rw [if_pos rfl]
    | ⟨1, _⟩ => by show j.val = if (128 : Nat) = 1 then 0 else j.val; rw [if_neg (by decide)])).trans ?_
  exact broadcastInDim_apply _ bcast_S128_S1x128_1 g (ix2 (⟨0, Nat.one_pos⟩ : Fin 1) j) (ix1 j) (fun a => match a with
    | ⟨0, _⟩ => by show j.val = if (128 : Nat) = 1 then 0 else j.val; rw [if_neg (by decide)])

/-- The means of the rows, as a column. -/
def rowMean (Y : FVec Ideal S414626x128 .f32) : FVec Ideal S414626x1 .f32 :=
  Host.divf (toCol (rowSum Y)) (colConst 0x43000000#32)

theorem rowMean_apply (Y : FVec Ideal S414626x128 .f32) (e : Fin 414626) (z : Fin 1) :
    rowMean Y (ix2 e z) = mean128 fun k => Y (ix2 e k) :=
  congrArg₂ (fun a b => Ideal.div a b) ((toCol_apply _ e z).trans (rowSum_apply Y e)) (colConst_apply _ _)

/-- Every row centred at its mean. -/
def centredBlock (Y : FVec Ideal S414626x128 .f32) : FVec Ideal S414626x128 .f32 :=
  subf Y (spread (rowMean Y))

theorem centredBlock_apply (Y : FVec Ideal S414626x128 .f32) (e : Fin 414626) (j : Fin 128) :
    centredBlock Y (ix2 e j) = centred (fun k => Y (ix2 e k)) j :=
  congrArg (fun m => Y (ix2 e j) - m) ((spread_apply _ e j).trans (rowMean_apply Y e _))

/-- The reciprocal square root of each row's variance plus ε, as a column. -/
def scaleCol (Y : FVec Ideal S414626x128 .f32) : FVec Ideal S414626x1 .f32 :=
  Host.rsqrt (addf (rowMean (mulf (centredBlock Y) (centredBlock Y))) (colConst 0x3727C5AC#32))

theorem scaleCol_apply (Y : FVec Ideal S414626x128 .f32) (e : Fin 414626) (z : Fin 1) :
    scaleCol Y (ix2 e z)
      = Ideal.rsqrt (var128 (fun k => Y (ix2 e k)) + Ideal.ofBits .f32 0x3727C5AC#32) := by
  have h : rowMean (mulf (centredBlock Y) (centredBlock Y)) (ix2 e z) = var128 fun k => Y (ix2 e k) := by
    refine (rowMean_apply _ e z).trans (congrArg mean128 (funext fun k => ?_))
    exact congrArg₂ (fun a b => a * b) (centredBlock_apply Y e k) (centredBlock_apply Y e k)
  exact congrArg₂ (fun a b => Ideal.rsqrt (a + b)) h (colConst_apply _ _)

/-- The normalisation of every row with gain g and shift b. -/
def gnBlock (Y : FVec Ideal S414626x128 .f32) (g b : FVec Ideal S128 .f32) : FVec Ideal S414626x128 .f32 :=
  addf (mulf (mulf (centredBlock Y) (spread (scaleCol Y))) (rowVec g)) (rowVec b)

theorem gnBlock_apply (Y : FVec Ideal S414626x128 .f32) (g b : FVec Ideal S128 .f32) (e : Fin 414626) (j : Fin 128) :
    gnBlock Y g b (ix2 e j) = gn (fun k => Y (ix2 e k)) (fun j => g (ix1 j)) (fun j => b (ix1 j)) j := by
  have h1 := centredBlock_apply Y e j
  have h2 := (spread_apply (scaleCol Y) e j).trans (scaleCol_apply Y e _)
  have h3 := rowVec_apply g e j
  have h4 := rowVec_apply b e j
  exact congrArg₂ (fun a c => a + c) (congrArg₂ (fun a c => a * c) (congrArg₂ (fun a c => a * c) h1 h2) h3) h4

/-- max(·, 0) at every entry. -/
def reluBlock (Y : FVec Ideal S414626x128 .f32) : FVec Ideal S414626x128 .f32 :=
  maximumf Y (broadcastInDim S414626x128 ![] bcast_S_S414626x128 (constant (F := Ideal) S_ .f32 0x00000000#32))

theorem reluBlock_apply (Y : FVec Ideal S414626x128 .f32) (i : S414626x128.Idx) : reluBlock Y i = relu (Y i) :=
  congrArg (fun m => max (Y i) m) (broadcastInDim_apply _ bcast_S_S414626x128
    (constant (F := Ideal) S_ .f32 0x00000000#32) i (fun a => a.elim0) (fun a => a.elim0))

/-- Three matrices of 128 columns laid side by side, read at (e, k): the piece that holds column k. -/
theorem concat3_apply (A B C : FVec Ideal S414626x128 .f32) (e : Fin 414626) (k : Fin 384) :
    concatenate S414626x384 1 [⟨S414626x128, A⟩, ⟨S414626x128, B⟩, ⟨S414626x128, C⟩]
        concatenates_S414626x128_S414626x128_S414626x128_S414626x384_d1 (ix2 e k)
      = cat3 (fun j => A (ix2 e j)) (fun j => B (ix2 e j)) (fun j => C (ix2 e j)) k := by
  unfold cat3
  by_cases h1 : k.val < 128
  · rw [dif_pos h1]
    exact concatenate_apply_piece (t := S414626x384) 1 [⟨S414626x128, A⟩, ⟨S414626x128, B⟩, ⟨S414626x128, C⟩]
      concatenates_S414626x128_S414626x128_S414626x128_S414626x384_d1 (ix2 e k) 0 (by show 0 < 3; omega) S414626x128 A rfl rfl 0 rfl
      (ix2 e ⟨k.val, h1⟩) (fun b hb => match b with | ⟨0, _⟩ => rfl | ⟨1, _⟩ => absurd rfl hb) (Nat.zero_add _)
  · rw [dif_neg h1]
    by_cases h2 : k.val < 256
    · rw [dif_pos h2]
      exact concatenate_apply_piece (t := S414626x384) 1 [⟨S414626x128, A⟩, ⟨S414626x128, B⟩, ⟨S414626x128, C⟩]
        concatenates_S414626x128_S414626x128_S414626x128_S414626x384_d1 (ix2 e k) 1 (by show 1 < 3; omega) S414626x128 B rfl rfl 128 rfl
        (ix2 e ⟨k.val - 128, by omega⟩) (fun b hb => match b with | ⟨0, _⟩ => rfl | ⟨1, _⟩ => absurd rfl hb) (by show 128 + (k.val - 128) = k.val; omega)
    · rw [dif_neg h2]
      exact concatenate_apply_piece (t := S414626x384) 1 [⟨S414626x128, A⟩, ⟨S414626x128, B⟩, ⟨S414626x128, C⟩]
        concatenates_S414626x128_S414626x128_S414626x128_S414626x384_d1 (ix2 e k) 2 (by show 2 < 3; omega) S414626x128 C rfl rfl 256 rfl
        (ix2 e ⟨k.val - 256, by have := k.isLt; omega⟩) (fun b hb => match b with | ⟨0, _⟩ => rfl | ⟨1, _⟩ => absurd rfl hb) (by show 256 + (k.val - 256) = k.val; omega)

end RefEdge

/-! ## The reference's edge stage -/

section Edge

open RefEdge

variable (x0 x1 : (⟨S20000x128, .f32⟩ : BufTy).Contents (Elt Ideal)) (x2 x3 : (⟨S20000x2, .f32⟩ : BufTy).Contents (Elt Ideal))
  (x4 : (⟨S128x2, .f32⟩ : BufTy).Contents (Elt Ideal)) (x5 : (⟨S128, .f32⟩ : BufTy).Contents (Elt Ideal))
  (x6 : (⟨S128x128, .f32⟩ : BufTy).Contents (Elt Ideal)) (x7 x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S128x384, .f32⟩ : BufTy).Contents (Elt Ideal)) (x13 x14 : (⟨S128, .f32⟩ : BufTy).Contents (Elt Ideal))
  (x15 : (⟨S128x128, .f32⟩ : BufTy).Contents (Elt Ideal)) (x22 x23 : (⟨S414626, .i32⟩ : BufTy).Contents (Elt Ideal))

/- The values of the reference's operations that the statements below name: V14 the gathered displacement rows, V54 and
   V88 the gathered head and tail rows, V20, V47, V81, V116 the four rectified layers, V16, V22, V56, V91, V118 the five
   matrix products, V89 the concatenation. -/
local notation "V14" => val_main_v14 (F := Ideal) x2 x3 x22 x23
local notation "V16" => val_main_v16 (F := Ideal) x2 x3 x4 x22 x23
local notation "V20" => val_main_v20 (F := Ideal) x2 x3 x4 x5 x22 x23
local notation "V22" => val_main_v22 (F := Ideal) x2 x3 x4 x5 x6 x22 x23
local notation "V47" => val_main_v47 (F := Ideal) x2 x3 x4 x5 x6 x7 x8 x22 x23
local notation "V54" => val_main_v54 (F := Ideal) x0 x22
local notation "V56" => val_main_v56 (F := Ideal) x0 x9 x22
local notation "V81" => val_main_v81 (F := Ideal) x0 x9 x10 x11 x22
local notation "V88" => val_main_v88 (F := Ideal) x1 x23
local notation "V89" => val_main_v89 (F := Ideal) x0 x1 x2 x3 x4 x5 x6 x7 x8 x9 x10 x11 x22 x23
local notation "V91" => val_main_v91 (F := Ideal) x0 x1 x2 x3 x4 x5 x6 x7 x8 x9 x10 x11 x12 x22 x23
local notation "V116" => val_main_v116 (F := Ideal) x0 x1 x2 x3 x4 x5 x6 x7 x8 x9 x10 x11 x12 x13 x14 x22 x23
local notation "V118" => val_main_v118 (F := Ideal) x0 x1 x2 x3 x4 x5 x6 x7 x8 x9 x10 x11 x12 x13 x14 x15 x22 x23

namespace RefEdge

/-! ### The first distance layer -/

/-- The first product at (e, j): the displacement row of e times column j of the transposed weights. -/
theorem v16_at (e : Fin 414626) (j : Fin 128) :
    V16 (ix2 e j) = dotRow (fun k => V14 (ix2 e k)) (fun k j => x4 (ix2 j k)) j := by
  refine (val_main_v16_apply x2 x3 x4 x22 x23 (ix2 e j)).trans (Finset.sum_congr rfl fun k _ => ?_)
  have hl : lidx_main_v16 (ix2 e j) k = ix2 e k := funext fun a => Fin.ext (by match a with | ⟨0, _⟩ => rfl | ⟨1, _⟩ => rfl)
  have hr : idx_main_v15 (ridx_main_v16 (ix2 e j) k) = ix2 j k := funext fun a => Fin.ext (by match a with | ⟨0, _⟩ => rfl | ⟨1, _⟩ => rfl)
  rw [hl, val_main_v15_apply, hr]

theorem v20_eq : V20 = reluBlock (addf V16 (rowVec x5)) := rfl

/-- The first layer at (e, j): product plus bias, rectified. -/
theorem v20_at (e : Fin 414626) (j : Fin 128) :
    V20 (ix2 e j) = relu (dotRow (fun k => V14 (ix2 e k)) (fun k j => x4 (ix2 j k)) j + x5 (ix1 j)) := by
  rw [v20_eq, reluBlock_apply]
  exact congrArg relu (congrArg₂ (fun a c => a + c) (v16_at x2 x3 x4 x22 x23 e j) (rowVec_apply x5 e j))

/-! ### The second distance layer -/

theorem v22_at (e : Fin 414626) (j : Fin 128) :
    V22 (ix2 e j) = dotRow (fun k => V20 (ix2 e k)) (fun k j => x6 (ix2 j k)) j := by
  refine (val_main_v22_apply x2 x3 x4 x5 x6 x22 x23 (ix2 e j)).trans (Finset.sum_congr rfl fun k _ => ?_)
  have hl : lidx_main_v22 (ix2 e j) k = ix2 e k := funext fun a => Fin.ext (by match a with | ⟨0, _⟩ => rfl | ⟨1, _⟩ => rfl)
  have hr : idx_main_v21 (ridx_main_v22 (ix2 e j) k) = ix2 j k := funext fun a => Fin.ext (by match a with | ⟨0, _⟩ => rfl | ⟨1, _⟩ => rfl)
  rw [hl, val_main_v21_apply, hr]

theorem v47_eq : V47 = reluBlock (gnBlock V22 x7 x8) := rfl

theorem v47_at (e : Fin 414626) (j : Fin 128) :
    V47 (ix2 e j) = relu (gn (fun k => V22 (ix2 e k)) (fun j => x7 (ix1 j)) (fun j => x8 (ix1 j)) j) := by
  rw [v47_eq, reluBlock_apply, gnBlock_apply]

/-! ### The query layer -/

theorem v56_at (e : Fin 414626) (j : Fin 128) :
    V56 (ix2 e j) = dotRow (fun k => V54 (ix2 e k)) (fun k j => x9 (ix2 j k)) j := by
  refine (val_main_v56_apply x0 x9 x22 (ix2 e j)).trans (Finset.sum_congr rfl fun k _ => ?_)
  have hl : lidx_main_v56 (ix2 e j) k = ix2 e k := funext fun a => Fin.ext (by match a with | ⟨0, _⟩ => rfl | ⟨1, _⟩ => rfl)
  have hr : idx_main_v55 (ridx_main_v56 (ix2 e j) k) = ix2 j k := funext fun a => Fin.ext (by match a with | ⟨0, _⟩ => rfl | ⟨1, _⟩ => rfl)
  rw [hl, val_main_v55_apply, hr]

theorem v81_eq : V81 = reluBlock (gnBlock V56 x10 x11) := rfl

theorem v81_at (e : Fin 414626) (j : Fin 128) :
    V81 (ix2 e j) = relu (gn (fun k => V56 (ix2 e k)) (fun j => x10 (ix1 j)) (fun j => x11 (ix1 j)) j) := by
  rw [v81_eq, reluBlock_apply, gnBlock_apply]

/-! ### The layer over the three concatenated rows -/

/-- The concatenation at (e, k): the three rows of e side by side. -/
theorem v89_at (e : Fin 414626) (k : Fin 384) :
    V89 (ix2 e k) = cat3 (fun j => V47 (ix2 e j)) (fun j => V81 (ix2 e j)) (fun j => V88 (ix2 e j)) k := by
  unfold val_main_v89
  exact concat3_apply _ _ _ e k

theorem v91_at (e : Fin 414626) (j : Fin 128) :
    V91 (ix2 e j) = dotRow (cat3 (fun j => V47 (ix2 e j)) (fun j => V81 (ix2 e j)) (fun j => V88 (ix2 e j)))
      (fun k j => x12 (ix2 j k)) j := by
  refine (val_main_v91_apply x0 x1 x2 x3 x4 x5 x6 x7 x8 x9 x10 x11 x12 x22 x23 (ix2 e j)).trans
    (Finset.sum_congr rfl fun k _ => ?_)
  have hl : lidx_main_v91 (ix2 e j) k = ix2 e k := funext fun a => Fin.ext (by match a with | ⟨0, _⟩ => rfl | ⟨1, _⟩ => rfl)
  have hr : idx_main_v90 (ridx_main_v91 (ix2 e j) k) = ix2 j k := funext fun a => Fin.ext (by match a with | ⟨0, _⟩ => rfl | ⟨1, _⟩ => rfl)
  rw [hl, val_main_v90_apply, hr, v89_at]

theorem v116_eq : V116 = reluBlock (gnBlock V91 x13 x14) := rfl

theorem v116_at (e : Fin 414626) (j : Fin 128) :
    V116 (ix2 e j) = relu (gn (fun k => V91 (ix2 e k)) (fun j => x13 (ix1 j)) (fun j => x14 (ix1 j)) j) := by
  rw [v116_eq, reluBlock_apply, gnBlock_apply]

/-! ### The last linear map -/

theorem v118_at (e : Fin 414626) (j : Fin 128) :
    V118 (ix2 e j) = dotRow (fun k => V116 (ix2 e k)) (fun k j => x15 (ix2 j k)) j := by
  refine (val_main_v118_apply x0 x1 x2 x3 x4 x5 x6 x7 x8 x9 x10 x11 x12 x13 x14 x15 x22 x23 (ix2 e j)).trans
    (Finset.sum_congr rfl fun k _ => ?_)
  have hl : lidx_main_v118 (ix2 e j) k = ix2 e k := funext fun a => Fin.ext (by match a with | ⟨0, _⟩ => rfl | ⟨1, _⟩ => rfl)
  have hr : idx_main_v117 (ridx_main_v118 (ix2 e j) k) = ix2 j k := funext fun a => Fin.ext (by match a with | ⟨0, _⟩ => rfl | ⟨1, _⟩ => rfl)
  rw [hl, val_main_v117_apply, hr]

/-! ### The rows of the four layers -/

theorem row20 (e : Fin 414626) :
    (fun j => V20 (ix2 e j))
      = fun j => relu (dotRow (fun k => V14 (ix2 e k)) (fun k j => x4 (ix2 j k)) j + x5 (ix1 j)) :=
  funext fun j => v20_at x2 x3 x4 x5 x22 x23 e j

theorem row47 (e : Fin 414626) :
    (fun j => V47 (ix2 e j))
      = fun j => relu (gn (dotRow (fun j => relu (dotRow (fun k => V14 (ix2 e k)) (fun k j => x4 (ix2 j k)) j
          + x5 (ix1 j))) (fun k j => x6 (ix2 j k))) (fun j => x7 (ix1 j)) (fun j => x8 (ix1 j)) j) := by
  have h : (fun k => V22 (ix2 e k))
      = dotRow (fun j => relu (dotRow (fun k => V14 (ix2 e k)) (fun k j => x4 (ix2 j k)) j + x5 (ix1 j)))
          (fun k j => x6 (ix2 j k)) :=
    funext fun k => (v22_at x2 x3 x4 x5 x6 x22 x23 e k).trans
      (congrArg (fun r => dotRow r (fun k j => x6 (ix2 j k)) k) (row20 x2 x3 x4 x5 x22 x23 e))
  funext j
  rw [v47_at, h]

theorem row81 (e : Fin 414626) :
    (fun j => V81 (ix2 e j))
      = fun j => relu (gn (dotRow (fun k => V54 (ix2 e k)) (fun k j => x9 (ix2 j k))) (fun j => x10 (ix1 j))
          (fun j => x11 (ix1 j)) j) := by
  have h : (fun k => V56 (ix2 e k)) = dotRow (fun k => V54 (ix2 e k)) (fun k j => x9 (ix2 j k)) :=
    funext fun k => v56_at x0 x9 x22 e k
  funext j
  rw [v81_at, h]

theorem row116 (e : Fin 414626) :
    (fun j => V116 (ix2 e j))
      = fun j => relu (gn (dotRow (cat3
          (fun j => relu (gn (dotRow (fun j => relu (dotRow (fun k => V14 (ix2 e k)) (fun k j => x4 (ix2 j k)) j
            + x5 (ix1 j))) (fun k j => x6 (ix2 j k))) (fun j => x7 (ix1 j)) (fun j => x8 (ix1 j)) j))
          (fun j => relu (gn (dotRow (fun k => V54 (ix2 e k)) (fun k j => x9 (ix2 j k))) (fun j => x10 (ix1 j))
            (fun j => x11 (ix1 j)) j))
          (fun j => V88 (ix2 e j))) (fun k j => x12 (ix2 j k))) (fun j => x13 (ix1 j)) (fun j => x14 (ix1 j)) j) := by
  have h : (fun k => V91 (ix2 e k))
      = dotRow (cat3
          (fun j => relu (gn (dotRow (fun j => relu (dotRow (fun k => V14 (ix2 e k)) (fun k j => x4 (ix2 j k)) j
            + x5 (ix1 j))) (fun k j => x6 (ix2 j k))) (fun j => x7 (ix1 j)) (fun j => x8 (ix1 j)) j))
          (fun j => relu (gn (dotRow (fun k => V54 (ix2 e k)) (fun k j => x9 (ix2 j k))) (fun j => x10 (ix1 j))
            (fun j => x11 (ix1 j)) j))
          (fun j => V88 (ix2 e j))) (fun k j => x12 (ix2 j k)) :=
    funext fun k => (v91_at x0 x1 x2 x3 x4 x5 x6 x7 x8 x9 x10 x11 x12 x22 x23 e k).trans
      (congrArg₂ (fun u v => dotRow (cat3 u v (fun j => V88 (ix2 e j))) (fun k j => x12 (ix2 j k)) k)
        (row47 x2 x3 x4 x5 x6 x7 x8 x22 x23 e) (row81 x0 x9 x10 x11 x22 e))
  funext j
  rw [v116_at, h]

end RefEdge

/-! ### The edge stage -/

/-- The reference's edge stage at (e, j) is the feature row of edge e, from its three gathered rows and the weights
    (each matrix transposed: the reference contracts with the transpose), at entry j. -/
theorem ref_edge_apply (e : Fin 414626) (j : Fin 128) :
    val_main_v118 (F := Ideal) x0 x1 x2 x3 x4 x5 x6 x7 x8 x9 x10 x11 x12 x13 x14 x15 x22 x23 (ix2 e j)
      = edgeRow (fun k => val_main_v14 (F := Ideal) x2 x3 x22 x23 (ix2 e k))
          (fun k => val_main_v54 (F := Ideal) x0 x22 (ix2 e k))
          (fun k => val_main_v88 (F := Ideal) x1 x23 (ix2 e k))
          (fun k j => x4 (ix2 j k)) (fun j => x5 (ix1 j))
          (fun k j => x6 (ix2 j k)) (fun j => x7 (ix1 j)) (fun j => x8 (ix1 j))
          (fun k j => x9 (ix2 j k)) (fun j => x10 (ix1 j)) (fun j => x11 (ix1 j))
          (fun k j => x12 (ix2 j k)) (fun j => x13 (ix1 j)) (fun j => x14 (ix1 j))
          (fun k j => x15 (ix2 j k)) j :=
  (v118_at x0 x1 x2 x3 x4 x5 x6 x7 x8 x9 x10 x11 x12 x13 x14 x15 x22 x23 e j).trans
    (congrArg (fun r => dotRow r (fun k j => x15 (ix2 j k)) j)
      (row116 x0 x1 x2 x3 x4 x5 x6 x7 x8 x9 x10 x11 x12 x13 x14 x22 x23 e))

end Edge

end Cert.Gnn

end
-- ==== Proof.RefNode.lean ====
import proofs.«139836_j74208444940775_2_alg».proof.Proof.RefReadP
import proofs.«139836_j74208444940775_2_alg».proof.Proof.RowSpec
import Idealize.ShloMosaic.Lib.ValueIdx
import Idealize.ShloMosaic.Lib.Pipeline.Value
import Idealize.ShloMosaic.PureOps.Ideal.Laws

/-! The reference's node stage, one output element at a time.

The node stage takes the array the scatter produced, normalises each of its rows (mean, variance, gain and
shift), rectifies, multiplies by the transposed second-layer matrix, normalises again, adds the node's own
feature row and rectifies. Every one of these steps acts on rows independently, so the element (n, j) of the
result is the row function `nodeRow` of RowSpec applied to row n of the inputs. The normalisation occurs
twice with the same sequence of array operations; it is stated once over an arbitrary array (`gnBlock`) and
read at an index once (`gnBlock_apply`); each layer's chain of operations is that block by unfolding. -/

noncomputable section

namespace Cert.Gnn

open Idealize.ShloMosaic Idealize.ShloMosaic.ValueIdx Cert.ReferenceIdeal Cert.ReferenceIdeal.Gen Cert.ReferenceIdeal.Read

namespace RefNode

abbrev Arr := FVec Ideal S20000x128 .f32
abbrev ColArr := FVec Ideal S20000x1 .f32
abbrev NodeVec := FVec Ideal S20000 .f32
abbrev Vec128 := FVec Ideal S128 .f32

/-! ## The array operations of the normalisation, over an arbitrary array -/

/-- The sum of each row. -/
def rowSum (Y : Arr) : NodeVec :=
  Host.reduceAdd (F := Ideal) Y (constant (F := Ideal) S_ .f32 0x00000000#32) reducesTo_S20000x128_S20000_d1 h_S_

theorem rowSum_apply (Y : Arr) (n : Fin 20000) : rowSum Y (ix1 n) = ∑ k : Fin 128, Y (ix2 n k) := by
  have h : rowSum Y (ix1 n) = Ideal.ofBits .f32 0x00000000#32 + ∑ k : Fin 128, Y (ix2 n k) := by
    unfold rowSum
    simp only [Host.reduceAdd, Ideal.hostReduceAdd_def]
    rw [Ideal.hostReduceAdd_single reducesTo_S20000x128_S20000_d1 (by decide)]
    refine congrArg (_ + ·) (Finset.sum_congr rfl fun k _ => ?_)
    exact congrArg Y (funext fun a => Fin.ext (by match a with | ⟨0, _⟩ => rfl | ⟨1, _⟩ => rfl))
  rw [h, Ideal.ofBits_zero_f32, zero_add]

/-- A vector over the nodes as a column. -/
def col (v : NodeVec) : ColArr := broadcastInDim S20000x1 ![0] bcast_S20000_S20000x1_0 v

theorem col_apply (v : NodeVec) (n : Fin 20000) (z : Fin 1) : col v (ix2 n z) = v (ix1 n) := by
  unfold col
  exact broadcastInDim_apply _ bcast_S20000_S20000x1_0 v (ix2 n z) (ix1 n) (fun a => match a with
    | ⟨0, _⟩ => by show n.val = if (20000 : Nat) = 1 then 0 else n.val; rw [if_neg (by decide)])

/-- A column repeated along every row. -/
def spread (c : ColArr) : Arr := broadcastInDim S20000x128 ![0, 1] bcast_S20000x1_S20000x128_0_1 c

theorem spread_apply (c : ColArr) (n : Fin 20000) (j : Fin 128) : spread c (ix2 n j) = c (ix2 n 0) := by
  unfold spread
  exact broadcastInDim_apply _ bcast_S20000x1_S20000x128_0_1 c (ix2 n j) (ix2 n 0) (fun a => match a with
    | ⟨0, _⟩ => by show n.val = if (20000 : Nat) = 1 then 0 else n.val; rw [if_neg (by decide)]
    | ⟨1, _⟩ => by show 0 = if (1 : Nat) = 1 then 0 else j.val; rw [if_pos rfl])

/-- A constant column. -/
def cstCol (w : BitVec 32) : ColArr := broadcastInDim S20000x1 ![] bcast_S_S20000x1 (constant (F := Ideal) S_ .f32 w)

theorem cstCol_apply (w : BitVec 32) (i : S20000x1.Idx) : cstCol w i = Ideal.ofBits .f32 w := rfl

/-- A vector of 128 entries repeated in every row. -/
def rowVec (g : Vec128) : Arr :=
  broadcastInDim S20000x128 ![0, 1] bcast_S1x128_S20000x128_0_1 (broadcastInDim S1x128 ![1] bcast_S128_S1x128_1 g)

theorem rowVec_apply (g : Vec128) (n : Fin 20000) (j : Fin 128) : rowVec g (ix2 n j) = g (ix1 j) := by
  unfold rowVec
  refine (broadcastInDim_apply _ bcast_S1x128_S20000x128_0_1 _ (ix2 n j) (ix2 0 j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 g (ix2 0 j) (ix1 j) (fun a => match a with
    | ⟨0, _⟩ => by show j.val = if (128 : Nat) = 1 then 0 else j.val; rw [if_neg (by decide)])

/-- The column of row means: row sums divided by 128. -/
def meanCol (Y : Arr) : ColArr := Host.divf (F := Ideal) (col (rowSum Y)) (cstCol 0x43000000#32)

theorem meanCol_apply (Y : Arr) (n : Fin 20000) : meanCol Y (ix2 n 0) = mean128 fun k => Y (ix2 n k) := by
  show Ideal.div (col (rowSum Y) (ix2 n 0)) (cstCol 0x43000000#32 (ix2 n 0)) = _
  rw [col_apply, cstCol_apply, rowSum_apply]
  rfl

/-- Each row minus its mean. -/
def centredArr (Y : Arr) : Arr := subf (F := Ideal) Y (spread (meanCol Y))

theorem centredArr_apply (Y : Arr) (n : Fin 20000) (j : Fin 128) :
    centredArr Y (ix2 n j) = centred (fun k => Y (ix2 n k)) j := by
  show Y (ix2 n j) - spread (meanCol Y) (ix2 n j) = _
  rw [spread_apply, meanCol_apply]
  rfl

/-- The normalisation as the reference computes it: the centred array times the reciprocal square root of
    (row variance + ε), times the gain, plus the shift. -/
def gnBlock (Y : Arr) (g b : Vec128) : Arr :=
  addf (F := Ideal) (mulf (F := Ideal) (mulf (F := Ideal) (centredArr Y)
      (spread (Host.rsqrt (F := Ideal)
        (addf (F := Ideal) (meanCol (mulf (F := Ideal) (centredArr Y) (centredArr Y))) (cstCol 0x3727C5AC#32)))))
    (rowVec g)) (rowVec b)

theorem gnBlock_apply (Y : Arr) (g b : Vec128) (n : Fin 20000) (j : Fin 128) :
    gnBlock Y g b (ix2 n j) = gn (fun k => Y (ix2 n k)) (fun j => g (ix1 j)) (fun j => b (ix1 j)) j := by
  show centredArr Y (ix2 n j)
        * spread (Host.rsqrt (F := Ideal) (addf (F := Ideal) (meanCol (mulf (F := Ideal) (centredArr Y) (centredArr Y))) (cstCol 0x3727C5AC#32))) (ix2 n j)
        * rowVec g (ix2 n j) + rowVec b (ix2 n j) = _
  rw [spread_apply, rowVec_apply, rowVec_apply, centredArr_apply]
  show centred (fun k => Y (ix2 n k)) j
        * Ideal.rsqrt (meanCol (mulf (F := Ideal) (centredArr Y) (centredArr Y)) (ix2 n 0) + cstCol 0x3727C5AC#32 (ix2 n 0))
        * g (ix1 j) + b (ix1 j) = _
  rw [meanCol_apply, cstCol_apply]
  have hsq : (fun k : Fin 128 => mulf (F := Ideal) (centredArr Y) (centredArr Y) (ix2 n k))
      = fun k => centred (fun k => Y (ix2 n k)) k * centred (fun k => Y (ix2 n k)) k :=
    funext fun k => by
      show centredArr Y (ix2 n k) * centredArr Y (ix2 n k) = _
      rw [centredArr_apply]
  rw [hsq]
  rfl

end RefNode

open RefNode

/-! ## The node's own linear map -/

/-- The product of the feature array with the transposed weight matrix, at (n, j): row n against column j
    of the transpose, that is against row j of the matrix. -/
theorem ref_selfprod_apply (x0 : (⟨S20000x128, .f32⟩ : BufTy).Contents (Elt Ideal))
    (x16 : (⟨S128x128, .f32⟩ : BufTy).Contents (Elt Ideal)) (n : Fin 20000) (j : Fin 128) :
    val_main_v120 (F := Ideal) x0 x16 (ix2 n j)
      = dotRow (fun k => x0 (ix2 n k)) (fun k j => x16 (ix2 j k)) j := by
  rw [val_main_v120_apply]
  unfold dotRow
  refine Finset.sum_congr rfl fun k _ => ?_
  rw [val_main_v119_apply]
  have e1 : lidx_main_v120 (ix2 n j) k = ix2 n k :=
    funext fun a => by match a with | ⟨0, _⟩ => rfl | ⟨1, _⟩ => rfl
  have e2 : idx_main_v119 (ridx_main_v120 (ix2 n j) k) = ix2 j k :=
    funext fun a => by match a with | ⟨0, _⟩ => rfl | ⟨1, _⟩ => rfl
  rw [e1, e2]

/-! ## The two layers of the node stage -/

section Layers

variable (x0 x1 : (⟨S20000x128, .f32⟩ : BufTy).Contents (Elt Ideal))
  (x2 x3 : (⟨S20000x2, .f32⟩ : BufTy).Contents (Elt Ideal))
  (x4 : (⟨S128x2, .f32⟩ : BufTy).Contents (Elt Ideal))
  (x5 : (⟨S128, .f32⟩ : BufTy).Contents (Elt Ideal))
  (x6 : (⟨S128x128, .f32⟩ : BufTy).Contents (Elt Ideal))
  (x7 x8 : (⟨S128, .f32⟩ : BufTy).Contents (Elt Ideal))
  (x9 : (⟨S128x128, .f32⟩ : BufTy).Contents (Elt Ideal))
  (x10 x11 : (⟨S128, .f32⟩ : BufTy).Contents (Elt Ideal))
  (x12 : (⟨S128x384, .f32⟩ : BufTy).Contents (Elt Ideal))
  (x13 x14 : (⟨S128, .f32⟩ : BufTy).Contents (Elt Ideal))
  (x15 x16 : (⟨S128x128, .f32⟩ : BufTy).Contents (Elt Ideal))
  (x17 x18 : (⟨S128, .f32⟩ : BufTy).Contents (Elt Ideal))
  (x19 : (⟨S128x128, .f32⟩ : BufTy).Contents (Elt Ideal))
  (x20 x21 : (⟨S128, .f32⟩ : BufTy).Contents (Elt Ideal))
  (x22 x23 : (⟨S414626, .i32⟩ : BufTy).Contents (Elt Ideal))

namespace RefNode

/-- The first normalisation is the block applied to the array the scatter produced, with the first gain and
    shift: the operations are the block's, one for one. -/
theorem norm1_eq :
    val_main_v151 (F := Ideal) x0 x1 x2 x3 x4 x5 x6 x7 x8 x9 x10 x11 x12 x13 x14 x15 x16 x17 x18 x22 x23 = gnBlock (val_main_v127 (F := Ideal) x0 x1 x2 x3 x4 x5 x6 x7 x8 x9 x10 x11 x12 x13 x14 x15 x16 x22 x23) x17 x18 := rfl

/-- The rectified first normalisation at (n, j). The rectifier's zero array reads the zero word everywhere. -/
theorem relu1_apply (n : Fin 20000) (j : Fin 128) :
    val_main_v152 (F := Ideal) x0 x1 x2 x3 x4 x5 x6 x7 x8 x9 x10 x11 x12 x13 x14 x15 x16 x17 x18 x22 x23 (ix2 n j)
      = relu (gn (fun k => val_main_v127 (F := Ideal) x0 x1 x2 x3 x4 x5 x6 x7 x8 x9 x10 x11 x12 x13 x14 x15 x16 x22 x23 (ix2 n k)) (fun j => x17 (ix1 j)) (fun j => x18 (ix1 j)) j) := by
  show relu (val_main_v151 (F := Ideal) x0 x1 x2 x3 x4 x5 x6 x7 x8 x9 x10 x11 x12 x13 x14 x15 x16 x17 x18 x22 x23 (ix2 n j)) = _
  rw [norm1_eq, gnBlock_apply]

/-- The second linear map at (n, j): row n of the rectified array against row j of the weight matrix. -/
theorem lin2_apply (n : Fin 20000) (j : Fin 128) :
    val_main_v154 (F := Ideal) x0 x1 x2 x3 x4 x5 x6 x7 x8 x9 x10 x11 x12 x13 x14 x15 x16 x17 x18 x19 x22 x23 (ix2 n j)
      = dotRow (fun k => val_main_v152 (F := Ideal) x0 x1 x2 x3 x4 x5 x6 x7 x8 x9 x10 x11 x12 x13 x14 x15 x16 x17 x18 x22 x23 (ix2 n k)) (fun k j => x19 (ix2 j k)) j := by
  rw [val_main_v154_apply]
  unfold dotRow
  refine Finset.sum_congr rfl fun k _ => ?_
  rw [val_main_v153_apply]
  have e1 : lidx_main_v154 (ix2 n j) k = ix2 n k :=
    funext fun a => by match a with | ⟨0, _⟩ => rfl | ⟨1, _⟩ => rfl
  have e2 : idx_main_v153 (ridx_main_v154 (ix2 n j) k) = ix2 j k :=
    funext fun a => by match a with | ⟨0, _⟩ => rfl | ⟨1, _⟩ => rfl
  rw [e1, e2]

/-- The second normalisation is the block applied to the second linear map's result, with the second gain
    and shift. -/
theorem norm2_eq :
    val_main_v178 (F := Ideal) x0 x1 x2 x3 x4 x5 x6 x7 x8 x9 x10 x11 x12 x13 x14 x15 x16 x17 x18 x19 x20 x21 x22 x23 = gnBlock (val_main_v154 (F := Ideal) x0 x1 x2 x3 x4 x5 x6 x7 x8 x9 x10 x11 x12 x13 x14 x15 x16 x17 x18 x19 x22 x23) x20 x21 := rfl

end RefNode

/-- The node stage's result at (n, j) is the node row function of row n of the feature array and of the
    scatter's result, with the weights read by coordinates (the matrix transposed, as the reference
    contracts with its transpose). -/
theorem ref_node_apply (n : Fin 20000) (j : Fin 128) :
    val_main_v180 (F := Ideal) x0 x1 x2 x3 x4 x5 x6 x7 x8 x9 x10 x11 x12 x13 x14 x15 x16 x17 x18 x19 x20 x21 x22 x23 (ix2 n j)
      = nodeRow (fun k => x0 (ix2 n k)) (fun k => val_main_v127 (F := Ideal) x0 x1 x2 x3 x4 x5 x6 x7 x8 x9 x10 x11 x12 x13 x14 x15 x16 x22 x23 (ix2 n k))
          (fun j => x17 (ix1 j)) (fun j => x18 (ix1 j))
          (fun k j => x19 (ix2 j k)) (fun j => x20 (ix1 j)) (fun j => x21 (ix1 j)) j := by
  show relu (val_main_v178 (F := Ideal) x0 x1 x2 x3 x4 x5 x6 x7 x8 x9 x10 x11 x12 x13 x14 x15 x16 x17 x18 x19 x20 x21 x22 x23 (ix2 n j) + x0 (ix2 n j)) = _
  rw [norm2_eq, gnBlock_apply]
  have h2 : (fun k : Fin 128 => val_main_v154 (F := Ideal) x0 x1 x2 x3 x4 x5 x6 x7 x8 x9 x10 x11 x12 x13 x14 x15 x16 x17 x18 x19 x22 x23 (ix2 n k))
      = dotRow (fun k => relu (gn (fun k => val_main_v127 (F := Ideal) x0 x1 x2 x3 x4 x5 x6 x7 x8 x9 x10 x11 x12 x13 x14 x15 x16 x22 x23 (ix2 n k)) (fun j => x17 (ix1 j)) (fun j => x18 (ix1 j)) k))
          (fun k j => x19 (ix2 j k)) :=
    funext fun k => (lin2_apply x0 x1 x2 x3 x4 x5 x6 x7 x8 x9 x10 x11 x12 x13 x14 x15 x16 x17 x18 x19 x22 x23 n k).trans
      (congrArg (fun f => dotRow f (fun k j => x19 (ix2 j k)) k)
        (funext fun k' => relu1_apply x0 x1 x2 x3 x4 x5 x6 x7 x8 x9 x10 x11 x12 x13 x14 x15 x16 x17 x18 x22 x23 n k'))
  rw [h2]
  rfl

end Layers

end Cert.Gnn

end
-- ==== Proof.Bridge.lean ====
import proofs.«139836_j74208444940775_2_alg».proof.Proof.KernelValue
import proofs.«139836_j74208444940775_2_alg».proof.Proof.IndexFacts
import proofs.«139836_j74208444940775_2_alg».proof.Proof.RefEdge
import proofs.«139836_j74208444940775_2_alg».proof.Proof.RefNode

/-! The two programs compute one array.

Row by row both are the node row function. The only stage at which they are arranged differently is the scatter:
the reference sums the edge rows into the nodes' own products, with the index array's negative entries shifted up by
20000; the kernel sums them into a zero array, with the index array as it is, and adds the nodes' own products
afterwards. Where no index is negative the two index columns are the same array, the edge rows are the same rows,
and a + (0 + s) = a + s on the extended reals, whatever a and s are. -/

set_option maxRecDepth 16384

noncomputable section

namespace Cert.Gnn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- Argument 0 of the launch memory, typed as the reference takes it. -/
abbrev X0 (c : Dev nD) : (⟨Cert.ReferenceIdeal.S20000x128, .f32⟩ : BufTy).Contents (Elt Ideal) := m ((c : Thread nD τ).loc main_arg0)
/-- Argument 1 of the launch memory, typed as the reference takes it. -/
abbrev X1 (c : Dev nD) : (⟨Cert.ReferenceIdeal.S20000x128, .f32⟩ : BufTy).Contents (Elt Ideal) := m ((c : Thread nD τ).loc main_arg1)
/-- Argument 2 of the launch memory, typed as the reference takes it. -/
abbrev X2 (c : Dev nD) : (⟨Cert.ReferenceIdeal.S20000x2, .f32⟩ : BufTy).Contents (Elt Ideal) := m ((c : Thread nD τ).loc main_arg2)
/-- Argument 3 of the launch memory, typed as the reference takes it. -/
abbrev X3 (c : Dev nD) : (⟨Cert.ReferenceIdeal.S20000x2, .f32⟩ : BufTy).Contents (Elt Ideal) := m ((c : Thread nD τ).loc main_arg3)
/-- Argument 4 of the launch memory, typed as the reference takes it. -/
abbrev X4 (c : Dev nD) : (⟨Cert.ReferenceIdeal.S128x2, .f32⟩ : BufTy).Contents (Elt Ideal) := m ((c : Thread nD τ).loc main_arg4)
/-- Argument 5 of the launch memory, typed as the reference takes it. -/
abbrev X5 (c : Dev nD) : (⟨Cert.ReferenceIdeal.S128, .f32⟩ : BufTy).Contents (Elt Ideal) := m ((c : Thread nD τ).loc main_arg5)
/-- Argument 6 of the launch memory, typed as the reference takes it. -/
abbrev X6 (c : Dev nD) : (⟨Cert.ReferenceIdeal.S128x128, .f32⟩ : BufTy).Contents (Elt Ideal) := m ((c : Thread nD τ).loc main_arg6)
/-- Argument 7 of the launch memory, typed as the reference takes it. -/
abbrev X7 (c : Dev nD) : (⟨Cert.ReferenceIdeal.S128, .f32⟩ : BufTy).Contents (Elt Ideal) := m ((c : Thread nD τ).loc main_arg7)
/-- Argument 8 of the launch memory, typed as the reference takes it. -/
abbrev X8 (c : Dev nD) : (⟨Cert.ReferenceIdeal.S128, .f32⟩ : BufTy).Contents (Elt Ideal) := m ((c : Thread nD τ).loc main_arg8)
/-- Argument 9 of the launch memory, typed as the reference takes it. -/
abbrev X9 (c : Dev nD) : (⟨Cert.ReferenceIdeal.S128x128, .f32⟩ : BufTy).Contents (Elt Ideal) := m ((c : Thread nD τ).loc main_arg9)
/-- Argument 10 of the launch memory, typed as the reference takes it. -/
abbrev X10 (c : Dev nD) : (⟨Cert.ReferenceIdeal.S128, .f32⟩ : BufTy).Contents (Elt Ideal) := m ((c : Thread nD τ).loc main_arg10)
/-- Argument 11 of the launch memory, typed as the reference takes it. -/
abbrev X11 (c : Dev nD) : (⟨Cert.ReferenceIdeal.S128, .f32⟩ : BufTy).Contents (Elt Ideal) := m ((c : Thread nD τ).loc main_arg11)
/-- Argument 12 of the launch memory, typed as the reference takes it. -/
abbrev X12 (c : Dev nD) : (⟨Cert.ReferenceIdeal.S128x384, .f32⟩ : BufTy).Contents (Elt Ideal) := m ((c : Thread nD τ).loc main_arg12)
/-- Argument 13 of the launch memory, typed as the reference takes it. -/
abbrev X13 (c : Dev nD) : (⟨Cert.ReferenceIdeal.S128, .f32⟩ : BufTy).Contents (Elt Ideal) := m ((c : Thread nD τ).loc main_arg13)
/-- Argument 14 of the launch memory, typed as the reference takes it. -/
abbrev X14 (c : Dev nD) : (⟨Cert.ReferenceIdeal.S128, .f32⟩ : BufTy).Contents (Elt Ideal) := m ((c : Thread nD τ).loc main_arg14)
/-- Argument 15 of the launch memory, typed as the reference takes it. -/
abbrev X15 (c : Dev nD) : (⟨Cert.ReferenceIdeal.S128x128, .f32⟩ : BufTy).Contents (Elt Ideal) := m ((c : Thread nD τ).loc main_arg15)
/-- Argument 16 of the launch memory, typed as the reference takes it. -/
abbrev X16 (c : Dev nD) : (⟨Cert.ReferenceIdeal.S128x128, .f32⟩ : BufTy).Contents (Elt Ideal) := m ((c : Thread nD τ).loc main_arg16)
/-- Argument 17 of the launch memory, typed as the reference takes it. -/
abbrev X17 (c : Dev nD) : (⟨Cert.ReferenceIdeal.S128, .f32⟩ : BufTy).Contents (Elt Ideal) := m ((c : Thread nD τ).loc main_arg17)
/-- Argument 18 of the launch memory, typed as the reference takes it. -/
abbrev X18 (c : Dev nD) : (⟨Cert.ReferenceIdeal.S128, .f32⟩ : BufTy).Contents (Elt Ideal) := m ((c : Thread nD τ).loc main_arg18)
/-- Argument 19 of the launch memory, typed as the reference takes it. -/
abbrev X19 (c : Dev nD) : (⟨Cert.ReferenceIdeal.S128x128, .f32⟩ : BufTy).Contents (Elt Ideal) := m ((c : Thread nD τ).loc main_arg19)
/-- Argument 20 of the launch memory, typed as the reference takes it. -/
abbrev X20 (c : Dev nD) : (⟨Cert.ReferenceIdeal.S128, .f32⟩ : BufTy).Contents (Elt Ideal) := m ((c : Thread nD τ).loc main_arg20)
/-- Argument 21 of the launch memory, typed as the reference takes it. -/
abbrev X21 (c : Dev nD) : (⟨Cert.ReferenceIdeal.S128, .f32⟩ : BufTy).Contents (Elt Ideal) := m ((c : Thread nD τ).loc main_arg21)
/-- Argument 22 of the launch memory, typed as the reference takes it. -/
abbrev X22 (c : Dev nD) : (⟨Cert.ReferenceIdeal.S414626, .i32⟩ : BufTy).Contents (Elt Ideal) := m ((c : Thread nD τ).loc main_arg22)
/-- Argument 23 of the launch memory, typed as the reference takes it. -/
abbrev X23 (c : Dev nD) : (⟨Cert.ReferenceIdeal.S414626, .i32⟩ : BufTy).Contents (Elt Ideal) := m ((c : Thread nD τ).loc main_arg23)

/-- The displacement rows the host gathers for the kernel are the reference's. -/
theorem disp_rows (c : Dev nD) : W1 m ρ c (Proc.devRef .tc main_v14)
    = Cert.ReferenceIdeal.Read.val_main_v14 (F := Ideal) (X2 m c) (X3 m c) (X22 m c) (X23 m c) := by
  rw [W1_main_v14]; rfl

/-- The head feature rows the host gathers for the kernel are the reference's. -/
theorem head_rows (c : Dev nD) : W1 m ρ c (Proc.devRef .tc main_v23)
    = Cert.ReferenceIdeal.Read.val_main_v54 (F := Ideal) (X0 m c) (X22 m c) := by
  rw [W1_main_v23]; rfl

/-- The tail feature rows the host gathers for the kernel are the reference's. -/
theorem tail_rows (c : Dev nD) : W1 m ρ c (Proc.devRef .tc main_v30)
    = Cert.ReferenceIdeal.Read.val_main_v88 (F := Ideal) (X1 m c) (X23 m c) := by
  rw [W1_main_v30]; rfl

/-- The rows the kernel scatters are the rows the reference scatters. -/
theorem scattered_rows (c : Dev nD) :
    extractStridedSlice S414626x128 ![0, 0] ((dat0 (V7 m ρ) c).arrAt 15 cfg0.N) slices_S416000x128_S414626x128_0_0
      = Cert.ReferenceIdeal.Read.val_main_v118 (F := Ideal) (X0 m c) (X1 m c) (X2 m c) (X3 m c) (X4 m c) (X5 m c) (X6 m c) (X7 m c) (X8 m c) (X9 m c) (X10 m c) (X11 m c) (X12 m c) (X13 m c) (X14 m c) (X15 m c) (X22 m c) (X23 m c) := by
  funext i
  obtain ⟨e, j, rfl⟩ : ∃ (e : Fin 414626) (j : Fin 128), i = ix2 e j := ⟨i 0, i 1, eq_ix2 i⟩
  rw [kernel_edge_rows, disp_rows, head_rows, tail_rows]
  exact (ref_edge_apply (X0 m c) (X1 m c) (X2 m c) (X3 m c) (X4 m c) (X5 m c) (X6 m c) (X7 m c) (X8 m c) (X9 m c) (X10 m c) (X11 m c) (X12 m c) (X13 m c) (X14 m c) (X15 m c) (X22 m c) (X23 m c) e j).symm

/-- Where no index is negative, the kernel's index column is the reference's. -/
theorem index_column (c : Dev nD) (hnn : ∀ i, IntOp.cmpi .slt ((X22 m c) i) 0#32 = 0#1) :
    broadcastInDim S414626x1 ![0] bcast_S414626_S414626x1_0 (X22 m c)
      = Cert.ReferenceIdeal.Read.val_main_v126 (F := Ideal) (X22 m c) := by
  show _ = broadcastInDim Cert.ReferenceIdeal.S414626x1 ![0] Cert.ReferenceIdeal.Facts₀.bcast_S414626_S414626x1_0
    (select (cmpi .slt (X22 m c) (broadcastInDim Cert.ReferenceIdeal.S414626 ![] Cert.ReferenceIdeal.Facts₀.bcast_S_S414626 (constantI Cert.ReferenceIdeal.S_ 32 0#32)))
      (addi (X22 m c) (broadcastInDim Cert.ReferenceIdeal.S414626 ![] Cert.ReferenceIdeal.Facts₀.bcast_S_S414626 (constantI Cert.ReferenceIdeal.S_ 32 20000#32))) (X22 m c))
  rw [wrap_id (X22 m c) Cert.ReferenceIdeal.Facts₀.bcast_S_S414626 hnn]

/-- The reference's scatter is the exact sum: each node's own product plus the edge rows sent to it. -/
theorem ref_scatter_sum (c : Dev nD) :
    Cert.ReferenceIdeal.Read.val_main_v127 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X22 m c) (X23 m c)
      = Ideal.hostScatterAdd Cert.ReferenceIdeal.scatter_S20000x128_S414626x1_S414626x128_1_0_0_1
          (Cert.ReferenceIdeal.Read.val_main_v120 (F := Ideal) (X0 m c) (X16 m c))
          (Cert.ReferenceIdeal.Read.val_main_v126 (F := Ideal) (X22 m c))
          (Cert.ReferenceIdeal.Read.val_main_v118 (F := Ideal) (X0 m c) (X1 m c) (X2 m c) (X3 m c) (X4 m c) (X5 m c) (X6 m c) (X7 m c) (X8 m c) (X9 m c) (X10 m c) (X11 m c) (X12 m c) (X13 m c) (X14 m c) (X15 m c) (X22 m c) (X23 m c)) := by
  unfold Cert.ReferenceIdeal.Read.val_main_v127 Host.scatterAdd
  exact Ideal.hostScatterAdd_def _ _ _ _ _

/-- The kernel's scatter is the exact sum into a zero array. -/
theorem kernel_scatter_sum (z : S20000x128.Idx → EReal) (idx : (⟨S414626x1, .i32⟩ : BufTy).Contents (Elt Ideal)) (upd : S414626x128.Idx → EReal) :
    Host.scatterAdd (F := Ideal) (φ := .f32) Cert.KernelIdeal.scatter_S20000x128_S414626x1_S414626x128_1_0_0_1 z idx upd = Ideal.hostScatterAdd Cert.KernelIdeal.scatter_S20000x128_S414626x1_S414626x128_1_0_0_1 z idx upd := by
  unfold Host.scatterAdd
  exact Ideal.hostScatterAdd_def _ _ _ _ _

/-- The two programs' scatters have the same dimension numbers. -/
theorem scatter_dims_eq : Cert.KernelIdeal.scatter_S20000x128_S414626x1_S414626x128_1_0_0_1 = Cert.ReferenceIdeal.scatter_S20000x128_S414626x1_S414626x128_1_0_0_1 := rfl

/-- The row entering the first node normalisation is the same on both sides: the kernel adds the node's own
    product to a sum into zero, the reference sums into the product. -/
theorem node_sum_eq (c : Dev nD) (hnn : ∀ i, IntOp.cmpi .slt ((X22 m c) i) 0#32 = 0#1) (n : Fin 20000) (k : Fin 128) :
    dotRow (fun k' => (X0 m c) (ix2 n k')) (fun k' j' => (X16 m c) (ix2 j' k')) k + V9 m ρ c main_v54 (ix2 n k)
      = Cert.ReferenceIdeal.Read.val_main_v127 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X22 m c) (X23 m c) (ix2 n k) := by
  rw [V9_main_v54, kernel_scatter_sum, W8_main_arg22, W8_arr m ρ c 15, scattered_rows, index_column m c hnn,
    ref_scatter_sum, scatter_dims_eq, ← ref_selfprod_apply (X0 m c) (X16 m c) n k]
  exact scatterAdd_zero_base _ _ _ _ _ (fun _ => Ideal.ofBits_zero_f32) _

/-- THE RESULT: where no index is negative the kernel's result array is the reference's result. -/
theorem result_eq (c : Dev nD) (hnn : ∀ i, IntOp.cmpi .slt ((X22 m c) i) 0#32 = 0#1) :
    W10 m ρ c (Proc.devRef .tc main_v63)
      = Cert.ReferenceIdeal.Read.val_main_v180 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) (X21 m c) (X22 m c) (X23 m c) := by
  funext i
  obtain ⟨n, j, rfl⟩ : ∃ (n : Fin 20000) (j : Fin 128), i = ix2 n j := ⟨i 0, i 1, eq_ix2 i⟩
  rw [kernel_node_rows, ref_node_apply (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) (X21 m c) (X22 m c) (X23 m c) n j]
  exact congrArg (fun a => nodeRow (fun k => (X0 m c) (ix2 n k)) a
      (fun j => (X17 m c) (ix1 j)) (fun j => (X18 m c) (ix1 j))
      (fun k j => (X19 m c) (ix2 j k)) (fun j => (X20 m c) (ix1 j))
      (fun j => (X21 m c) (ix1 j)) j) (funext fun k => node_sum_eq m ρ c hnn n k)

end Cert.Gnn

end
-- ==== Proof.lean ====
/- The claim: the kernel, its idealization and the reference each run to completion leaving their arguments as they
   were; the idealization changes nothing that needs a rule; and at the extended reals the idealized kernel and the
   reference return the same array whenever every float input is finite and no entry of the head index array is
   negative.

   The layer is a message-passing step on a graph: for every edge a feature row is computed from the displacement of
   its two endpoints and from the feature rows of its head and tail (three small normalised linear layers and a linear
   map over their concatenation); the edge rows are summed into their head nodes; every node's own product plus that
   sum is normalised, mapped, normalised again and added back to the node's features. The kernel computes the edge
   rows 2000 at a time (after padding the edge list with 1374 rows that are dropped again) and the node rows 4000 at
   a time; the reference computes them all at once. Row by row both are the same two functions (RowSpec); the sums
   over the edges differ only in that the kernel adds the nodes' own products after summing into zero, and reads the
   head index array as it is where the reference first shifts negative entries up by 20000 — the same array when no
   entry is negative. -/
import proofs.«139836_j74208444940775_2_alg».proof.Defs
import proofs.«139836_j74208444940775_2_alg».proof.Proof.Gen.Kernel
import proofs.«139836_j74208444940775_2_alg».proof.Proof.Gen.Kernel.Skeleton
import proofs.«139836_j74208444940775_2_alg».proof.Proof.Gen.Kernel.Launch
import proofs.«139836_j74208444940775_2_alg».proof.Proof.Gen.Kernel.Points
import proofs.«139836_j74208444940775_2_alg».proof.Proof.Gen.Kernel.Frame
import proofs.«139836_j74208444940775_2_alg».proof.Proof.Gen.KernelIdeal
import proofs.«139836_j74208444940775_2_alg».proof.Proof.Gen.KernelIdeal.Skeleton
import proofs.«139836_j74208444940775_2_alg».proof.Proof.Gen.KernelIdeal.Launch
import proofs.«139836_j74208444940775_2_alg».proof.Proof.Gen.KernelIdeal.Points
import proofs.«139836_j74208444940775_2_alg».proof.Proof.Gen.KernelIdeal.Frame
import proofs.«139836_j74208444940775_2_alg».proof.Proof.Gen.ReferenceIdeal
import proofs.«139836_j74208444940775_2_alg».proof.Proof.Gen.Pre_finite_inputs
import proofs.«139836_j74208444940775_2_alg».proof.Proof.KRun
import proofs.«139836_j74208444940775_2_alg».proof.Proof.RefRun
import proofs.«139836_j74208444940775_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- From memories agreeing on the arguments, the reference's result is the kernel's. -/
theorem ref_result (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.KernelIdeal.nD) :
    Cert.ReferenceIdeal.Read.val_main_v180 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.KernelIdeal.Gen.W10 m g c (Proc.devRef .tc Cert.KernelIdeal.main_v63) := by
  obtain ⟨e0, e1, e2, e3, e4, e5, e6, e7, e8, e9, e10, e11, e12, e13, e14, e15, e16, e17, e18, e19, e20, e21, e22, e23⟩ := hagree c
  rw [e0, e1, e2, e3, e4, e5, e6, e7, e8, e9, e10, e11, e12, e13, e14, e15, e16, e17, e18, e19, e20, e21, e22, e23]
  exact (Cert.Gnn.result_eq m g c (Cert.Gnn.hi_nonneg_of_pre _ _ _ _ _ _ _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunH.run m ρ),
  trivial,
  fun m g m' g' hpre hagree =>
    ⟨fun c => Cert.KernelIdeal.Gen.W10 m g c (Proc.devRef .tc Cert.KernelIdeal.main_v63),
     Cert.KernelIdeal.RunV.run_result m g,
     (θ_run Cert.ReferenceIdeal.defs _ _).mono (fun _ h c => ⟨(h c).1.trans (ref_result m g m' hpre hagree c), (h c).2⟩)
       (Cert.ReferenceIdeal.RunH.run m' g')⟩⟩

end Cert.Proof

end
